-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_v125)) (v2 : (c : Dev Cert.KernelIdeal.nD) → Buf (Elt Ideal) ((c.tc : Thread Cert.KernelIdeal.nD Cert.KernelIdeal.τ).loc Cert.KernelIdeal.main_v126)) (v3 : (c : Dev Cert.KernelIdeal.nD) → Buf (Elt Ideal) ((c.tc : Thread Cert.KernelIdeal.nD Cert.KernelIdeal.τ).loc Cert.KernelIdeal.main_v127)) (v4 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_v125) = v1 c
          ∧ r.2.mem ((c.tc : Thread Cert.KernelIdeal.nD Cert.KernelIdeal.τ).loc Cert.KernelIdeal.main_v126) = v2 c
          ∧ r.2.mem ((c.tc : Thread Cert.KernelIdeal.nD Cert.KernelIdeal.τ).loc Cert.KernelIdeal.main_v127) = v3 c
          ∧ r.2.mem ((c.tc : Thread Cert.KernelIdeal.nD Cert.KernelIdeal.τ).loc Cert.KernelIdeal.main_v128) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x80x80x85 : Shape := ⟨4, ![64, 80, 80, 85]⟩
abbrev S64x50x5 : Shape := ⟨3, ![64, 50, 5]⟩
abbrev S_ : Shape := ⟨0, ![]⟩

class Facts : Prop where
  bcast_S_S64x80x80x85 : S_.BroadcastsInDim S64x80x80x85 (![] : Fin 0 → Fin S64x80x80x85.rank)
  reducesTo_S64x80x80x85_S_d0_1_2_3 : S64x80x80x85.ReducesTo [0, 1, 2, 3] S_
  h_S_ : 0 < S_.numel
  bcast_S_S64x50x5 : S_.BroadcastsInDim S64x50x5 (![] : Fin 0 → Fin S64x50x5.rank)
  reducesTo_S64x50x5_S_d0_1_2 : S64x50x5.ReducesTo [0, 1, 2] S_

variable [Facts]

def fn {F : FTy → Type} [FloatOps F] (main_arg0 : FVec F S64x80x80x85 .f32) (main_arg1 : FVec F S64x50x5 .f32) : IVec S_ 1 :=
  let main_v0 : FVec F S64x80x80x85 .f32 := Host.absf main_arg0
  let main_cst : FVec F S_ .f32 := constant S_ .f32 0x7F800000#32
  let main_v1 : FVec F S64x80x80x85 .f32 := broadcastInDim S64x80x80x85 ![] bcast_S_S64x80x80x85 main_cst
  let main_v2 : IVec S64x80x80x85 1 := cmpf .olt main_v0 main_v1
  let main_c : IVec S_ 1 := constantI S_ 1 1#1
  let main_v3 : IVec S_ 1 := (fun x v => Host.reduce IntOp.andi x v reducesTo_S64x80x80x85_S_d0_1_2_3 h_S_) main_v2 main_c
  let main_v4 : FVec F S64x50x5 .f32 := Host.absf main_arg1
  let main_cst_0 : FVec F S_ .f32 := constant S_ .f32 0x7F800000#32
  let main_v5 : FVec F S64x50x5 .f32 := broadcastInDim S64x50x5 ![] bcast_S_S64x50x5 main_cst_0
  let main_v6 : IVec S64x50x5 1 := cmpf .olt main_v4 main_v5
  let main_c_1 : IVec S_ 1 := constantI S_ 1 1#1
  let main_v7 : IVec S_ 1 := (fun x v => Host.reduce IntOp.andi x v reducesTo_S64x50x5_S_d0_1_2 h_S_) main_v6 main_c_1
  let main_v8 : IVec S_ 1 := andi main_v3 main_v7
  main_v8
-- ==== Kernel.lean ====
abbrev S64x80x80x85 : Shape := ⟨4, ![64, 80, 80, 85]⟩
abbrev S64x50x5 : Shape := ⟨3, ![64, 50, 5]⟩
abbrev S64x50x1 : Shape := ⟨3, ![64, 50, 1]⟩
abbrev S64x50 : Shape := ⟨2, ![64, 50]⟩
abbrev S_ : Shape := ⟨0, ![]⟩
abbrev S64 : Shape := ⟨1, ![64]⟩
abbrev S64x1 : Shape := ⟨2, ![64, 1]⟩
abbrev S64x50x3 : Shape := ⟨3, ![64, 50, 3]⟩
abbrev S64x50x85 : Shape := ⟨3, ![64, 50, 85]⟩
abbrev S64x50x80 : Shape := ⟨3, ![64, 50, 80]⟩
abbrev S1x1x80 : Shape := ⟨3, ![1, 1, 80]⟩
abbrev S64x80x80 : Shape := ⟨3, ![64, 80, 80]⟩
abbrev S1x1 : Shape := ⟨2, ![1, 1]⟩
abbrev S4x80x80x85 : Shape := ⟨4, ![4, 80, 80, 85]⟩
abbrev S4x80x80 : Shape := ⟨3, ![4, 80, 80]⟩
abbrev S4x80x80x1 : Shape := ⟨4, ![4, 80, 80, 1]⟩
abbrev S4x80 : Shape := ⟨2, ![4, 80]⟩
abbrev S4x80x1 : Shape := ⟨3, ![4, 80, 1]⟩
abbrev S4x1 : Shape := ⟨2, ![4, 1]⟩
abbrev S4x1x1 : Shape := ⟨3, ![4, 1, 1]⟩
abbrev S1x1x1 : Shape := ⟨3, ![1, 1, 1]⟩

abbrev nBuf : Space → Nat
  | .hbm => 213
  | .vmem => 6
  | .smem => 0
  | _ => 0

abbrev hbmTy0_0 (i : Nat) : BufTy := match i % 128 with
  | 0 => ⟨S64x80x80x85, .f32⟩
  | 1 => ⟨S64x50x5, .f32⟩
  | 2 => ⟨S64x50x1, .f32⟩
  | 3 => ⟨S64x50, .f32⟩
  | 4 => ⟨S64x50, .i32⟩
  | 5 => ⟨S64x50x1, .f32⟩
  | 6 => ⟨S64x50, .f32⟩
  | 7 => ⟨S_, .f32⟩
  | 8 => ⟨S64x50, .f32⟩
  | 9 => ⟨S64x50, .f32⟩
  | 10 => ⟨S64x50x1, .f32⟩
  | 11 => ⟨S64x50, .f32⟩
  | 12 => ⟨S_, .f32⟩
  | 13 => ⟨S64x50, .f32⟩
  | 14 => ⟨S64x50, .f32⟩
  | 15 => ⟨S64x50x1, .f32⟩
  | 16 => ⟨S64x50, .f32⟩
  | 17 => ⟨S_, .f32⟩
  | 18 => ⟨S64x50, .f32⟩
  | 19 => ⟨S64x50, .f32⟩
  | 20 => ⟨S64x50x1, .f32⟩
  | 21 => ⟨S64x50, .f32⟩
  | 22 => ⟨S_, .f32⟩
  | 23 => ⟨S64x50, .f32⟩
  | 24 => ⟨S64x50, .f32⟩
  | 25 => ⟨S64x50, .i32⟩
  | 26 => ⟨S_, .i32⟩
  | 27 => ⟨S_, .i32⟩
  | 28 => ⟨S_, .i32⟩
  | 29 => ⟨S64x50, .i32⟩
  | 30 => ⟨S64x50, .i32⟩
  | 31 => ⟨S_, .i32⟩
  | 32 => ⟨S64x50, .i32⟩
  | 33 => ⟨S64x50, .i32⟩
  | 34 => ⟨S64x50, .i32⟩
  | 35 => ⟨S_, .i32⟩
  | 36 => ⟨S_, .i32⟩
  | 37 => ⟨S_, .i32⟩
  | 38 => ⟨S64x50, .i32⟩
  | 39 => ⟨S64x50, .i32⟩
  | 40 => ⟨S_, .i32⟩
  | 41 => ⟨S64x50, .i32⟩
  | 42 => ⟨S64x50, .i32⟩
  | 43 => ⟨S64, .i32⟩
  | 44 => ⟨S64x1, .i32⟩
  | 45 => ⟨S64x50, .i32⟩
  | 46 => ⟨S_, .i32⟩
  | 47 => ⟨S64x50, .i32⟩
  | 48 => ⟨S64x50, .i1⟩
  | 49 => ⟨S_, .i32⟩
  | 50 => ⟨S64x50, .i32⟩
  | 51 => ⟨S64x50, .i32⟩
  | 52 => ⟨S64x50, .i32⟩
  | 53 => ⟨S_, .i32⟩
  | 54 => ⟨S64x50, .i32⟩
  | 55 => ⟨S64x50, .i1⟩
  | 56 => ⟨S_, .i32⟩
  | 57 => ⟨S64x50, .i32⟩
  | 58 => ⟨S64x50, .i32⟩
  | 59 => ⟨S64x50, .i32⟩
  | 60 => ⟨S_, .i32⟩
  | 61 => ⟨S64x50, .i32⟩
  | 62 => ⟨S64x50, .i1⟩
  | 63 => ⟨S_, .i32⟩
  | 64 => ⟨S64x50, .i32⟩
  | 65 => ⟨S64x50, .i32⟩
  | 66 => ⟨S64x50, .i32⟩
  | 67 => ⟨S64x50x1, .i32⟩
  | 68 => ⟨S64x50x1, .i32⟩
  | 69 => ⟨S64x50x1, .i32⟩
  | 70 => ⟨S64x50x3, .i32⟩
  | 71 => ⟨S64x50x85, .f32⟩
  | 72 => ⟨S64x50x1, .f32⟩
  | 73 => ⟨S64x50, .f32⟩
  | 74 => ⟨S64x50, .f32⟩
  | 75 => ⟨S_, .f32⟩
  | 76 => ⟨S64x50, .f32⟩
  | 77 => ⟨S64x50, .f32⟩
  | 78 => ⟨S64x50, .f32⟩
  | 79 => ⟨S64x50, .f32⟩
  | 80 => ⟨S64x50, .i1⟩
  | 81 => ⟨S64x50, .f32⟩
  | 82 => ⟨S64x50, .f32⟩
  | 83 => ⟨S64x50, .f32⟩
  | 84 => ⟨S64x50, .f32⟩
  | 85 => ⟨S64x50, .f32⟩
  | 86 => ⟨S64x50, .f32⟩
  | 87 => ⟨S64x50, .f32⟩
  | 88 => ⟨S64x50, .f32⟩
  | 89 => ⟨S_, .f32⟩
  | 90 => ⟨S_, .f32⟩
  | 91 => ⟨S64x50, .f32⟩
  | 92 => ⟨S64x50, .f32⟩
  | 93 => ⟨S64x50, .f32⟩
  | 94 => ⟨S64x50, .f32⟩
  | 95 => ⟨S64x50x1, .f32⟩
  | 96 => ⟨S64x50, .f32⟩
  | 97 => ⟨S64x50, .f32⟩
  | 98 => ⟨S64x50, .f32⟩
  | 99 => ⟨S_, .f32⟩
  | 100 => ⟨S64x50, .f32⟩
  | 101 => ⟨S64x50, .f32⟩
  | 102 => ⟨S_, .f32⟩
  | 103 => ⟨S64x50, .f32⟩
  | 104 => ⟨S64x50, .f32⟩
  | 105 => ⟨S64x50, .f32⟩
  | 106 => ⟨S64x50, .f32⟩
  | 107 => ⟨S_, .f32⟩
  | 108 => ⟨S_, .f32⟩
  | 109 => ⟨S64x50x1, .f32⟩
  | 110 => ⟨S64x50, .f32⟩
  | 111 => ⟨S64x50, .f32⟩
  | 112 => ⟨S64x50, .f32⟩
  | 113 => ⟨S_, .f32⟩
  | 114 => ⟨S64x50, .f32⟩
  | 115 => ⟨S64x50, .f32⟩
  | 116 => ⟨S_, .f32⟩
  | 117 => ⟨S64x50, .f32⟩
  | 118 => ⟨S64x50, .f32⟩
  | 119 => ⟨S64x50, .f32⟩
  | 120 => ⟨S64x50, .f32⟩
  | 121 => ⟨S_, .f32⟩
  | 122 => ⟨S_, .f32⟩
  | 123 => ⟨S_, .f32⟩
  | 124 => ⟨S64x50x1, .f32⟩
  | 125 => ⟨S64x50, .f32⟩
  | 126 => ⟨S64x50, .f32⟩
  | 127 => ⟨S64x50, .f32⟩
  | _ => ⟨S64x80x80x85, .f32⟩

abbrev hbmTy0_1 (i : Nat) : BufTy := match i % 128 with
  | 0 => ⟨S_, .f32⟩
  | 1 => ⟨S_, .f32⟩
  | 2 => ⟨S_, .f32⟩
  | 3 => ⟨S64x50x1, .f32⟩
  | 4 => ⟨S64x50, .f32⟩
  | 5 => ⟨S64x50, .f32⟩
  | 6 => ⟨S64x50, .f32⟩
  | 7 => ⟨S_, .f32⟩
  | 8 => ⟨S_, .f32⟩
  | 9 => ⟨S_, .f32⟩
  | 10 => ⟨S_, .f32⟩
  | 11 => ⟨S_, .f32⟩
  | 12 => ⟨S64x50x80, .f32⟩
  | 13 => ⟨S64x50x1, .i32⟩
  | 14 => ⟨S1x1x80, .i32⟩
  | 15 => ⟨S64x50x80, .i32⟩
  | 16 => ⟨S64x50x80, .i32⟩
  | 17 => ⟨S64x50x80, .i1⟩
  | 18 => ⟨S64x50x80, .f32⟩
  | 19 => ⟨S_, .f32⟩
  | 20 => ⟨S64x50x80, .f32⟩
  | 21 => ⟨S64x50x80, .f32⟩
  | 22 => ⟨S64x50x80, .f32⟩
  | 23 => ⟨S64x50x80, .f32⟩
  | 24 => ⟨S64x50x80, .i1⟩
  | 25 => ⟨S64x50x80, .f32⟩
  | 26 => ⟨S64x50x80, .f32⟩
  | 27 => ⟨S64x50x80, .f32⟩
  | 28 => ⟨S64x50x80, .f32⟩
  | 29 => ⟨S64x50x80, .f32⟩
  | 30 => ⟨S64x50x80, .f32⟩
  | 31 => ⟨S64x50x80, .f32⟩
  | 32 => ⟨S64x50x80, .f32⟩
  | 33 => ⟨S64x50x80, .f32⟩
  | 34 => ⟨S64x50x80, .f32⟩
  | 35 => ⟨S_, .f32⟩
  | 36 => ⟨S_, .f32⟩
  | 37 => ⟨S64x50, .i32⟩
  | 38 => ⟨S64x50, .i32⟩
  | 39 => ⟨S_, .i1⟩
  | 40 => ⟨S64x80x80, .i1⟩
  | 41 => ⟨S_, .i32⟩
  | 42 => ⟨S64x50, .i32⟩
  | 43 => ⟨S64x50, .i1⟩
  | 44 => ⟨S_, .i32⟩
  | 45 => ⟨S64x50, .i32⟩
  | 46 => ⟨S64x50, .i32⟩
  | 47 => ⟨S64x50, .i32⟩
  | 48 => ⟨S_, .i32⟩
  | 49 => ⟨S64x50, .i32⟩
  | 50 => ⟨S64x50, .i1⟩
  | 51 => ⟨S_, .i32⟩
  | 52 => ⟨S64x50, .i32⟩
  | 53 => ⟨S64x50, .i32⟩
  | 54 => ⟨S64x50, .i32⟩
  | 55 => ⟨S_, .i32⟩
  | 56 => ⟨S64x50, .i32⟩
  | 57 => ⟨S64x50, .i1⟩
  | 58 => ⟨S_, .i32⟩
  | 59 => ⟨S64x50, .i32⟩
  | 60 => ⟨S64x50, .i32⟩
  | 61 => ⟨S64x50, .i32⟩
  | 62 => ⟨S64x50x1, .i32⟩
  | 63 => ⟨S64x50x1, .i32⟩
  | 64 => ⟨S64x50x1, .i32⟩
  | 65 => ⟨S64x50x3, .i32⟩
  | 66 => ⟨S_, .i1⟩
  | 67 => ⟨S64x50, .i1⟩
  | 68 => ⟨S64x80x80, .i1⟩
  | 69 => ⟨S64x80x80, .f32⟩
  | 70 => ⟨S1x1, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | _ => ⟨S64x80x80x85, .f32⟩

abbrev hbmTy (i : Nat) : BufTy := match i / 128 with
  | 0 => hbmTy0_0 i
  | 1 => hbmTy0_1 i
  | _ => ⟨S64x80x80x85, .f32⟩

abbrev bufTy : (tb : Table) → Fin (tcTables nBuf tb) → BufTy
  | .hbm, ⟨i, _⟩ => hbmTy i
  | .local _ .vmem, ⟨0, _⟩ => ⟨S4x80x80x85, .f32⟩
  | .local _ .vmem, ⟨1, _⟩ => ⟨S4x80x80x85, .f32⟩
  | .local _ .vmem, ⟨2, _⟩ => ⟨S4x80x80, .f32⟩
  | .local _ .vmem, ⟨3, _⟩ => ⟨S4x80x80, .f32⟩
  | .local _ .vmem, ⟨4, _⟩ => ⟨S1x1, .f32⟩
  | .local _ .vmem, ⟨5, _⟩ => ⟨S1x1, .f32⟩
  | _, _ => ⟨S64x80x80x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_10 : Ref sig .tc := ⟨.hbm, 60, rfl⟩
abbrev main_v36 : Ref sig .tc := ⟨.hbm, 61, rfl⟩
abbrev main_v37 : Ref sig .tc := ⟨.hbm, 62, rfl⟩
abbrev main_c_11 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_v49 : Ref sig .tc := ⟨.hbm, 88, rfl⟩
abbrev main_cst_12 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_13 : Ref sig .tc := ⟨.hbm, 99, rfl⟩
abbrev main_v59 : Ref sig .tc := ⟨.hbm, 100, rfl⟩
abbrev main_v60 : Ref sig .tc := ⟨.hbm, 101, rfl⟩
abbrev main_cst_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_15 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_16 : Ref sig .tc := ⟨.hbm, 113, rfl⟩
abbrev main_v70 : Ref sig .tc := ⟨.hbm, 114, rfl⟩
abbrev main_v71 : Ref sig .tc := ⟨.hbm, 115, rfl⟩
abbrev main_cst_17 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_18 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_19 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_20 : Ref sig .tc := ⟨.hbm, 135, rfl⟩
abbrev main_v88 : Ref sig .tc := ⟨.hbm, 136, rfl⟩
abbrev main_v89 : Ref sig .tc := ⟨.hbm, 137, rfl⟩
abbrev main_cst_21 : Ref sig .tc := ⟨.hbm, 138, rfl⟩
abbrev main_v90 : Ref sig .tc := ⟨.hbm, 139, rfl⟩
abbrev main_v91 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v92 : Ref sig .tc := ⟨.hbm, 146, rfl⟩
abbrev main_call4_cst : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_v6 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_cst_22 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_c_23 : Ref sig .tc := ⟨.hbm, 167, rfl⟩
abbrev main_v99 : Ref sig .tc := ⟨.hbm, 168, rfl⟩
abbrev main_c_24 : Ref sig .tc := ⟨.hbm, 169, rfl⟩
abbrev main_v100 : Ref sig .tc := ⟨.hbm, 170, rfl⟩
abbrev main_v101 : Ref sig .tc := ⟨.hbm, 171, rfl⟩
abbrev main_c_25 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_c_26 : Ref sig .tc := ⟨.hbm, 176, rfl⟩
abbrev main_v105 : Ref sig .tc := ⟨.hbm, 177, rfl⟩
abbrev main_v106 : Ref sig .tc := ⟨.hbm, 178, rfl⟩
abbrev main_c_27 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_c_28 : Ref sig .tc := ⟨.hbm, 183, rfl⟩
abbrev main_v110 : Ref sig .tc := ⟨.hbm, 184, rfl⟩
abbrev main_v111 : Ref sig .tc := ⟨.hbm, 185, rfl⟩
abbrev main_c_29 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_c_30 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_31 : Ref sig .tc := ⟨.hbm, 200, rfl⟩
abbrev main_v124 : Ref sig .tc := ⟨.hbm, 201, rfl⟩
abbrev main_cst_32 : Ref sig .tc := ⟨.hbm, 202, rfl⟩
abbrev main_v125 : Ref sig .tc := ⟨.hbm, 203, rfl⟩
abbrev main_cst_33 : Ref sig .tc := ⟨.hbm, 204, rfl⟩
abbrev main_v126 : Ref sig .tc := ⟨.hbm, 205, rfl⟩
abbrev main_cst_34 : Ref sig .tc := ⟨.hbm, 206, rfl⟩
abbrev main_v127 : Ref sig .tc := ⟨.hbm, 207, rfl⟩
abbrev main_cst_35 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v37 : BitVec 1 := Scalar.cmpi .eq arg0 c15_i32
  let v38 : BitVec 32 := Scalar.extui v37
  let c0_i32_17 : BitVec 32 := 0#32
  let v39 : BitVec 1 := Scalar.cmpi .ne v38 c0_i32_17
  v39

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x80x80x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x80x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S64x50x5_S64x50x1_0_0_0 : S64x50x5.Slices ![0, 0, 0] S64x50x1
  shapeCasts_S64x50x1_S64x50 : S64x50x1.ShapeCasts S64x50
  slices_S64x50x5_S64x50x1_0_0_1 : S64x50x5.Slices ![0, 0, 1] S64x50x1
  bcast_S_S64x50 : S_.BroadcastsInDim S64x50 (![] : Fin 0 → Fin S64x50.rank)
  slices_S64x50x5_S64x50x1_0_0_2 : S64x50x5.Slices ![0, 0, 2] S64x50x1
  slices_S64x50x5_S64x50x1_0_0_3 : S64x50x5.Slices ![0, 0, 3] S64x50x1
  slices_S64x50x5_S64x50x1_0_0_4 : S64x50x5.Slices ![0, 0, 4] S64x50x1
  bcast_S64_S64x1_0 : S64.BroadcastsInDim S64x1 (![0] : Fin 1 → Fin S64x1.rank)
  bcast_S64x1_S64x50_0_1 : S64x1.BroadcastsInDim S64x50 (![0, 1] : Fin 2 → Fin S64x50.rank)
  bcast_S64x50_S64x50x1_0_1 : S64x50.BroadcastsInDim S64x50x1 (![0, 1] : Fin 2 → Fin S64x50x1.rank)
  concatenates_S64x50x1_S64x50x1_S64x50x1_S64x50x3_d2 : Shape.Concatenates [S64x50x1, S64x50x1, S64x50x1] S64x50x3 2
  slices_S64x50x85_S64x50x1_0_0_0 : S64x50x85.Slices ![0, 0, 0] S64x50x1
  reducesTo_S64x50_S_d0_1 : S64x50.ReducesTo [0, 1] S_
  h_S_ : 0 < S_.numel
  slices_S64x50x85_S64x50x1_0_0_1 : S64x50x85.Slices ![0, 0, 1] S64x50x1
  slices_S64x50x85_S64x50x1_0_0_2 : S64x50x85.Slices ![0, 0, 2] S64x50x1
  slices_S64x50x85_S64x50x1_0_0_3 : S64x50x85.Slices ![0, 0, 3] S64x50x1
  slices_S64x50x85_S64x50x1_0_0_4 : S64x50x85.Slices ![0, 0, 4] S64x50x1
  slices_S64x50x85_S64x50x80_0_0_5 : S64x50x85.Slices ![0, 0, 5] S64x50x80
  bcast_S64x50x1_S64x50x80_0_1_2 : S64x50x1.BroadcastsInDim S64x50x80 (![0, 1, 2] : Fin 3 → Fin S64x50x80.rank)
  bcast_S1x1x80_S64x50x80_0_1_2 : S1x1x80.BroadcastsInDim S64x50x80 (![0, 1, 2] : Fin 3 → Fin S64x50x80.rank)
  bcast_S_S64x50x80 : S_.BroadcastsInDim S64x50x80 (![] : Fin 0 → Fin S64x50x80.rank)
  reducesTo_S64x50x80_S_d0_1_2 : S64x50x80.ReducesTo [0, 1, 2] S_
  bcast_S_S64x80x80 : S_.BroadcastsInDim S64x80x80 (![] : Fin 0 → Fin S64x80x80.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x80x80x85_S4x80x80x1_0_0_0_0 : ∀ a, (![0, 0, 0, 0] : Fin 4 → Nat) a + S4x80x80x1.size a ≤ S4x80x80x85.size a
  h_S4x80x80x1 : 0 < S4x80x80x1.numel
  shapeCasts_S4x80x80x1_S4x80x80 : S4x80x80x1.ShapeCasts S4x80x80
  inb_S4x80x80_S4x80x80_0_0_0 : ∀ a, (![0, 0, 0] : Fin 3 → Nat) a + S4x80x80.size a ≤ S4x80x80.size a
  h_S4x80x80 : 0 < S4x80x80.numel
  shapeCasts_S4x80x80_S4x80x80 : S4x80x80.ShapeCasts S4x80x80
  reduces_S4x80x80_S4x80 : S4x80x80.Reduces [2] S4x80
  shapeCasts_S4x80_S4x80x1 : S4x80.ShapeCasts S4x80x1
  reduces_S4x80x1_S4x1 : S4x80x1.Reduces [1] S4x1
  shapeCasts_S4x1_S4x1x1 : S4x1.ShapeCasts S4x1x1
  reduces_S4x1x1_S1x1 : S4x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  gather_S64x80x80x85_S64x50x3_S64x50x85_2_012_n_n_012_2_11185_wf : GatherDims.WF S64x80x80x85 S64x50x3 S64x50x85 [2] [0, 1, 2] [] [0, 1, 2] [] 2 ![1, 1, 1, 85]
  scatter_S64x80x80_S64x50x3_S64x50_n_012_012_2_wf : ScatterDims.WF S64x80x80 S64x50x3 S64x50 [] [0, 1, 2] [0, 1, 2] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x80x80x85.size a ≤ S64x80x80x85.size a
  hwx0_0 : ∀ i : grid0.Coords, EltTy.bits .f32 = 32 ∨ (Rect.block (s := S64x80x80x85) S4x80x80x85.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x80x80.size a ≤ S64x80x80.size a
  hwx0_1 : ∀ i : grid0.Coords, EltTy.bits .f32 = 32 ∨ (Rect.block (s := S64x80x80) S4x80x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S64x80x80x85_S64x50x3_S64x50x85_2_012_n_n_012_2_11185 : GatherDims S64x80x80x85 S64x50x3 S64x50x85 where
  offsetDims := [2]
  collapsedSliceDims := [0, 1, 2]
  operandBatchingDims := []
  startIndicesBatchingDims := []
  startIndexMap := [0, 1, 2]
  indexVectorDim := 2
  sliceSizes := ![1, 1, 1, 85]
  wf := gather_S64x80x80x85_S64x50x3_S64x50x85_2_012_n_n_012_2_11185_wf
def scatter_S64x80x80_S64x50x3_S64x50_n_012_012_2 : ScatterDims S64x80x80 S64x50x3 S64x50 where
  updateWindowDims := []
  insertedWindowDims := [0, 1, 2]
  scatterDimsToOperandDims := [0, 1, 2]
  indexVectorDim := 2
  wf := scatter_S64x80x80_S64x50x3_S64x50_n_012_012_2_wf

abbrev win0_0 : Pipeline.Window sig grid0 :=
  Pipeline.Window.ofSpec (Memref.whole main_arg0) S4x80x80x85.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v121) S4x80x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v122) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x80x80x85 : Shape := ⟨4, ![64, 80, 80, 85]⟩
abbrev S64x50x5 : Shape := ⟨3, ![64, 50, 5]⟩
abbrev S64x50x1 : Shape := ⟨3, ![64, 50, 1]⟩
abbrev S64x50 : Shape := ⟨2, ![64, 50]⟩
abbrev S_ : Shape := ⟨0, ![]⟩
abbrev S64 : Shape := ⟨1, ![64]⟩
abbrev S64x1 : Shape := ⟨2, ![64, 1]⟩
abbrev S64x50x3 : Shape := ⟨3, ![64, 50, 3]⟩
abbrev S64x50x85 : Shape := ⟨3, ![64, 50, 85]⟩
abbrev S64x50x80 : Shape := ⟨3, ![64, 50, 80]⟩
abbrev S1x1x80 : Shape := ⟨3, ![1, 1, 80]⟩
abbrev S64x80x80 : Shape := ⟨3, ![64, 80, 80]⟩
abbrev S64x80x80x1 : Shape := ⟨4, ![64, 80, 80, 1]⟩

abbrev nBuf : Space → Nat
  | .hbm => 231
  | .vmem => 0
  | .smem => 0
  | _ => 0

abbrev hbmTy0_0 (i : Nat) : BufTy := match i % 128 with
  | 0 => ⟨S64x80x80x85, .f32⟩
  | 1 => ⟨S64x50x5, .f32⟩
  | 2 => ⟨S64x50x1, .f32⟩
  | 3 => ⟨S64x50, .f32⟩
  | 4 => ⟨S64x50, .i32⟩
  | 5 => ⟨S64x50x1, .f32⟩
  | 6 => ⟨S64x50, .f32⟩
  | 7 => ⟨S_, .f32⟩
  | 8 => ⟨S64x50, .f32⟩
  | 9 => ⟨S64x50, .f32⟩
  | 10 => ⟨S64x50x1, .f32⟩
  | 11 => ⟨S64x50, .f32⟩
  | 12 => ⟨S_, .f32⟩
  | 13 => ⟨S64x50, .f32⟩
  | 14 => ⟨S64x50, .f32⟩
  | 15 => ⟨S64x50x1, .f32⟩
  | 16 => ⟨S64x50, .f32⟩
  | 17 => ⟨S_, .f32⟩
  | 18 => ⟨S64x50, .f32⟩
  | 19 => ⟨S64x50, .f32⟩
  | 20 => ⟨S64x50x1, .f32⟩
  | 21 => ⟨S64x50, .f32⟩
  | 22 => ⟨S_, .f32⟩
  | 23 => ⟨S64x50, .f32⟩
  | 24 => ⟨S64x50, .f32⟩
  | 25 => ⟨S64x50, .i32⟩
  | 26 => ⟨S_, .i32⟩
  | 27 => ⟨S_, .i32⟩
  | 28 => ⟨S_, .i32⟩
  | 29 => ⟨S64x50, .i32⟩
  | 30 => ⟨S64x50, .i32⟩
  | 31 => ⟨S_, .i32⟩
  | 32 => ⟨S64x50, .i32⟩
  | 33 => ⟨S64x50, .i32⟩
  | 34 => ⟨S64x50, .i32⟩
  | 35 => ⟨S_, .i32⟩
  | 36 => ⟨S_, .i32⟩
  | 37 => ⟨S_, .i32⟩
  | 38 => ⟨S64x50, .i32⟩
  | 39 => ⟨S64x50, .i32⟩
  | 40 => ⟨S_, .i32⟩
  | 41 => ⟨S64x50, .i32⟩
  | 42 => ⟨S64x50, .i32⟩
  | 43 => ⟨S64, .i32⟩
  | 44 => ⟨S64x1, .i32⟩
  | 45 => ⟨S64x50, .i32⟩
  | 46 => ⟨S_, .i32⟩
  | 47 => ⟨S64x50, .i32⟩
  | 48 => ⟨S64x50, .i1⟩
  | 49 => ⟨S_, .i32⟩
  | 50 => ⟨S64x50, .i32⟩
  | 51 => ⟨S64x50, .i32⟩
  | 52 => ⟨S64x50, .i32⟩
  | 53 => ⟨S_, .i32⟩
  | 54 => ⟨S64x50, .i32⟩
  | 55 => ⟨S64x50, .i1⟩
  | 56 => ⟨S_, .i32⟩
  | 57 => ⟨S64x50, .i32⟩
  | 58 => ⟨S64x50, .i32⟩
  | 59 => ⟨S64x50, .i32⟩
  | 60 => ⟨S_, .i32⟩
  | 61 => ⟨S64x50, .i32⟩
  | 62 => ⟨S64x50, .i1⟩
  | 63 => ⟨S_, .i32⟩
  | 64 => ⟨S64x50, .i32⟩
  | 65 => ⟨S64x50, .i32⟩
  | 66 => ⟨S64x50, .i32⟩
  | 67 => ⟨S64x50x1, .i32⟩
  | 68 => ⟨S64x50x1, .i32⟩
  | 69 => ⟨S64x50x1, .i32⟩
  | 70 => ⟨S64x50x3, .i32⟩
  | 71 => ⟨S64x50x85, .f32⟩
  | 72 => ⟨S64x50x1, .f32⟩
  | 73 => ⟨S64x50, .f32⟩
  | 74 => ⟨S64x50, .f32⟩
  | 75 => ⟨S_, .f32⟩
  | 76 => ⟨S64x50, .f32⟩
  | 77 => ⟨S64x50, .f32⟩
  | 78 => ⟨S64x50, .f32⟩
  | 79 => ⟨S64x50, .f32⟩
  | 80 => ⟨S64x50, .i1⟩
  | 81 => ⟨S64x50, .f32⟩
  | 82 => ⟨S64x50, .f32⟩
  | 83 => ⟨S64x50, .f32⟩
  | 84 => ⟨S64x50, .f32⟩
  | 85 => ⟨S64x50, .f32⟩
  | 86 => ⟨S64x50, .f32⟩
  | 87 => ⟨S64x50, .f32⟩
  | 88 => ⟨S64x50, .f32⟩
  | 89 => ⟨S_, .f32⟩
  | 90 => ⟨S_, .f32⟩
  | 91 => ⟨S64x50, .f32⟩
  | 92 => ⟨S64x50, .f32⟩
  | 93 => ⟨S64x50, .f32⟩
  | 94 => ⟨S64x50, .f32⟩
  | 95 => ⟨S64x50x1, .f32⟩
  | 96 => ⟨S64x50, .f32⟩
  | 97 => ⟨S64x50, .f32⟩
  | 98 => ⟨S64x50, .f32⟩
  | 99 => ⟨S_, .f32⟩
  | 100 => ⟨S64x50, .f32⟩
  | 101 => ⟨S64x50, .f32⟩
  | 102 => ⟨S_, .f32⟩
  | 103 => ⟨S64x50, .f32⟩
  | 104 => ⟨S64x50, .f32⟩
  | 105 => ⟨S64x50, .f32⟩
  | 106 => ⟨S64x50, .f32⟩
  | 107 => ⟨S_, .f32⟩
  | 108 => ⟨S_, .f32⟩
  | 109 => ⟨S64x50x1, .f32⟩
  | 110 => ⟨S64x50, .f32⟩
  | 111 => ⟨S64x50, .f32⟩
  | 112 => ⟨S64x50, .f32⟩
  | 113 => ⟨S_, .f32⟩
  | 114 => ⟨S64x50, .f32⟩
  | 115 => ⟨S64x50, .f32⟩
  | 116 => ⟨S_, .f32⟩
  | 117 => ⟨S64x50, .f32⟩
  | 118 => ⟨S64x50, .f32⟩
  | 119 => ⟨S64x50, .f32⟩
  | 120 => ⟨S64x50, .f32⟩
  | 121 => ⟨S_, .f32⟩
  | 122 => ⟨S_, .f32⟩
  | 123 => ⟨S_, .f32⟩
  | 124 => ⟨S64x50x1, .f32⟩
  | 125 => ⟨S64x50, .f32⟩
  | 126 => ⟨S64x50, .f32⟩
  | 127 => ⟨S64x50, .f32⟩
  | _ => ⟨S64x80x80x85, .f32⟩

abbrev hbmTy0_1 (i : Nat) : BufTy := match i % 128 with
  | 0 => ⟨S_, .f32⟩
  | 1 => ⟨S_, .f32⟩
  | 2 => ⟨S_, .f32⟩
  | 3 => ⟨S64x50x1, .f32⟩
  | 4 => ⟨S64x50, .f32⟩
  | 5 => ⟨S64x50, .f32⟩
  | 6 => ⟨S64x50, .f32⟩
  | 7 => ⟨S_, .f32⟩
  | 8 => ⟨S_, .f32⟩
  | 9 => ⟨S_, .f32⟩
  | 10 => ⟨S_, .f32⟩
  | 11 => ⟨S_, .f32⟩
  | 12 => ⟨S64x50x80, .f32⟩
  | 13 => ⟨S64x50x1, .i32⟩
  | 14 => ⟨S1x1x80, .i32⟩
  | 15 => ⟨S64x50x80, .i32⟩
  | 16 => ⟨S64x50x80, .i32⟩
  | 17 => ⟨S64x50x80, .i1⟩
  | 18 => ⟨S64x50x80, .f32⟩
  | 19 => ⟨S_, .f32⟩
  | 20 => ⟨S64x50x80, .f32⟩
  | 21 => ⟨S64x50x80, .f32⟩
  | 22 => ⟨S64x50x80, .f32⟩
  | 23 => ⟨S64x50x80, .f32⟩
  | 24 => ⟨S64x50x80, .i1⟩
  | 25 => ⟨S64x50x80, .f32⟩
  | 26 => ⟨S64x50x80, .f32⟩
  | 27 => ⟨S64x50x80, .f32⟩
  | 28 => ⟨S64x50x80, .f32⟩
  | 29 => ⟨S64x50x80, .f32⟩
  | 30 => ⟨S64x50x80, .f32⟩
  | 31 => ⟨S64x50x80, .f32⟩
  | 32 => ⟨S64x50x80, .f32⟩
  | 33 => ⟨S64x50x80, .f32⟩
  | 34 => ⟨S64x50x80, .f32⟩
  | 35 => ⟨S_, .f32⟩
  | 36 => ⟨S_, .f32⟩
  | 37 => ⟨S64x50, .i32⟩
  | 38 => ⟨S64x50, .i32⟩
  | 39 => ⟨S_, .i1⟩
  | 40 => ⟨S64x80x80, .i1⟩
  | 41 => ⟨S_, .i32⟩
  | 42 => ⟨S64x50, .i32⟩
  | 43 => ⟨S64x50, .i1⟩
  | 44 => ⟨S_, .i32⟩
  | 45 => ⟨S64x50, .i32⟩
  | 46 => ⟨S64x50, .i32⟩
  | 47 => ⟨S64x50, .i32⟩
  | 48 => ⟨S_, .i32⟩
  | 49 => ⟨S64x50, .i32⟩
  | 50 => ⟨S64x50, .i1⟩
  | 51 => ⟨S_, .i32⟩
  | 52 => ⟨S64x50, .i32⟩
  | 53 => ⟨S64x50, .i32⟩
  | 54 => ⟨S64x50, .i32⟩
  | 55 => ⟨S_, .i32⟩
  | 56 => ⟨S64x50, .i32⟩
  | 57 => ⟨S64x50, .i1⟩
  | 58 => ⟨S_, .i32⟩
  | 59 => ⟨S64x50, .i32⟩
  | 60 => ⟨S64x50, .i32⟩
  | 61 => ⟨S64x50, .i32⟩
  | 62 => ⟨S64x50x1, .i32⟩
  | 63 => ⟨S64x50x1, .i32⟩
  | 64 => ⟨S64x50x1, .i32⟩
  | 65 => ⟨S64x50x3, .i32⟩
  | 66 => ⟨S_, .i1⟩
  | 67 => ⟨S64x50, .i1⟩
  | 68 => ⟨S64x80x80, .i1⟩
  | 69 => ⟨S64x80x80x1, .f32⟩
  | 70 => ⟨S64x80x80, .f32⟩
  | 71 => ⟨S_, .f32⟩
  | 72 => ⟨S64x80x80, .f32⟩
  | 73 => ⟨S64x80x80, .f32⟩
  | 74 => ⟨S64x80x80, .f32⟩
  | 75 => ⟨S64x80x80, .f32⟩
  | 76 => ⟨S64x80x80, .i1⟩
  | 77 => ⟨S64x80x80, .f32⟩
  | 78 => ⟨S64x80x80, .f32⟩
  | 79 => ⟨S64x80x80, .f32⟩
  | 80 => ⟨S64x80x80, .f32⟩
  | 81 => ⟨S64x80x80, .f32⟩
  | 82 => ⟨S64x80x80, .f32⟩
  | 83 => ⟨S64x80x80, .f32⟩
  | 84 => ⟨S64x80x80, .f32⟩
  | 85 => ⟨S_, .f32⟩
  | 86 => ⟨S64x80x80, .f32⟩
  | 87 => ⟨S64x80x80, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | _ => ⟨S64x80x80x85, .f32⟩

abbrev hbmTy (i : Nat) : BufTy := match i / 128 with
  | 0 => hbmTy0_0 i
  | 1 => hbmTy0_1 i
  | _ => ⟨S64x80x80x85, .f32⟩

abbrev bufTy : (tb : Table) → Fin (tcTables nBuf tb) → BufTy
  | .hbm, ⟨i, _⟩ => hbmTy i
  | _, _ => ⟨S64x80x80x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_10 : Ref sig .tc := ⟨.hbm, 60, rfl⟩
abbrev main_v36 : Ref sig .tc := ⟨.hbm, 61, rfl⟩
abbrev main_v37 : Ref sig .tc := ⟨.hbm, 62, rfl⟩
abbrev main_c_11 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_v49 : Ref sig .tc := ⟨.hbm, 88, rfl⟩
abbrev main_cst_12 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_13 : Ref sig .tc := ⟨.hbm, 99, rfl⟩
abbrev main_v59 : Ref sig .tc := ⟨.hbm, 100, rfl⟩
abbrev main_v60 : Ref sig .tc := ⟨.hbm, 101, rfl⟩
abbrev main_cst_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_15 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_16 : Ref sig .tc := ⟨.hbm, 113, rfl⟩
abbrev main_v70 : Ref sig .tc := ⟨.hbm, 114, rfl⟩
abbrev main_v71 : Ref sig .tc := ⟨.hbm, 115, rfl⟩
abbrev main_cst_17 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_18 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_19 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_20 : Ref sig .tc := ⟨.hbm, 135, rfl⟩
abbrev main_v88 : Ref sig .tc := ⟨.hbm, 136, rfl⟩
abbrev main_v89 : Ref sig .tc := ⟨.hbm, 137, rfl⟩
abbrev main_cst_21 : Ref sig .tc := ⟨.hbm, 138, rfl⟩
abbrev main_v90 : Ref sig .tc := ⟨.hbm, 139, rfl⟩
abbrev main_v91 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v92 : Ref sig .tc := ⟨.hbm, 146, rfl⟩
abbrev main_call4_cst : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_v6 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_cst_22 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_c_23 : Ref sig .tc := ⟨.hbm, 167, rfl⟩
abbrev main_v99 : Ref sig .tc := ⟨.hbm, 168, rfl⟩
abbrev main_c_24 : Ref sig .tc := ⟨.hbm, 169, rfl⟩
abbrev main_v100 : Ref sig .tc := ⟨.hbm, 170, rfl⟩
abbrev main_v101 : Ref sig .tc := ⟨.hbm, 171, rfl⟩
abbrev main_c_25 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_c_26 : Ref sig .tc := ⟨.hbm, 176, rfl⟩
abbrev main_v105 : Ref sig .tc := ⟨.hbm, 177, rfl⟩
abbrev main_v106 : Ref sig .tc := ⟨.hbm, 178, rfl⟩
abbrev main_c_27 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_c_28 : Ref sig .tc := ⟨.hbm, 183, rfl⟩
abbrev main_v110 : Ref sig .tc := ⟨.hbm, 184, rfl⟩
abbrev main_v111 : Ref sig .tc := ⟨.hbm, 185, rfl⟩
abbrev main_c_29 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_c_30 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_call5_cst : Ref sig .tc := ⟨.hbm, 199, rfl⟩
abbrev main_call5_v0 : Ref sig .tc := ⟨.hbm, 200, rfl⟩
abbrev main_call5_v1 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_v5 : Ref sig .tc := ⟨.hbm, 205, rfl⟩
abbrev main_call5_v6 : Ref sig .tc := ⟨.hbm, 206, rfl⟩
abbrev main_call5_v7 : Ref sig .tc := ⟨.hbm, 207, rfl⟩
abbrev main_call5_v8 : Ref sig .tc := ⟨.hbm, 208, rfl⟩
abbrev main_call5_v9 : Ref sig .tc := ⟨.hbm, 209, rfl⟩
abbrev main_call5_v10 : Ref sig .tc := ⟨.hbm, 210, rfl⟩
abbrev main_call5_v11 : Ref sig .tc := ⟨.hbm, 211, rfl⟩
abbrev main_v123 : Ref sig .tc := ⟨.hbm, 212, rfl⟩
abbrev main_cst_31 : Ref sig .tc := ⟨.hbm, 213, rfl⟩
abbrev main_call6_v0 : Ref sig .tc := ⟨.hbm, 214, rfl⟩
abbrev main_v124 : Ref sig .tc := ⟨.hbm, 215, rfl⟩
abbrev main_cst_32 : Ref sig .tc := ⟨.hbm, 216, rfl⟩
abbrev main_v125 : Ref sig .tc := ⟨.hbm, 217, rfl⟩
abbrev main_cst_33 : Ref sig .tc := ⟨.hbm, 218, rfl⟩
abbrev main_v126 : Ref sig .tc := ⟨.hbm, 219, rfl⟩
abbrev main_cst_34 : Ref sig .tc := ⟨.hbm, 220, rfl⟩
abbrev main_v127 : Ref sig .tc := ⟨.hbm, 221, rfl⟩
abbrev main_cst_35 : Ref sig .tc := ⟨.hbm, 222, rfl⟩
abbrev main_v128 : Ref sig .tc := ⟨.hbm, 223, rfl⟩
abbrev main_cst_36 : Ref sig .tc := ⟨.hbm, 224, rfl⟩
abbrev main_v129 : Ref sig .tc := ⟨.hbm, 225, rfl⟩
abbrev main_cst_37 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩

abbrev nD : Nat := 1
abbrev τ : Topo := Topo.v7x

variable {F : FTy → Type} [FloatOps F]

class Facts₀ : Prop where
  slices_S64x50x5_S64x50x1_0_0_0 : S64x50x5.Slices ![0, 0, 0] S64x50x1
  shapeCasts_S64x50x1_S64x50 : S64x50x1.ShapeCasts S64x50
  slices_S64x50x5_S64x50x1_0_0_1 : S64x50x5.Slices ![0, 0, 1] S64x50x1
  bcast_S_S64x50 : S_.BroadcastsInDim S64x50 (![] : Fin 0 → Fin S64x50.rank)
  slices_S64x50x5_S64x50x1_0_0_2 : S64x50x5.Slices ![0, 0, 2] S64x50x1
  slices_S64x50x5_S64x50x1_0_0_3 : S64x50x5.Slices ![0, 0, 3] S64x50x1
  slices_S64x50x5_S64x50x1_0_0_4 : S64x50x5.Slices ![0, 0, 4] S64x50x1
  bcast_S64_S64x1_0 : S64.BroadcastsInDim S64x1 (![0] : Fin 1 → Fin S64x1.rank)
  bcast_S64x1_S64x50_0_1 : S64x1.BroadcastsInDim S64x50 (![0, 1] : Fin 2 → Fin S64x50.rank)
  bcast_S64x50_S64x50x1_0_1 : S64x50.BroadcastsInDim S64x50x1 (![0, 1] : Fin 2 → Fin S64x50x1.rank)
  concatenates_S64x50x1_S64x50x1_S64x50x1_S64x50x3_d2 : Shape.Concatenates [S64x50x1, S64x50x1, S64x50x1] S64x50x3 2
  slices_S64x50x85_S64x50x1_0_0_0 : S64x50x85.Slices ![0, 0, 0] S64x50x1
  reducesTo_S64x50_S_d0_1 : S64x50.ReducesTo [0, 1] S_
  h_S_ : 0 < S_.numel
  slices_S64x50x85_S64x50x1_0_0_1 : S64x50x85.Slices ![0, 0, 1] S64x50x1
  slices_S64x50x85_S64x50x1_0_0_2 : S64x50x85.Slices ![0, 0, 2] S64x50x1
  slices_S64x50x85_S64x50x1_0_0_3 : S64x50x85.Slices ![0, 0, 3] S64x50x1
  slices_S64x50x85_S64x50x1_0_0_4 : S64x50x85.Slices ![0, 0, 4] S64x50x1
  slices_S64x50x85_S64x50x80_0_0_5 : S64x50x85.Slices ![0, 0, 5] S64x50x80
  bcast_S64x50x1_S64x50x80_0_1_2 : S64x50x1.BroadcastsInDim S64x50x80 (![0, 1, 2] : Fin 3 → Fin S64x50x80.rank)
  bcast_S1x1x80_S64x50x80_0_1_2 : S1x1x80.BroadcastsInDim S64x50x80 (![0, 1, 2] : Fin 3 → Fin S64x50x80.rank)
  bcast_S_S64x50x80 : S_.BroadcastsInDim S64x50x80 (![] : Fin 0 → Fin S64x50x80.rank)
  reducesTo_S64x50x80_S_d0_1_2 : S64x50x80.ReducesTo [0, 1, 2] S_
  bcast_S_S64x80x80 : S_.BroadcastsInDim S64x80x80 (![] : Fin 0 → Fin S64x80x80.rank)
  slices_S64x80x80x85_S64x80x80x1_0_0_0_0 : S64x80x80x85.Slices ![0, 0, 0, 0] S64x80x80x1
  shapeCasts_S64x80x80x1_S64x80x80 : S64x80x80x1.ShapeCasts S64x80x80
  reducesTo_S64x80x80_S_d0_1_2 : S64x80x80.ReducesTo [0, 1, 2] S_
  gather_S64x80x80x85_S64x50x3_S64x50x85_2_012_n_n_012_2_11185_wf : GatherDims.WF S64x80x80x85 S64x50x3 S64x50x85 [2] [0, 1, 2] [] [0, 1, 2] [] 2 ![1, 1, 1, 85]
  scatter_S64x80x80_S64x50x3_S64x50_n_012_012_2_wf : ScatterDims.WF S64x80x80 S64x50x3 S64x50 [] [0, 1, 2] [0, 1, 2] 2

variable [Facts₀]

def gather_S64x80x80x85_S64x50x3_S64x50x85_2_012_n_n_012_2_11185 : GatherDims S64x80x80x85 S64x50x3 S64x50x85 where
  offsetDims := [2]
  collapsedSliceDims := [0, 1, 2]
  operandBatchingDims := []
  startIndicesBatchingDims := []
  startIndexMap := [0, 1, 2]
  indexVectorDim := 2
  sliceSizes := ![1, 1, 1, 85]
  wf := gather_S64x80x80x85_S64x50x3_S64x50x85_2_012_n_n_012_2_11185_wf
def scatter_S64x80x80_S64x50x3_S64x50_n_012_012_2 : ScatterDims S64x80x80 S64x50x3 S64x50 where
  updateWindowDims := []
  insertedWindowDims := [0, 1, 2]
  scatterDimsToOperandDims := [0, 1, 2]
  indexVectorDim := 2
  wf := scatter_S64x80x80_S64x50x3_S64x50_n_012_012_2_wf

class Facts : Prop extends Facts₀ where

variable [Facts]
-- ==== Proof.RefLine.lean ====
/-
  The reference program as a straight line of host operations, and its run. The program's 229 operations are restated
  here in order — the first 195 (everything up to and including the occupancy scatter: the four sums' operands and the
  occupancy array) and the last 34 (the softplus of channel 0, the select under occupancy, the reduction, the scaling and
  the sum of the four terms) — and the program is that line by definition. Every weakly fair execution terminates, and
  each buffer ends at what the operations, applied in order to the launch contents, leave in it.
-/
import proofs.«106109_j89283780149525_2_alg».proof.ReferenceIdeal
import proofs.«106109_j89283780149525_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The whole line. -/
abbrev ops : List (HloOp τ sig (Elt F)) :=
  [ unary main_arg1 main_v0 ((extractStridedSlice S64x50x1 ![0, 0, 0] · slices_S64x50x5_S64x50x1_0_0_0) : (⟨S64x50x5, .f32⟩ : BufTy).Contents (Elt F) → (⟨S64x50x1, .f32⟩ : BufTy).Contents (Elt F)),
    reshape main_v0 main_v1 rfl shapeCasts_S64x50x1_S64x50,
    unary main_v1 main_v2 (fptosi 32 : (⟨S64x50, .f32⟩ : BufTy).Contents (Elt F) → (⟨S64x50, .i32⟩ : BufTy).Contents (Elt F)),
    unary main_arg1 main_v3 ((extractStridedSlice S64x50x1 ![0, 0, 1] · slices_S64x50x5_S64x50x1_0_0_1) : (⟨S64x50x5, .f32⟩ : BufTy).Contents (Elt F) → (⟨S64x50x1, .f32⟩ : BufTy).Contents (Elt F)),
    reshape main_v3 main_v4 rfl shapeCasts_S64x50x1_S64x50,
    nullary main_cst (constant S_ .f32 0x42A00000#32),
    unary main_cst main_v5 (broadcastInDim S64x50 ![] bcast_S_S64x50 : (⟨S_, .f32⟩ : BufTy).Contents (Elt F) → (⟨S64x50, .f32⟩ : BufTy).Contents (Elt F)),
    binary main_v4 main_v5 main_v6 (mulf : (⟨S64x50, .f32⟩ : BufTy).Contents (Elt F) → (⟨S64x50, .f32⟩ : BufTy).Contents (Elt F) → (⟨S64x50, .f32⟩ : BufTy).Contents (Elt F)),
    unary main_arg1 main_v7 ((extractStridedSlice S64x50x1 ![0, 0, 2] · slices_S64x50x5_S64x50x1_0_0_2) : (⟨S64x50x5, .f32⟩ : BufTy).Contents (Elt F) → (⟨S64x50x1, .f32⟩ : BufTy).Contents (Elt F)),
    reshape main_v7 main_v8 rfl shapeCasts_S64x50x1_S64x50,
    nullary main_cst_0 (constant S_ .f32 0x42A00000#32),
    unary main_cst_0 main_v9 (broadcastInDim S64x50 ![] bcast_S_S64x50 : (⟨S_, .f32⟩ : BufTy).Contents (Elt F) → (⟨S64x50, .f32⟩ : BufTy).Contents (Elt F)),
    binary main_v8 main_v9 main_v10 (mulf : (⟨S64x50, .f32⟩ : BufTy).Contents (Elt F) → (⟨S64x50, .f32⟩ : BufTy).Contents (Elt F) → (⟨S64x50, .f32⟩ : BufTy).Contents (Elt F)),
    unary main_arg1 main_v11 ((extractStridedSlice S64x50x1 ![0, 0, 3] · slices_S64x50x5_S64x50x1_0_0_3) : (⟨S64x50x5, .f32⟩ : BufTy).Contents (Elt F) → (⟨S64x50x1, .f32⟩ : BufTy).Contents (Elt F)),
    reshape main_v11 main_v12 rfl shapeCasts_S64x50x1_S64x50,
    nullary main_cst_1 (constant S_ .f32 0x42A00000#32),
    unary main_cst_1 main_v13 (broadcastInDim S64x50 ![] bcast_S_S64x50 : (⟨S_, .f32⟩ : BufTy).Contents (Elt F) → (⟨S64x50, .f32⟩ : BufTy).Contents (Elt F)),
    binary main_v12 main_v13 main_v14 (mulf : (⟨S64x50, .f32⟩ : BufTy).Contents (Elt F) → (⟨S64x50, .f32⟩ : BufTy).Contents (Elt F) → (⟨S64x50, .f32⟩ : BufTy).Contents (Elt F)),
    unary main_arg1 main_v15 ((extractStridedSlice S64x50x1 ![0, 0, 4] · slices_S64x50x5_S64x50x1_0_0_4) : (⟨S64x50x5, .f32⟩ : BufTy).Contents (Elt F) → (⟨S64x50x1, .f32⟩ : BufTy).Contents (Elt F)),
    reshape main_v15 main_v16 rfl shapeCasts_S64x50x1_S64x50,
    nullary main_cst_2 (constant S_ .f32 0x42A00000#32),
    unary main_cst_2 main_v17 (broadcastInDim S64x50 ![] bcast_S_S64x50 : (⟨S_, .f32⟩ : BufTy).Contents (Elt F) → (⟨S64x50, .f32⟩ : BufTy).Contents (Elt F)),
    binary main_v16 main_v17 main_v18 (mulf : (⟨S64x50, .f32⟩ : BufTy).Contents (Elt F) → (⟨S64x50, .f32⟩ : BufTy).Contents (Elt F) → (⟨S64x50, .f32⟩ : BufTy).Contents (Elt F)),
    unary main_v6 main_v19 (fptosi 32 : (⟨S64x50, .f32⟩ : BufTy).Contents (Elt F) → (⟨S64x50, .i32⟩ : BufTy).Contents (Elt F)),
    nullary main_c (constantI S_ 32 0#32),
    nullary main_c_3 (constantI S_ 32 79#32),
    TRef.unary (TRef.of (T := ⟨S_, .i32⟩) main_c) (TRef.of (T := ⟨S_, .i32⟩) main_call0_v0) id,
    TRef.unary (TRef.of (T := ⟨S_, .i32⟩) main_call0_v0) (TRef.of (T := ⟨S64x50, .i32⟩) main_call0_v1) (broadcastInDim S64x50 ![] bcast_S_S64x50),
    TRef.binary (TRef.of (T := ⟨S64x50, .i32⟩) main_call0_v1) (TRef.of (T := ⟨S64x50, .i32⟩) main_v19) (TRef.of (T := ⟨S64x50, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S64x50, .i32⟩) main_call0_v4) (broadcastInDim S64x50 ![] bcast_S_S64x50),
    TRef.binary (TRef.of (T := ⟨S64x50, .i32⟩) main_call0_v4) (TRef.of (T := ⟨S64x50, .i32⟩) main_call0_v2) (TRef.of (T := ⟨S64x50, .i32⟩) main_v20) minsi,
    unary main_v10 main_v21 (fptosi 32 : (⟨S64x50, .f32⟩ : BufTy).Contents (Elt F) → (⟨S64x50, .i32⟩ : BufTy).Contents (Elt F)),
    nullary main_c_4 (constantI S_ 32 0#32),
    nullary main_c_5 (constantI S_ 32 79#32),
    TRef.unary (TRef.of (T := ⟨S_, .i32⟩) main_c_4) (TRef.of (T := ⟨S_, .i32⟩) main_call1_v0) id,
    TRef.unary (TRef.of (T := ⟨S_, .i32⟩) main_call1_v0) (TRef.of (T := ⟨S64x50, .i32⟩) main_call1_v1) (broadcastInDim S64x50 ![] bcast_S_S64x50),
    TRef.binary (TRef.of (T := ⟨S64x50, .i32⟩) main_call1_v1) (TRef.of (T := ⟨S64x50, .i32⟩) main_v21) (TRef.of (T := ⟨S64x50, .i32⟩) main_call1_v2) maxsi,
    TRef.unary (TRef.of (T := ⟨S_, .i32⟩) main_c_5) (TRef.of (T := ⟨S_, .i32⟩) main_call1_v3) id,
    TRef.unary (TRef.of (T := ⟨S_, .i32⟩) main_call1_v3) (TRef.of (T := ⟨S64x50, .i32⟩) main_call1_v4) (broadcastInDim S64x50 ![] bcast_S_S64x50),
    TRef.binary (TRef.of (T := ⟨S64x50, .i32⟩) main_call1_v4) (TRef.of (T := ⟨S64x50, .i32⟩) main_call1_v2) (TRef.of (T := ⟨S64x50, .i32⟩) main_v22) minsi,
    nullary main_v23 (iotaInDim S64 32 0),
    unary main_v23 main_v24 (broadcastInDim S64x1 ![0] bcast_S64_S64x1_0 : (⟨S64, .i32⟩ : BufTy).Contents (Elt F) → (⟨S64x1, .i32⟩ : BufTy).Contents (Elt F)),
    unary main_v24 main_v25 (broadcastInDim S64x50 ![0, 1] bcast_S64x1_S64x50_0_1 : (⟨S64x1, .i32⟩ : BufTy).Contents (Elt F) → (⟨S64x50, .i32⟩ : BufTy).Contents (Elt F)),
    nullary main_c_6 (constantI S_ 32 0#32),
    unary main_c_6 main_v26 (broadcastInDim S64x50 ![] bcast_S_S64x50 : (⟨S_, .i32⟩ : BufTy).Contents (Elt F) → (⟨S64x50, .i32⟩ : BufTy).Contents (Elt F)),
    binary main_v25 main_v26 main_v27 (cmpi .slt : (⟨S64x50, .i32⟩ : BufTy).Contents (Elt F) → (⟨S64x50, .i32⟩ : BufTy).Contents (Elt F) → (⟨S64x50, .i1⟩ : BufTy).Contents (Elt F)),
    nullary main_c_7 (constantI S_ 32 64#32),
    unary main_c_7 main_v28 (broadcastInDim S64x50 ![] bcast_S_S64x50 : (⟨S_, .i32⟩ : BufTy).Contents (Elt F) → (⟨S64x50, .i32⟩ : BufTy).Contents (Elt F)),
    binary main_v25 main_v28 main_v29 (addi : (⟨S64x50, .i32⟩ : BufTy).Contents (Elt F) → (⟨S64x50, .i32⟩ : BufTy).Contents (Elt F) → (⟨S64x50, .i32⟩ : BufTy).Contents (Elt F)),
    ternary main_v27 main_v29 main_v25 main_v30 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    nullary main_c_8 (constantI S_ 32 0#32),
    unary main_c_8 main_v31 (broadcastInDim S64x50 ![] bcast_S_S64x50 : (⟨S_, .i32⟩ : BufTy).Contents (Elt F) → (⟨S64x50, .i32⟩ : BufTy).Contents (Elt F)),
    binary main_v22 main_v31 main_v32 (cmpi .slt : (⟨S64x50, .i32⟩ : BufTy).Contents (Elt F) → (⟨S64x50, .i32⟩ : BufTy).Contents (Elt F) → (⟨S64x50, .i1⟩ : BufTy).Contents (Elt F)),
    nullary main_c_9 (constantI S_ 32 80#32),
    unary main_c_9 main_v33 (broadcastInDim S64x50 ![] bcast_S_S64x50 : (⟨S_, .i32⟩ : BufTy).Contents (Elt F) → (⟨S64x50, .i32⟩ : BufTy).Contents (Elt F)),
    binary main_v22 main_v33 main_v34 (addi : (⟨S64x50, .i32⟩ : BufTy).Contents (Elt F) → (⟨S64x50, .i32⟩ : BufTy).Contents (Elt F) → (⟨S64x50, .i32⟩ : BufTy).Contents (Elt F)),
    ternary main_v32 main_v34 main_v22 main_v35 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    nullary main_c_10 (constantI S_ 32 0#32),
    unary main_c_10 main_v36 (broadcastInDim S64x50 ![] bcast_S_S64x50 : (⟨S_, .i32⟩ : BufTy).Contents (Elt F) → (⟨S64x50, .i32⟩ : BufTy).Contents (Elt F)),
    binary main_v20 main_v36 main_v37 (cmpi .slt : (⟨S64x50, .i32⟩ : BufTy).Contents (Elt F) → (⟨S64x50, .i32⟩ : BufTy).Contents (Elt F) → (⟨S64x50, .i1⟩ : BufTy).Contents (Elt F)),
    nullary main_c_11 (constantI S_ 32 80#32),
    unary main_c_11 main_v38 (broadcastInDim S64x50 ![] bcast_S_S64x50 : (⟨S_, .i32⟩ : BufTy).Contents (Elt F) → (⟨S64x50, .i32⟩ : BufTy).Contents (Elt F)),
    binary main_v20 main_v38 main_v39 (addi : (⟨S64x50, .i32⟩ : BufTy).Contents (Elt F) → (⟨S64x50, .i32⟩ : BufTy).Contents (Elt F) → (⟨S64x50, .i32⟩ : BufTy).Contents (Elt F)),
    ternary main_v37 main_v39 main_v20 main_v40 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    unary main_v30 main_v41 (broadcastInDim S64x50x1 ![0, 1] bcast_S64x50_S64x50x1_0_1 : (⟨S64x50, .i32⟩ : BufTy).Contents (Elt F) → (⟨S64x50x1, .i32⟩ : BufTy).Contents (Elt F)),
    unary main_v35 main_v42 (broadcastInDim S64x50x1 ![0, 1] bcast_S64x50_S64x50x1_0_1 : (⟨S64x50, .i32⟩ : BufTy).Contents (Elt F) → (⟨S64x50x1, .i32⟩ : BufTy).Contents (Elt F)),
    unary main_v40 main_v43 (broadcastInDim S64x50x1 ![0, 1] bcast_S64x50_S64x50x1_0_1 : (⟨S64x50, .i32⟩ : BufTy).Contents (Elt F) → (⟨S64x50x1, .i32⟩ : BufTy).Contents (Elt F)),
    nary ![main_v41, main_v42, main_v43] main_v44 (fun u => concatenate S64x50x3 2 [⟨S64x50x1, u 0⟩, ⟨S64x50x1, u 1⟩, ⟨S64x50x1, u 2⟩] concatenates_S64x50x1_S64x50x1_S64x50x1_S64x50x3_d2),
    binary main_arg0 main_v44 main_v45 ((fun x i => Host.gather gather_S64x80x80x85_S64x50x3_S64x50x85_2_012_n_n_012_2_11185 x i) : (⟨S64x80x80x85, .f32⟩ : BufTy).Contents (Elt F) → (⟨S64x50x3, .i32⟩ : BufTy).Contents (Elt F) → (⟨S64x50x85, .f32⟩ : BufTy).Contents (Elt F)),
    unary main_v45 main_v46 ((extractStridedSlice S64x50x1 ![0, 0, 0] · slices_S64x50x85_S64x50x1_0_0_0) : (⟨S64x50x85, .f32⟩ : BufTy).Contents (Elt F) → (⟨S64x50x1, .f32⟩ : BufTy).Contents (Elt F)),
    reshape main_v46 main_v47 rfl shapeCasts_S64x50x1_S64x50,
    unary main_v47 main_v48 (Host.negf : (⟨S64x50, .f32⟩ : BufTy).Contents (Elt F) → (⟨S64x50, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S64x50, .f32⟩) main_call2_v0) (broadcastInDim S64x50 ![] bcast_S_S64x50),
    TRef.binary (TRef.of (T := ⟨S64x50, .f32⟩) main_v48) (TRef.of (T := ⟨S64x50, .f32⟩) main_call2_v0) (TRef.of (T := ⟨S64x50, .f32⟩) main_call2_v1) maximumf,
    TRef.unary (TRef.of (T := ⟨S_, .f32⟩) main_call2_cst) (TRef.of (T := ⟨S64x50, .f32⟩) main_call2_v2) (broadcastInDim S64x50 ![] bcast_S_S64x50),
    TRef.binary (TRef.of (T := ⟨S64x50, .f32⟩) main_v48) (TRef.of (T := ⟨S64x50, .f32⟩) main_call2_v2) (TRef.of (T := ⟨S64x50, .f32⟩) main_call2_v3) subf,
    TRef.binary (TRef.of (T := ⟨S64x50, .f32⟩) main_call2_v3) (TRef.of (T := ⟨S64x50, .f32⟩) main_call2_v3) (TRef.of (T := ⟨S64x50, .i1⟩) main_call2_v4) (cmpf .une),
    TRef.unary (TRef.of (T := ⟨S_, .f32⟩) main_call2_cst) (TRef.of (T := ⟨S64x50, .f32⟩) main_call2_v5) (broadcastInDim S64x50 ![] bcast_S_S64x50),
    TRef.binary (TRef.of (T := ⟨S64x50, .f32⟩) main_v48) (TRef.of (T := ⟨S64x50, .f32⟩) main_call2_v5) (TRef.of (T := ⟨S64x50, .f32⟩) main_call2_v6) addf,
    TRef.unary (TRef.of (T := ⟨S64x50, .f32⟩) main_call2_v3) (TRef.of (T := ⟨S64x50, .f32⟩) main_call2_v7) Host.absf,
    TRef.unary (TRef.of (T := ⟨S64x50, .f32⟩) main_call2_v7) (TRef.of (T := ⟨S64x50, .f32⟩) main_call2_v8) Host.negf,
    TRef.unary (TRef.of (T := ⟨S64x50, .f32⟩) main_call2_v8) (TRef.of (T := ⟨S64x50, .f32⟩) main_call2_v9) Host.exp,
    TRef.unary (TRef.of (T := ⟨S64x50, .f32⟩) main_call2_v9) (TRef.of (T := ⟨S64x50, .f32⟩) main_call2_v10) Host.log1p,
    TRef.binary (TRef.of (T := ⟨S64x50, .f32⟩) main_call2_v1) (TRef.of (T := ⟨S64x50, .f32⟩) main_call2_v10) (TRef.of (T := ⟨S64x50, .f32⟩) main_call2_v11) addf,
    TRef.ternary (TRef.of (T := ⟨S64x50, .i1⟩) main_call2_v4) (TRef.of (T := ⟨S64x50, .f32⟩) main_call2_v6) (TRef.of (T := ⟨S64x50, .f32⟩) main_call2_v11) (TRef.of (T := ⟨S64x50, .f32⟩) main_v49) select,
    nullary main_cst_12 (constant S_ .f32 0x00000000#32),
    binary main_v49 main_cst_12 main_v50 ((fun x v => Host.reduceAdd x v reducesTo_S64x50_S_d0_1 h_S_) : (⟨S64x50, .f32⟩ : BufTy).Contents (Elt F) → (⟨S_, .f32⟩ : BufTy).Contents (Elt F) → (⟨S_, .f32⟩ : BufTy).Contents (Elt F)),
    unary main_v20 main_v51 (sitofp .f32 : (⟨S64x50, .i32⟩ : BufTy).Contents (Elt F) → (⟨S64x50, .f32⟩ : BufTy).Contents (Elt F)),
    binary main_v6 main_v51 main_v52 (subf : (⟨S64x50, .f32⟩ : BufTy).Contents (Elt F) → (⟨S64x50, .f32⟩ : BufTy).Contents (Elt F) → (⟨S64x50, .f32⟩ : BufTy).Contents (Elt F)),
    unary main_v22 main_v53 (sitofp .f32 : (⟨S64x50, .i32⟩ : BufTy).Contents (Elt F) → (⟨S64x50, .f32⟩ : BufTy).Contents (Elt F)),
    binary main_v10 main_v53 main_v54 (subf : (⟨S64x50, .f32⟩ : BufTy).Contents (Elt F) → (⟨S64x50, .f32⟩ : BufTy).Contents (Elt F) → (⟨S64x50, .f32⟩ : BufTy).Contents (Elt F)),
    unary main_v45 main_v55 ((extractStridedSlice S64x50x1 ![0, 0, 1] · slices_S64x50x85_S64x50x1_0_0_1) : (⟨S64x50x85, .f32⟩ : BufTy).Contents (Elt F) → (⟨S64x50x1, .f32⟩ : BufTy).Contents (Elt F)),
    reshape main_v55 main_v56 rfl shapeCasts_S64x50x1_S64x50,
    unary main_v56 main_v57 (Host.negf : (⟨S64x50, .f32⟩ : BufTy).Contents (Elt F) → (⟨S64x50, .f32⟩ : BufTy).Contents (Elt F)),
    unary main_v57 main_v58 (Host.exp : (⟨S64x50, .f32⟩ : BufTy).Contents (Elt F) → (⟨S64x50, .f32⟩ : BufTy).Contents (Elt F)),
    nullary main_cst_13 (constant S_ .f32 0x3F800000#32),
    unary main_cst_13 main_v59 (broadcastInDim S64x50 ![] bcast_S_S64x50 : (⟨S_, .f32⟩ : BufTy).Contents (Elt F) → (⟨S64x50, .f32⟩ : BufTy).Contents (Elt F)),
    binary main_v59 main_v58 main_v60 (addf : (⟨S64x50, .f32⟩ : BufTy).Contents (Elt F) → (⟨S64x50, .f32⟩ : BufTy).Contents (Elt F) → (⟨S64x50, .f32⟩ : BufTy).Contents (Elt F)),
    nullary main_cst_14 (constant S_ .f32 0x3F800000#32),
    unary main_cst_14 main_v61 (broadcastInDim S64x50 ![] bcast_S_S64x50 : (⟨S_, .f32⟩ : BufTy).Contents (Elt F) → (⟨S64x50, .f32⟩ : BufTy).Contents (Elt F)),
    binary main_v61 main_v60 main_v62 (Host.divf : (⟨S64x50, .f32⟩ : BufTy).Contents (Elt F) → (⟨S64x50, .f32⟩ : BufTy).Contents (Elt F) → (⟨S64x50, .f32⟩ : BufTy).Contents (Elt F)),
    binary main_v62 main_v52 main_v63 (subf : (⟨S64x50, .f32⟩ : BufTy).Contents (Elt F) → (⟨S64x50, .f32⟩ : BufTy).Contents (Elt F) → (⟨S64x50, .f32⟩ : BufTy).Contents (Elt F)),
    binary main_v63 main_v63 main_v64 (mulf : (⟨S64x50, .f32⟩ : BufTy).Contents (Elt F) → (⟨S64x50, .f32⟩ : BufTy).Contents (Elt F) → (⟨S64x50, .f32⟩ : BufTy).Contents (Elt F)),
    nullary main_cst_15 (constant S_ .f32 0x00000000#32),
    binary main_v64 main_cst_15 main_v65 ((fun x v => Host.reduceAdd x v reducesTo_S64x50_S_d0_1 h_S_) : (⟨S64x50, .f32⟩ : BufTy).Contents (Elt F) → (⟨S_, .f32⟩ : BufTy).Contents (Elt F) → (⟨S_, .f32⟩ : BufTy).Contents (Elt F)),
    unary main_v45 main_v66 ((extractStridedSlice S64x50x1 ![0, 0, 2] · slices_S64x50x85_S64x50x1_0_0_2) : (⟨S64x50x85, .f32⟩ : BufTy).Contents (Elt F) → (⟨S64x50x1, .f32⟩ : BufTy).Contents (Elt F)),
    reshape main_v66 main_v67 rfl shapeCasts_S64x50x1_S64x50,
    unary main_v67 main_v68 (Host.negf : (⟨S64x50, .f32⟩ : BufTy).Contents (Elt F) → (⟨S64x50, .f32⟩ : BufTy).Contents (Elt F)),
    unary main_v68 main_v69 (Host.exp : (⟨S64x50, .f32⟩ : BufTy).Contents (Elt F) → (⟨S64x50, .f32⟩ : BufTy).Contents (Elt F)),
    nullary main_cst_16 (constant S_ .f32 0x3F800000#32),
    unary main_cst_16 main_v70 (broadcastInDim S64x50 ![] bcast_S_S64x50 : (⟨S_, .f32⟩ : BufTy).Contents (Elt F) → (⟨S64x50, .f32⟩ : BufTy).Contents (Elt F)),
    binary main_v70 main_v69 main_v71 (addf : (⟨S64x50, .f32⟩ : BufTy).Contents (Elt F) → (⟨S64x50, .f32⟩ : BufTy).Contents (Elt F) → (⟨S64x50, .f32⟩ : BufTy).Contents (Elt F)),
    nullary main_cst_17 (constant S_ .f32 0x3F800000#32),
    unary main_cst_17 main_v72 (broadcastInDim S64x50 ![] bcast_S_S64x50 : (⟨S_, .f32⟩ : BufTy).Contents (Elt F) → (⟨S64x50, .f32⟩ : BufTy).Contents (Elt F)),
    binary main_v72 main_v71 main_v73 (Host.divf : (⟨S64x50, .f32⟩ : BufTy).Contents (Elt F) → (⟨S64x50, .f32⟩ : BufTy).Contents (Elt F) → (⟨S64x50, .f32⟩ : BufTy).Contents (Elt F)),
    binary main_v73 main_v54 main_v74 (subf : (⟨S64x50, .f32⟩ : BufTy).Contents (Elt F) → (⟨S64x50, .f32⟩ : BufTy).Contents (Elt F) → (⟨S64x50, .f32⟩ : BufTy).Contents (Elt F)),
    binary main_v74 main_v74 main_v75 (mulf : (⟨S64x50, .f32⟩ : BufTy).Contents (Elt F) → (⟨S64x50, .f32⟩ : BufTy).Contents (Elt F) → (⟨S64x50, .f32⟩ : BufTy).Contents (Elt F)),
    nullary main_cst_18 (constant S_ .f32 0x00000000#32),
    binary main_v75 main_cst_18 main_v76 ((fun x v => Host.reduceAdd x v reducesTo_S64x50_S_d0_1 h_S_) : (⟨S64x50, .f32⟩ : BufTy).Contents (Elt F) → (⟨S_, .f32⟩ : BufTy).Contents (Elt F) → (⟨S_, .f32⟩ : BufTy).Contents (Elt F)),
    binary main_v65 main_v76 main_v77 (addf : (⟨S_, .f32⟩ : BufTy).Contents (Elt F) → (⟨S_, .f32⟩ : BufTy).Contents (Elt F) → (⟨S_, .f32⟩ : BufTy).Contents (Elt F)),
    unary main_v45 main_v78 ((extractStridedSlice S64x50x1 ![0, 0, 3] · slices_S64x50x85_S64x50x1_0_0_3) : (⟨S64x50x85, .f32⟩ : BufTy).Contents (Elt F) → (⟨S64x50x1, .f32⟩ : BufTy).Contents (Elt F)),
    reshape main_v78 main_v79 rfl shapeCasts_S64x50x1_S64x50,
    binary main_v79 main_v14 main_v80 (subf : (⟨S64x50, .f32⟩ : BufTy).Contents (Elt F) → (⟨S64x50, .f32⟩ : BufTy).Contents (Elt F) → (⟨S64x50, .f32⟩ : BufTy).Contents (Elt F)),
    binary main_v80 main_v80 main_v81 (mulf : (⟨S64x50, .f32⟩ : BufTy).Contents (Elt F) → (⟨S64x50, .f32⟩ : BufTy).Contents (Elt F) → (⟨S64x50, .f32⟩ : BufTy).Contents (Elt F)),
    nullary main_cst_19 (constant S_ .f32 0x00000000#32),
    binary main_v81 main_cst_19 main_v82 ((fun x v => Host.reduceAdd x v reducesTo_S64x50_S_d0_1 h_S_) : (⟨S64x50, .f32⟩ : BufTy).Contents (Elt F) → (⟨S_, .f32⟩ : BufTy).Contents (Elt F) → (⟨S_, .f32⟩ : BufTy).Contents (Elt F)),
    binary main_v77 main_v82 main_v83 (addf : (⟨S_, .f32⟩ : BufTy).Contents (Elt F) → (⟨S_, .f32⟩ : BufTy).Contents (Elt F) → (⟨S_, .f32⟩ : BufTy).Contents (Elt F)),
    unary main_v45 main_v84 ((extractStridedSlice S64x50x1 ![0, 0, 4] · slices_S64x50x85_S64x50x1_0_0_4) : (⟨S64x50x85, .f32⟩ : BufTy).Contents (Elt F) → (⟨S64x50x1, .f32⟩ : BufTy).Contents (Elt F)),
    reshape main_v84 main_v85 rfl shapeCasts_S64x50x1_S64x50,
    binary main_v85 main_v18 main_v86 (subf : (⟨S64x50, .f32⟩ : BufTy).Contents (Elt F) → (⟨S64x50, .f32⟩ : BufTy).Contents (Elt F) → (⟨S64x50, .f32⟩ : BufTy).Contents (Elt F)),
    binary main_v86 main_v86 main_v87 (mulf : (⟨S64x50, .f32⟩ : BufTy).Contents (Elt F) → (⟨S64x50, .f32⟩ : BufTy).Contents (Elt F) → (⟨S64x50, .f32⟩ : BufTy).Contents (Elt F)),
    nullary main_cst_20 (constant S_ .f32 0x00000000#32),
    binary main_v87 main_cst_20 main_v88 ((fun x v => Host.reduceAdd x v reducesTo_S64x50_S_d0_1 h_S_) : (⟨S64x50, .f32⟩ : BufTy).Contents (Elt F) → (⟨S_, .f32⟩ : BufTy).Contents (Elt F) → (⟨S_, .f32⟩ : BufTy).Contents (Elt F)),
    binary main_v83 main_v88 main_v89 (addf : (⟨S_, .f32⟩ : BufTy).Contents (Elt F) → (⟨S_, .f32⟩ : BufTy).Contents (Elt F) → (⟨S_, .f32⟩ : BufTy).Contents (Elt F)),
    nullary main_cst_21 (constant S_ .f32 0x40A00000#32),
    binary main_cst_21 main_v89 main_v90 (mulf : (⟨S_, .f32⟩ : BufTy).Contents (Elt F) → (⟨S_, .f32⟩ : BufTy).Contents (Elt F) → (⟨S_, .f32⟩ : BufTy).Contents (Elt F)),
    unary main_v45 main_v91 ((extractStridedSlice S64x50x80 ![0, 0, 5] · slices_S64x50x85_S64x50x80_0_0_5) : (⟨S64x50x85, .f32⟩ : BufTy).Contents (Elt F) → (⟨S64x50x80, .f32⟩ : BufTy).Contents (Elt F)),
    TRef.unary (TRef.of (T := ⟨S64x50, .i32⟩) main_v2) (TRef.of (T := ⟨S64x50x1, .i32⟩) main_call3_v0) (broadcastInDim S64x50x1 ![0, 1] bcast_S64x50_S64x50x1_0_1),
    TRef.nullary (TRef.of (T := ⟨S1x1x80, .i32⟩) main_call3_v1) (iotaInDim S1x1x80 32 2),
    TRef.unary (TRef.of (T := ⟨S64x50x1, .i32⟩) main_call3_v0) (TRef.of (T := ⟨S64x50x80, .i32⟩) main_call3_v2) (broadcastInDim S64x50x80 ![0, 1, 2] bcast_S64x50x1_S64x50x80_0_1_2),
    TRef.unary (TRef.of (T := ⟨S1x1x80, .i32⟩) main_call3_v1) (TRef.of (T := ⟨S64x50x80, .i32⟩) main_call3_v3) (broadcastInDim S64x50x80 ![0, 1, 2] bcast_S1x1x80_S64x50x80_0_1_2),
    TRef.binary (TRef.of (T := ⟨S64x50x80, .i32⟩) main_call3_v2) (TRef.of (T := ⟨S64x50x80, .i32⟩) main_call3_v3) (TRef.of (T := ⟨S64x50x80, .i1⟩) main_call3_v4) (cmpi .eq),
    TRef.unary (TRef.of (T := ⟨S64x50x80, .i1⟩) main_call3_v4) (TRef.of (T := ⟨S64x50x80, .f32⟩) main_v92) (uitofp .f32),
    TRef.nullary (TRef.of (T := ⟨S_, .f32⟩) main_call4_cst) (constant S_ .f32 0x00000000#32),
    TRef.unary (TRef.of (T := ⟨S_, .f32⟩) main_call4_cst) (TRef.of (T := ⟨S64x50x80, .f32⟩) main_call4_v0) (broadcastInDim S64x50x80 ![] bcast_S_S64x50x80),
    TRef.binary (TRef.of (T := ⟨S64x50x80, .f32⟩) main_v91) (TRef.of (T := ⟨S64x50x80, .f32⟩) main_call4_v0) (TRef.of (T := ⟨S64x50x80, .f32⟩) main_call4_v1) maximumf,
    TRef.unary (TRef.of (T := ⟨S_, .f32⟩) main_call4_cst) (TRef.of (T := ⟨S64x50x80, .f32⟩) main_call4_v2) (broadcastInDim S64x50x80 ![] bcast_S_S64x50x80),
    TRef.binary (TRef.of (T := ⟨S64x50x80, .f32⟩) main_v91) (TRef.of (T := ⟨S64x50x80, .f32⟩) main_call4_v2) (TRef.of (T := ⟨S64x50x80, .f32⟩) main_call4_v3) subf,
    TRef.binary (TRef.of (T := ⟨S64x50x80, .f32⟩) main_call4_v3) (TRef.of (T := ⟨S64x50x80, .f32⟩) main_call4_v3) (TRef.of (T := ⟨S64x50x80, .i1⟩) main_call4_v4) (cmpf .une),
    TRef.unary (TRef.of (T := ⟨S_, .f32⟩) main_call4_cst) (TRef.of (T := ⟨S64x50x80, .f32⟩) main_call4_v5) (broadcastInDim S64x50x80 ![] bcast_S_S64x50x80),
    TRef.binary (TRef.of (T := ⟨S64x50x80, .f32⟩) main_v91) (TRef.of (T := ⟨S64x50x80, .f32⟩) main_call4_v5) (TRef.of (T := ⟨S64x50x80, .f32⟩) main_call4_v6) addf,
    TRef.unary (TRef.of (T := ⟨S64x50x80, .f32⟩) main_call4_v3) (TRef.of (T := ⟨S64x50x80, .f32⟩) main_call4_v7) Host.absf,
    TRef.unary (TRef.of (T := ⟨S64x50x80, .f32⟩) main_call4_v7) (TRef.of (T := ⟨S64x50x80, .f32⟩) main_call4_v8) Host.negf,
    TRef.unary (TRef.of (T := ⟨S64x50x80, .f32⟩) main_call4_v8) (TRef.of (T := ⟨S64x50x80, .f32⟩) main_call4_v9) Host.exp,
    TRef.unary (TRef.of (T := ⟨S64x50x80, .f32⟩) main_call4_v9) (TRef.of (T := ⟨S64x50x80, .f32⟩) main_call4_v10) Host.log1p,
    TRef.binary (TRef.of (T := ⟨S64x50x80, .f32⟩) main_call4_v1) (TRef.of (T := ⟨S64x50x80, .f32⟩) main_call4_v10) (TRef.of (T := ⟨S64x50x80, .f32⟩) main_call4_v11) addf,
    TRef.ternary (TRef.of (T := ⟨S64x50x80, .i1⟩) main_call4_v4) (TRef.of (T := ⟨S64x50x80, .f32⟩) main_call4_v6) (TRef.of (T := ⟨S64x50x80, .f32⟩) main_call4_v11) (TRef.of (T := ⟨S64x50x80, .f32⟩) main_v93) select,
    binary main_v91 main_v92 main_v94 (mulf : (⟨S64x50x80, .f32⟩ : BufTy).Contents (Elt F) → (⟨S64x50x80, .f32⟩ : BufTy).Contents (Elt F) → (⟨S64x50x80, .f32⟩ : BufTy).Contents (Elt F)),
    binary main_v93 main_v94 main_v95 (subf : (⟨S64x50x80, .f32⟩ : BufTy).Contents (Elt F) → (⟨S64x50x80, .f32⟩ : BufTy).Contents (Elt F) → (⟨S64x50x80, .f32⟩ : BufTy).Contents (Elt F)),
    nullary main_cst_22 (constant S_ .f32 0x00000000#32),
    binary main_v95 main_cst_22 main_v96 ((fun x v => Host.reduceAdd x v reducesTo_S64x50x80_S_d0_1_2 h_S_) : (⟨S64x50x80, .f32⟩ : BufTy).Contents (Elt F) → (⟨S_, .f32⟩ : BufTy).Contents (Elt F) → (⟨S_, .f32⟩ : BufTy).Contents (Elt F)),
    unary main_v6 main_v97 (fptosi 32 : (⟨S64x50, .f32⟩ : BufTy).Contents (Elt F) → (⟨S64x50, .i32⟩ : BufTy).Contents (Elt F)),
    unary main_v10 main_v98 (fptosi 32 : (⟨S64x50, .f32⟩ : BufTy).Contents (Elt F) → (⟨S64x50, .i32⟩ : BufTy).Contents (Elt F)),
    nullary main_c_23 (constantI S_ 1 0#1),
    unary main_c_23 main_v99 (broadcastInDim S64x80x80 ![] bcast_S_S64x80x80 : (⟨S_, .i1⟩ : BufTy).Contents (Elt F) → (⟨S64x80x80, .i1⟩ : BufTy).Contents (Elt F)),
    nullary main_c_24 (constantI S_ 32 0#32),
    unary main_c_24 main_v100 (broadcastInDim S64x50 ![] bcast_S_S64x50 : (⟨S_, .i32⟩ : BufTy).Contents (Elt F) → (⟨S64x50, .i32⟩ : BufTy).Contents (Elt F)),
    binary main_v25 main_v100 main_v101 (cmpi .slt : (⟨S64x50, .i32⟩ : BufTy).Contents (Elt F) → (⟨S64x50, .i32⟩ : BufTy).Contents (Elt F) → (⟨S64x50, .i1⟩ : BufTy).Contents (Elt F)),
    nullary main_c_25 (constantI S_ 32 64#32),
    unary main_c_25 main_v102 (broadcastInDim S64x50 ![] bcast_S_S64x50 : (⟨S_, .i32⟩ : BufTy).Contents (Elt F) → (⟨S64x50, .i32⟩ : BufTy).Contents (Elt F)),
    binary main_v25 main_v102 main_v103 (addi : (⟨S64x50, .i32⟩ : BufTy).Contents (Elt F) → (⟨S64x50, .i32⟩ : BufTy).Contents (Elt F) → (⟨S64x50, .i32⟩ : BufTy).Contents (Elt F)),
    ternary main_v101 main_v103 main_v25 main_v104 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    nullary main_c_26 (constantI S_ 32 0#32),
    unary main_c_26 main_v105 (broadcastInDim S64x50 ![] bcast_S_S64x50 : (⟨S_, .i32⟩ : BufTy).Contents (Elt F) → (⟨S64x50, .i32⟩ : BufTy).Contents (Elt F)),
    binary main_v98 main_v105 main_v106 (cmpi .slt : (⟨S64x50, .i32⟩ : BufTy).Contents (Elt F) → (⟨S64x50, .i32⟩ : BufTy).Contents (Elt F) → (⟨S64x50, .i1⟩ : BufTy).Contents (Elt F)),
    nullary main_c_27 (constantI S_ 32 80#32),
    unary main_c_27 main_v107 (broadcastInDim S64x50 ![] bcast_S_S64x50 : (⟨S_, .i32⟩ : BufTy).Contents (Elt F) → (⟨S64x50, .i32⟩ : BufTy).Contents (Elt F)),
    binary main_v98 main_v107 main_v108 (addi : (⟨S64x50, .i32⟩ : BufTy).Contents (Elt F) → (⟨S64x50, .i32⟩ : BufTy).Contents (Elt F) → (⟨S64x50, .i32⟩ : BufTy).Contents (Elt F)),
    ternary main_v106 main_v108 main_v98 main_v109 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    nullary main_c_28 (constantI S_ 32 0#32),
    unary main_c_28 main_v110 (broadcastInDim S64x50 ![] bcast_S_S64x50 : (⟨S_, .i32⟩ : BufTy).Contents (Elt F) → (⟨S64x50, .i32⟩ : BufTy).Contents (Elt F)),
    binary main_v97 main_v110 main_v111 (cmpi .slt : (⟨S64x50, .i32⟩ : BufTy).Contents (Elt F) → (⟨S64x50, .i32⟩ : BufTy).Contents (Elt F) → (⟨S64x50, .i1⟩ : BufTy).Contents (Elt F)),
    nullary main_c_29 (constantI S_ 32 80#32),
    unary main_c_29 main_v112 (broadcastInDim S64x50 ![] bcast_S_S64x50 : (⟨S_, .i32⟩ : BufTy).Contents (Elt F) → (⟨S64x50, .i32⟩ : BufTy).Contents (Elt F)),
    binary main_v97 main_v112 main_v113 (addi : (⟨S64x50, .i32⟩ : BufTy).Contents (Elt F) → (⟨S64x50, .i32⟩ : BufTy).Contents (Elt F) → (⟨S64x50, .i32⟩ : BufTy).Contents (Elt F)),
    ternary main_v111 main_v113 main_v97 main_v114 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    unary main_v104 main_v115 (broadcastInDim S64x50x1 ![0, 1] bcast_S64x50_S64x50x1_0_1 : (⟨S64x50, .i32⟩ : BufTy).Contents (Elt F) → (⟨S64x50x1, .i32⟩ : BufTy).Contents (Elt F)),
    unary main_v109 main_v116 (broadcastInDim S64x50x1 ![0, 1] bcast_S64x50_S64x50x1_0_1 : (⟨S64x50, .i32⟩ : BufTy).Contents (Elt F) → (⟨S64x50x1, .i32⟩ : BufTy).Contents (Elt F)),
    unary main_v114 main_v117 (broadcastInDim S64x50x1 ![0, 1] bcast_S64x50_S64x50x1_0_1 : (⟨S64x50, .i32⟩ : BufTy).Contents (Elt F) → (⟨S64x50x1, .i32⟩ : BufTy).Contents (Elt F)),
    nary ![main_v115, main_v116, main_v117] main_v118 (fun u => concatenate S64x50x3 2 [⟨S64x50x1, u 0⟩, ⟨S64x50x1, u 1⟩, ⟨S64x50x1, u 2⟩] concatenates_S64x50x1_S64x50x1_S64x50x1_S64x50x3_d2),
    nullary main_c_30 (constantI S_ 1 1#1),
    unary main_c_30 main_v119 (broadcastInDim S64x50 ![] bcast_S_S64x50 : (⟨S_, .i1⟩ : BufTy).Contents (Elt F) → (⟨S64x50, .i1⟩ : BufTy).Contents (Elt F)),
    ternary main_v99 main_v118 main_v119 main_v120 ((fun x i u => Host.scatter scatter_S64x80x80_S64x50x3_S64x50_n_012_012_2 (fun _ b => b) x i u) : (⟨S64x80x80, .i1⟩ : BufTy).Contents (Elt F) → (⟨S64x50x3, .i32⟩ : BufTy).Contents (Elt F) → (⟨S64x50, .i1⟩ : BufTy).Contents (Elt F) → (⟨S64x80x80, .i1⟩ : BufTy).Contents (Elt F)),
    unary main_arg0 main_v121 ((extractStridedSlice S64x80x80x1 ![0, 0, 0, 0] · slices_S64x80x80x85_S64x80x80x1_0_0_0_0) : (⟨S64x80x80x85, .f32⟩ : BufTy).Contents (Elt F) → (⟨S64x80x80x1, .f32⟩ : BufTy).Contents (Elt F)),
    reshape main_v121 main_v122 rfl shapeCasts_S64x80x80x1_S64x80x80,
    TRef.nullary (TRef.of (T := ⟨S_, .f32⟩) main_call5_cst) (constant S_ .f32 0x00000000#32),
    TRef.unary (TRef.of (T := ⟨S_, .f32⟩) main_call5_cst) (TRef.of (T := ⟨S64x80x80, .f32⟩) main_call5_v0) (broadcastInDim S64x80x80 ![] bcast_S_S64x80x80),
    TRef.binary (TRef.of (T := ⟨S64x80x80, .f32⟩) main_v122) (TRef.of (T := ⟨S64x80x80, .f32⟩) main_call5_v0) (TRef.of (T := ⟨S64x80x80, .f32⟩) main_call5_v1) maximumf,
    TRef.unary (TRef.of (T := ⟨S_, .f32⟩) main_call5_cst) (TRef.of (T := ⟨S64x80x80, .f32⟩) main_call5_v2) (broadcastInDim S64x80x80 ![] bcast_S_S64x80x80),
    TRef.binary (TRef.of (T := ⟨S64x80x80, .f32⟩) main_v122) (TRef.of (T := ⟨S64x80x80, .f32⟩) main_call5_v2) (TRef.of (T := ⟨S64x80x80, .f32⟩) main_call5_v3) subf,
    TRef.binary (TRef.of (T := ⟨S64x80x80, .f32⟩) main_call5_v3) (TRef.of (T := ⟨S64x80x80, .f32⟩) main_call5_v3) (TRef.of (T := ⟨S64x80x80, .i1⟩) main_call5_v4) (cmpf .une),
    TRef.unary (TRef.of (T := ⟨S_, .f32⟩) main_call5_cst) (TRef.of (T := ⟨S64x80x80, .f32⟩) main_call5_v5) (broadcastInDim S64x80x80 ![] bcast_S_S64x80x80),
    TRef.binary (TRef.of (T := ⟨S64x80x80, .f32⟩) main_v122) (TRef.of (T := ⟨S64x80x80, .f32⟩) main_call5_v5) (TRef.of (T := ⟨S64x80x80, .f32⟩) main_call5_v6) addf,
    TRef.unary (TRef.of (T := ⟨S64x80x80, .f32⟩) main_call5_v3) (TRef.of (T := ⟨S64x80x80, .f32⟩) main_call5_v7) Host.absf,
    TRef.unary (TRef.of (T := ⟨S64x80x80, .f32⟩) main_call5_v7) (TRef.of (T := ⟨S64x80x80, .f32⟩) main_call5_v8) Host.negf,
    TRef.unary (TRef.of (T := ⟨S64x80x80, .f32⟩) main_call5_v8) (TRef.of (T := ⟨S64x80x80, .f32⟩) main_call5_v9) Host.exp,
    TRef.unary (TRef.of (T := ⟨S64x80x80, .f32⟩) main_call5_v9) (TRef.of (T := ⟨S64x80x80, .f32⟩) main_call5_v10) Host.log1p,
    TRef.binary (TRef.of (T := ⟨S64x80x80, .f32⟩) main_call5_v1) (TRef.of (T := ⟨S64x80x80, .f32⟩) main_call5_v10) (TRef.of (T := ⟨S64x80x80, .f32⟩) main_call5_v11) addf,
    TRef.ternary (TRef.of (T := ⟨S64x80x80, .i1⟩) main_call5_v4) (TRef.of (T := ⟨S64x80x80, .f32⟩) main_call5_v6) (TRef.of (T := ⟨S64x80x80, .f32⟩) main_call5_v11) (TRef.of (T := ⟨S64x80x80, .f32⟩) main_v123) select,
    nullary main_cst_31 (constant S_ .f32 0x00000000#32),
    TRef.unary (TRef.of (T := ⟨S_, .f32⟩) main_cst_31) (TRef.of (T := ⟨S64x80x80, .f32⟩) main_call6_v0) (broadcastInDim S64x80x80 ![] bcast_S_S64x80x80),
    TRef.ternary (TRef.of (T := ⟨S64x80x80, .i1⟩) main_v120) (TRef.of (T := ⟨S64x80x80, .f32⟩) main_call6_v0) (TRef.of (T := ⟨S64x80x80, .f32⟩) main_v123) (TRef.of (T := ⟨S64x80x80, .f32⟩) main_v124) select,
    nullary main_cst_32 (constant S_ .f32 0x00000000#32),
    binary main_v124 main_cst_32 main_v125 ((fun x v => Host.reduceAdd x v reducesTo_S64x80x80_S_d0_1_2 h_S_) : (⟨S64x80x80, .f32⟩ : BufTy).Contents (Elt F) → (⟨S_, .f32⟩ : BufTy).Contents (Elt F) → (⟨S_, .f32⟩ : BufTy).Contents (Elt F)),
    nullary main_cst_33 (constant S_ .f32 0x3F000000#32),
    binary main_cst_33 main_v125 main_v126 (mulf : (⟨S_, .f32⟩ : BufTy).Contents (Elt F) → (⟨S_, .f32⟩ : BufTy).Contents (Elt F) → (⟨S_, .f32⟩ : BufTy).Contents (Elt F)),
    nullary main_cst_34 (constant S_ .f32 0x42800000#32),
    binary main_v50 main_cst_34 main_v127 (Host.divf : (⟨S_, .f32⟩ : BufTy).Contents (Elt F) → (⟨S_, .f32⟩ : BufTy).Contents (Elt F) → (⟨S_, .f32⟩ : BufTy).Contents (Elt F)),
    nullary main_cst_35 (constant S_ .f32 0x42800000#32),
    binary main_v126 main_cst_35 main_v128 (Host.divf : (⟨S_, .f32⟩ : BufTy).Contents (Elt F) → (⟨S_, .f32⟩ : BufTy).Contents (Elt F) → (⟨S_, .f32⟩ : BufTy).Contents (Elt F)),
    nullary main_cst_36 (constant S_ .f32 0x42800000#32),
    binary main_v90 main_cst_36 main_v129 (Host.divf : (⟨S_, .f32⟩ : BufTy).Contents (Elt F) → (⟨S_, .f32⟩ : BufTy).Contents (Elt F) → (⟨S_, .f32⟩ : BufTy).Contents (Elt F)),
    nullary main_cst_37 (constant S_ .f32 0x42800000#32),
    binary main_v96 main_cst_37 main_v130 (Host.divf : (⟨S_, .f32⟩ : BufTy).Contents (Elt F) → (⟨S_, .f32⟩ : BufTy).Contents (Elt F) → (⟨S_, .f32⟩ : BufTy).Contents (Elt F)),
    binary main_v127 main_v128 main_v131 (addf : (⟨S_, .f32⟩ : BufTy).Contents (Elt F) → (⟨S_, .f32⟩ : BufTy).Contents (Elt F) → (⟨S_, .f32⟩ : BufTy).Contents (Elt F)),
    binary main_v131 main_v129 main_v132 (addf : (⟨S_, .f32⟩ : BufTy).Contents (Elt F) → (⟨S_, .f32⟩ : BufTy).Contents (Elt F) → (⟨S_, .f32⟩ : BufTy).Contents (Elt F)),
    binary main_v132 main_v130 main_v133 (addf : (⟨S_, .f32⟩ : BufTy).Contents (Elt F) → (⟨S_, .f32⟩ : BufTy).Contents (Elt F) → (⟨S_, .f32⟩ : BufTy).Contents (Elt F)) ]

/-- Its first 195 operations: up to and including the occupancy scatter. -/
abbrev opsP : List (HloOp τ sig (Elt F)) :=
  [ unary main_arg1 main_v0 ((extractStridedSlice S64x50x1 ![0, 0, 0] · slices_S64x50x5_S64x50x1_0_0_0) : (⟨S64x50x5, .f32⟩ : BufTy).Contents (Elt F) → (⟨S64x50x1, .f32⟩ : BufTy).Contents (Elt F)),
    reshape main_v0 main_v1 rfl shapeCasts_S64x50x1_S64x50,
    unary main_v1 main_v2 (fptosi 32 : (⟨S64x50, .f32⟩ : BufTy).Contents (Elt F) → (⟨S64x50, .i32⟩ : BufTy).Contents (Elt F)),
    unary main_arg1 main_v3 ((extractStridedSlice S64x50x1 ![0, 0, 1] · slices_S64x50x5_S64x50x1_0_0_1) : (⟨S64x50x5, .f32⟩ : BufTy).Contents (Elt F) → (⟨S64x50x1, .f32⟩ : BufTy).Contents (Elt F)),
    reshape main_v3 main_v4 rfl shapeCasts_S64x50x1_S64x50,
    nullary main_cst (constant S_ .f32 0x42A00000#32),
    unary main_cst main_v5 (broadcastInDim S64x50 ![] bcast_S_S64x50 : (⟨S_, .f32⟩ : BufTy).Contents (Elt F) → (⟨S64x50, .f32⟩ : BufTy).Contents (Elt F)),
    binary main_v4 main_v5 main_v6 (mulf : (⟨S64x50, .f32⟩ : BufTy).Contents (Elt F) → (⟨S64x50, .f32⟩ : BufTy).Contents (Elt F) → (⟨S64x50, .f32⟩ : BufTy).Contents (Elt F)),
    unary main_arg1 main_v7 ((extractStridedSlice S64x50x1 ![0, 0, 2] · slices_S64x50x5_S64x50x1_0_0_2) : (⟨S64x50x5, .f32⟩ : BufTy).Contents (Elt F) → (⟨S64x50x1, .f32⟩ : BufTy).Contents (Elt F)),
    reshape main_v7 main_v8 rfl shapeCasts_S64x50x1_S64x50,
    nullary main_cst_0 (constant S_ .f32 0x42A00000#32),
    unary main_cst_0 main_v9 (broadcastInDim S64x50 ![] bcast_S_S64x50 : (⟨S_, .f32⟩ : BufTy).Contents (Elt F) → (⟨S64x50, .f32⟩ : BufTy).Contents (Elt F)),
    binary main_v8 main_v9 main_v10 (mulf : (⟨S64x50, .f32⟩ : BufTy).Contents (Elt F) → (⟨S64x50, .f32⟩ : BufTy).Contents (Elt F) → (⟨S64x50, .f32⟩ : BufTy).Contents (Elt F)),
    unary main_arg1 main_v11 ((extractStridedSlice S64x50x1 ![0, 0, 3] · slices_S64x50x5_S64x50x1_0_0_3) : (⟨S64x50x5, .f32⟩ : BufTy).Contents (Elt F) → (⟨S64x50x1, .f32⟩ : BufTy).Contents (Elt F)),
    reshape main_v11 main_v12 rfl shapeCasts_S64x50x1_S64x50,
    nullary main_cst_1 (constant S_ .f32 0x42A00000#32),
    unary main_cst_1 main_v13 (broadcastInDim S64x50 ![] bcast_S_S64x50 : (⟨S_, .f32⟩ : BufTy).Contents (Elt F) → (⟨S64x50, .f32⟩ : BufTy).Contents (Elt F)),
    binary main_v12 main_v13 main_v14 (mulf : (⟨S64x50, .f32⟩ : BufTy).Contents (Elt F) → (⟨S64x50, .f32⟩ : BufTy).Contents (Elt F) → (⟨S64x50, .f32⟩ : BufTy).Contents (Elt F)),
    unary main_arg1 main_v15 ((extractStridedSlice S64x50x1 ![0, 0, 4] · slices_S64x50x5_S64x50x1_0_0_4) : (⟨S64x50x5, .f32⟩ : BufTy).Contents (Elt F) → (⟨S64x50x1, .f32⟩ : BufTy).Contents (Elt F)),
    reshape main_v15 main_v16 rfl shapeCasts_S64x50x1_S64x50,
    nullary main_cst_2 (constant S_ .f32 0x42A00000#32),
    unary main_cst_2 main_v17 (broadcastInDim S64x50 ![] bcast_S_S64x50 : (⟨S_, .f32⟩ : BufTy).Contents (Elt F) → (⟨S64x50, .f32⟩ : BufTy).Contents (Elt F)),
    binary main_v16 main_v17 main_v18 (mulf : (⟨S64x50, .f32⟩ : BufTy).Contents (Elt F) → (⟨S64x50, .f32⟩ : BufTy).Contents (Elt F) → (⟨S64x50, .f32⟩ : BufTy).Contents (Elt F)),
    unary main_v6 main_v19 (fptosi 32 : (⟨S64x50, .f32⟩ : BufTy).Contents (Elt F) → (⟨S64x50, .i32⟩ : BufTy).Contents (Elt F)),
    nullary main_c (constantI S_ 32 0#32),
    nullary main_c_3 (constantI S_ 32 79#32),
    TRef.unary (TRef.of (T := ⟨S_, .i32⟩) main_c) (TRef.of (T := ⟨S_, .i32⟩) main_call0_v0) id,
    TRef.unary (TRef.of (T := ⟨S_, .i32⟩) main_call0_v0) (TRef.of (T := ⟨S64x50, .i32⟩) main_call0_v1) (broadcastInDim S64x50 ![] bcast_S_S64x50),
    TRef.binary (TRef.of (T := ⟨S64x50, .i32⟩) main_call0_v1) (TRef.of (T := ⟨S64x50, .i32⟩) main_v19) (TRef.of (T := ⟨S64x50, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S64x50, .i32⟩) main_call0_v4) (broadcastInDim S64x50 ![] bcast_S_S64x50),
    TRef.binary (TRef.of (T := ⟨S64x50, .i32⟩) main_call0_v4) (TRef.of (T := ⟨S64x50, .i32⟩) main_call0_v2) (TRef.of (T := ⟨S64x50, .i32⟩) main_v20) minsi,
    unary main_v10 main_v21 (fptosi 32 : (⟨S64x50, .f32⟩ : BufTy).Contents (Elt F) → (⟨S64x50, .i32⟩ : BufTy).Contents (Elt F)),
    nullary main_c_4 (constantI S_ 32 0#32),
    nullary main_c_5 (constantI S_ 32 79#32),
    TRef.unary (TRef.of (T := ⟨S_, .i32⟩) main_c_4) (TRef.of (T := ⟨S_, .i32⟩) main_call1_v0) id,
    TRef.unary (TRef.of (T := ⟨S_, .i32⟩) main_call1_v0) (TRef.of (T := ⟨S64x50, .i32⟩) main_call1_v1) (broadcastInDim S64x50 ![] bcast_S_S64x50),
    TRef.binary (TRef.of (T := ⟨S64x50, .i32⟩) main_call1_v1) (TRef.of (T := ⟨S64x50, .i32⟩) main_v21) (TRef.of (T := ⟨S64x50, .i32⟩) main_call1_v2) maxsi,
    TRef.unary (TRef.of (T := ⟨S_, .i32⟩) main_c_5) (TRef.of (T := ⟨S_, .i32⟩) main_call1_v3) id,
    TRef.unary (TRef.of (T := ⟨S_, .i32⟩) main_call1_v3) (TRef.of (T := ⟨S64x50, .i32⟩) main_call1_v4) (broadcastInDim S64x50 ![] bcast_S_S64x50),
    TRef.binary (TRef.of (T := ⟨S64x50, .i32⟩) main_call1_v4) (TRef.of (T := ⟨S64x50, .i32⟩) main_call1_v2) (TRef.of (T := ⟨S64x50, .i32⟩) main_v22) minsi,
    nullary main_v23 (iotaInDim S64 32 0),
    unary main_v23 main_v24 (broadcastInDim S64x1 ![0] bcast_S64_S64x1_0 : (⟨S64, .i32⟩ : BufTy).Contents (Elt F) → (⟨S64x1, .i32⟩ : BufTy).Contents (Elt F)),
    unary main_v24 main_v25 (broadcastInDim S64x50 ![0, 1] bcast_S64x1_S64x50_0_1 : (⟨S64x1, .i32⟩ : BufTy).Contents (Elt F) → (⟨S64x50, .i32⟩ : BufTy).Contents (Elt F)),
    nullary main_c_6 (constantI S_ 32 0#32),
    unary main_c_6 main_v26 (broadcastInDim S64x50 ![] bcast_S_S64x50 : (⟨S_, .i32⟩ : BufTy).Contents (Elt F) → (⟨S64x50, .i32⟩ : BufTy).Contents (Elt F)),
    binary main_v25 main_v26 main_v27 (cmpi .slt : (⟨S64x50, .i32⟩ : BufTy).Contents (Elt F) → (⟨S64x50, .i32⟩ : BufTy).Contents (Elt F) → (⟨S64x50, .i1⟩ : BufTy).Contents (Elt F)),
    nullary main_c_7 (constantI S_ 32 64#32),
    unary main_c_7 main_v28 (broadcastInDim S64x50 ![] bcast_S_S64x50 : (⟨S_, .i32⟩ : BufTy).Contents (Elt F) → (⟨S64x50, .i32⟩ : BufTy).Contents (Elt F)),
    binary main_v25 main_v28 main_v29 (addi : (⟨S64x50, .i32⟩ : BufTy).Contents (Elt F) → (⟨S64x50, .i32⟩ : BufTy).Contents (Elt F) → (⟨S64x50, .i32⟩ : BufTy).Contents (Elt F)),
    ternary main_v27 main_v29 main_v25 main_v30 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    nullary main_c_8 (constantI S_ 32 0#32),
    unary main_c_8 main_v31 (broadcastInDim S64x50 ![] bcast_S_S64x50 : (⟨S_, .i32⟩ : BufTy).Contents (Elt F) → (⟨S64x50, .i32⟩ : BufTy).Contents (Elt F)),
    binary main_v22 main_v31 main_v32 (cmpi .slt : (⟨S64x50, .i32⟩ : BufTy).Contents (Elt F) → (⟨S64x50, .i32⟩ : BufTy).Contents (Elt F) → (⟨S64x50, .i1⟩ : BufTy).Contents (Elt F)),
    nullary main_c_9 (constantI S_ 32 80#32),
    unary main_c_9 main_v33 (broadcastInDim S64x50 ![] bcast_S_S64x50 : (⟨S_, .i32⟩ : BufTy).Contents (Elt F) → (⟨S64x50, .i32⟩ : BufTy).Contents (Elt F)),
    binary main_v22 main_v33 main_v34 (addi : (⟨S64x50, .i32⟩ : BufTy).Contents (Elt F) → (⟨S64x50, .i32⟩ : BufTy).Contents (Elt F) → (⟨S64x50, .i32⟩ : BufTy).Contents (Elt F)),
    ternary main_v32 main_v34 main_v22 main_v35 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    nullary main_c_10 (constantI S_ 32 0#32),
    unary main_c_10 main_v36 (broadcastInDim S64x50 ![] bcast_S_S64x50 : (⟨S_, .i32⟩ : BufTy).Contents (Elt F) → (⟨S64x50, .i32⟩ : BufTy).Contents (Elt F)),
    binary main_v20 main_v36 main_v37 (cmpi .slt : (⟨S64x50, .i32⟩ : BufTy).Contents (Elt F) → (⟨S64x50, .i32⟩ : BufTy).Contents (Elt F) → (⟨S64x50, .i1⟩ : BufTy).Contents (Elt F)),
    nullary main_c_11 (constantI S_ 32 80#32),
    unary main_c_11 main_v38 (broadcastInDim S64x50 ![] bcast_S_S64x50 : (⟨S_, .i32⟩ : BufTy).Contents (Elt F) → (⟨S64x50, .i32⟩ : BufTy).Contents (Elt F)),
    binary main_v20 main_v38 main_v39 (addi : (⟨S64x50, .i32⟩ : BufTy).Contents (Elt F) → (⟨S64x50, .i32⟩ : BufTy).Contents (Elt F) → (⟨S64x50, .i32⟩ : BufTy).Contents (Elt F)),
    ternary main_v37 main_v39 main_v20 main_v40 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    unary main_v30 main_v41 (broadcastInDim S64x50x1 ![0, 1] bcast_S64x50_S64x50x1_0_1 : (⟨S64x50, .i32⟩ : BufTy).Contents (Elt F) → (⟨S64x50x1, .i32⟩ : BufTy).Contents (Elt F)),
    unary main_v35 main_v42 (broadcastInDim S64x50x1 ![0, 1] bcast_S64x50_S64x50x1_0_1 : (⟨S64x50, .i32⟩ : BufTy).Contents (Elt F) → (⟨S64x50x1, .i32⟩ : BufTy).Contents (Elt F)),
    unary main_v40 main_v43 (broadcastInDim S64x50x1 ![0, 1] bcast_S64x50_S64x50x1_0_1 : (⟨S64x50, .i32⟩ : BufTy).Contents (Elt F) → (⟨S64x50x1, .i32⟩ : BufTy).Contents (Elt F)),
    nary ![main_v41, main_v42, main_v43] main_v44 (fun u => concatenate S64x50x3 2 [⟨S64x50x1, u 0⟩, ⟨S64x50x1, u 1⟩, ⟨S64x50x1, u 2⟩] concatenates_S64x50x1_S64x50x1_S64x50x1_S64x50x3_d2),
    binary main_arg0 main_v44 main_v45 ((fun x i => Host.gather gather_S64x80x80x85_S64x50x3_S64x50x85_2_012_n_n_012_2_11185 x i) : (⟨S64x80x80x85, .f32⟩ : BufTy).Contents (Elt F) → (⟨S64x50x3, .i32⟩ : BufTy).Contents (Elt F) → (⟨S64x50x85, .f32⟩ : BufTy).Contents (Elt F)),
    unary main_v45 main_v46 ((extractStridedSlice S64x50x1 ![0, 0, 0] · slices_S64x50x85_S64x50x1_0_0_0) : (⟨S64x50x85, .f32⟩ : BufTy).Contents (Elt F) → (⟨S64x50x1, .f32⟩ : BufTy).Contents (Elt F)),
    reshape main_v46 main_v47 rfl shapeCasts_S64x50x1_S64x50,
    unary main_v47 main_v48 (Host.negf : (⟨S64x50, .f32⟩ : BufTy).Contents (Elt F) → (⟨S64x50, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S64x50, .f32⟩) main_call2_v0) (broadcastInDim S64x50 ![] bcast_S_S64x50),
    TRef.binary (TRef.of (T := ⟨S64x50, .f32⟩) main_v48) (TRef.of (T := ⟨S64x50, .f32⟩) main_call2_v0) (TRef.of (T := ⟨S64x50, .f32⟩) main_call2_v1) maximumf,
    TRef.unary (TRef.of (T := ⟨S_, .f32⟩) main_call2_cst) (TRef.of (T := ⟨S64x50, .f32⟩) main_call2_v2) (broadcastInDim S64x50 ![] bcast_S_S64x50),
    TRef.binary (TRef.of (T := ⟨S64x50, .f32⟩) main_v48) (TRef.of (T := ⟨S64x50, .f32⟩) main_call2_v2) (TRef.of (T := ⟨S64x50, .f32⟩) main_call2_v3) subf,
    TRef.binary (TRef.of (T := ⟨S64x50, .f32⟩) main_call2_v3) (TRef.of (T := ⟨S64x50, .f32⟩) main_call2_v3) (TRef.of (T := ⟨S64x50, .i1⟩) main_call2_v4) (cmpf .une),
    TRef.unary (TRef.of (T := ⟨S_, .f32⟩) main_call2_cst) (TRef.of (T := ⟨S64x50, .f32⟩) main_call2_v5) (broadcastInDim S64x50 ![] bcast_S_S64x50),
    TRef.binary (TRef.of (T := ⟨S64x50, .f32⟩) main_v48) (TRef.of (T := ⟨S64x50, .f32⟩) main_call2_v5) (TRef.of (T := ⟨S64x50, .f32⟩) main_call2_v6) addf,
    TRef.unary (TRef.of (T := ⟨S64x50, .f32⟩) main_call2_v3) (TRef.of (T := ⟨S64x50, .f32⟩) main_call2_v7) Host.absf,
    TRef.unary (TRef.of (T := ⟨S64x50, .f32⟩) main_call2_v7) (TRef.of (T := ⟨S64x50, .f32⟩) main_call2_v8) Host.negf,
    TRef.unary (TRef.of (T := ⟨S64x50, .f32⟩) main_call2_v8) (TRef.of (T := ⟨S64x50, .f32⟩) main_call2_v9) Host.exp,
    TRef.unary (TRef.of (T := ⟨S64x50, .f32⟩) main_call2_v9) (TRef.of (T := ⟨S64x50, .f32⟩) main_call2_v10) Host.log1p,
    TRef.binary (TRef.of (T := ⟨S64x50, .f32⟩) main_call2_v1) (TRef.of (T := ⟨S64x50, .f32⟩) main_call2_v10) (TRef.of (T := ⟨S64x50, .f32⟩) main_call2_v11) addf,
    TRef.ternary (TRef.of (T := ⟨S64x50, .i1⟩) main_call2_v4) (TRef.of (T := ⟨S64x50, .f32⟩) main_call2_v6) (TRef.of (T := ⟨S64x50, .f32⟩) main_call2_v11) (TRef.of (T := ⟨S64x50, .f32⟩) main_v49) select,
    nullary main_cst_12 (constant S_ .f32 0x00000000#32),
    binary main_v49 main_cst_12 main_v50 ((fun x v => Host.reduceAdd x v reducesTo_S64x50_S_d0_1 h_S_) : (⟨S64x50, .f32⟩ : BufTy).Contents (Elt F) → (⟨S_, .f32⟩ : BufTy).Contents (Elt F) → (⟨S_, .f32⟩ : BufTy).Contents (Elt F)),
    unary main_v20 main_v51 (sitofp .f32 : (⟨S64x50, .i32⟩ : BufTy).Contents (Elt F) → (⟨S64x50, .f32⟩ : BufTy).Contents (Elt F)),
    binary main_v6 main_v51 main_v52 (subf : (⟨S64x50, .f32⟩ : BufTy).Contents (Elt F) → (⟨S64x50, .f32⟩ : BufTy).Contents (Elt F) → (⟨S64x50, .f32⟩ : BufTy).Contents (Elt F)),
    unary main_v22 main_v53 (sitofp .f32 : (⟨S64x50, .i32⟩ : BufTy).Contents (Elt F) → (⟨S64x50, .f32⟩ : BufTy).Contents (Elt F)),
    binary main_v10 main_v53 main_v54 (subf : (⟨S64x50, .f32⟩ : BufTy).Contents (Elt F) → (⟨S64x50, .f32⟩ : BufTy).Contents (Elt F) → (⟨S64x50, .f32⟩ : BufTy).Contents (Elt F)),
    unary main_v45 main_v55 ((extractStridedSlice S64x50x1 ![0, 0, 1] · slices_S64x50x85_S64x50x1_0_0_1) : (⟨S64x50x85, .f32⟩ : BufTy).Contents (Elt F) → (⟨S64x50x1, .f32⟩ : BufTy).Contents (Elt F)),
    reshape main_v55 main_v56 rfl shapeCasts_S64x50x1_S64x50,
    unary main_v56 main_v57 (Host.negf : (⟨S64x50, .f32⟩ : BufTy).Contents (Elt F) → (⟨S64x50, .f32⟩ : BufTy).Contents (Elt F)),
    unary main_v57 main_v58 (Host.exp : (⟨S64x50, .f32⟩ : BufTy).Contents (Elt F) → (⟨S64x50, .f32⟩ : BufTy).Contents (Elt F)),
    nullary main_cst_13 (constant S_ .f32 0x3F800000#32),
    unary main_cst_13 main_v59 (broadcastInDim S64x50 ![] bcast_S_S64x50 : (⟨S_, .f32⟩ : BufTy).Contents (Elt F) → (⟨S64x50, .f32⟩ : BufTy).Contents (Elt F)),
    binary main_v59 main_v58 main_v60 (addf : (⟨S64x50, .f32⟩ : BufTy).Contents (Elt F) → (⟨S64x50, .f32⟩ : BufTy).Contents (Elt F) → (⟨S64x50, .f32⟩ : BufTy).Contents (Elt F)),
    nullary main_cst_14 (constant S_ .f32 0x3F800000#32),
    unary main_cst_14 main_v61 (broadcastInDim S64x50 ![] bcast_S_S64x50 : (⟨S_, .f32⟩ : BufTy).Contents (Elt F) → (⟨S64x50, .f32⟩ : BufTy).Contents (Elt F)),
    binary main_v61 main_v60 main_v62 (Host.divf : (⟨S64x50, .f32⟩ : BufTy).Contents (Elt F) → (⟨S64x50, .f32⟩ : BufTy).Contents (Elt F) → (⟨S64x50, .f32⟩ : BufTy).Contents (Elt F)),
    binary main_v62 main_v52 main_v63 (subf : (⟨S64x50, .f32⟩ : BufTy).Contents (Elt F) → (⟨S64x50, .f32⟩ : BufTy).Contents (Elt F) → (⟨S64x50, .f32⟩ : BufTy).Contents (Elt F)),
    binary main_v63 main_v63 main_v64 (mulf : (⟨S64x50, .f32⟩ : BufTy).Contents (Elt F) → (⟨S64x50, .f32⟩ : BufTy).Contents (Elt F) → (⟨S64x50, .f32⟩ : BufTy).Contents (Elt F)),
    nullary main_cst_15 (constant S_ .f32 0x00000000#32),
    binary main_v64 main_cst_15 main_v65 ((fun x v => Host.reduceAdd x v reducesTo_S64x50_S_d0_1 h_S_) : (⟨S64x50, .f32⟩ : BufTy).Contents (Elt F) → (⟨S_, .f32⟩ : BufTy).Contents (Elt F) → (⟨S_, .f32⟩ : BufTy).Contents (Elt F)),
    unary main_v45 main_v66 ((extractStridedSlice S64x50x1 ![0, 0, 2] · slices_S64x50x85_S64x50x1_0_0_2) : (⟨S64x50x85, .f32⟩ : BufTy).Contents (Elt F) → (⟨S64x50x1, .f32⟩ : BufTy).Contents (Elt F)),
    reshape main_v66 main_v67 rfl shapeCasts_S64x50x1_S64x50,
    unary main_v67 main_v68 (Host.negf : (⟨S64x50, .f32⟩ : BufTy).Contents (Elt F) → (⟨S64x50, .f32⟩ : BufTy).Contents (Elt F)),
    unary main_v68 main_v69 (Host.exp : (⟨S64x50, .f32⟩ : BufTy).Contents (Elt F) → (⟨S64x50, .f32⟩ : BufTy).Contents (Elt F)),
    nullary main_cst_16 (constant S_ .f32 0x3F800000#32),
    unary main_cst_16 main_v70 (broadcastInDim S64x50 ![] bcast_S_S64x50 : (⟨S_, .f32⟩ : BufTy).Contents (Elt F) → (⟨S64x50, .f32⟩ : BufTy).Contents (Elt F)),
    binary main_v70 main_v69 main_v71 (addf : (⟨S64x50, .f32⟩ : BufTy).Contents (Elt F) → (⟨S64x50, .f32⟩ : BufTy).Contents (Elt F) → (⟨S64x50, .f32⟩ : BufTy).Contents (Elt F)),
    nullary main_cst_17 (constant S_ .f32 0x3F800000#32),
    unary main_cst_17 main_v72 (broadcastInDim S64x50 ![] bcast_S_S64x50 : (⟨S_, .f32⟩ : BufTy).Contents (Elt F) → (⟨S64x50, .f32⟩ : BufTy).Contents (Elt F)),
    binary main_v72 main_v71 main_v73 (Host.divf : (⟨S64x50, .f32⟩ : BufTy).Contents (Elt F) → (⟨S64x50, .f32⟩ : BufTy).Contents (Elt F) → (⟨S64x50, .f32⟩ : BufTy).Contents (Elt F)),
    binary main_v73 main_v54 main_v74 (subf : (⟨S64x50, .f32⟩ : BufTy).Contents (Elt F) → (⟨S64x50, .f32⟩ : BufTy).Contents (Elt F) → (⟨S64x50, .f32⟩ : BufTy).Contents (Elt F)),
    binary main_v74 main_v74 main_v75 (mulf : (⟨S64x50, .f32⟩ : BufTy).Contents (Elt F) → (⟨S64x50, .f32⟩ : BufTy).Contents (Elt F) → (⟨S64x50, .f32⟩ : BufTy).Contents (Elt F)),
    nullary main_cst_18 (constant S_ .f32 0x00000000#32),
    binary main_v75 main_cst_18 main_v76 ((fun x v => Host.reduceAdd x v reducesTo_S64x50_S_d0_1 h_S_) : (⟨S64x50, .f32⟩ : BufTy).Contents (Elt F) → (⟨S_, .f32⟩ : BufTy).Contents (Elt F) → (⟨S_, .f32⟩ : BufTy).Contents (Elt F)),
    binary main_v65 main_v76 main_v77 (addf : (⟨S_, .f32⟩ : BufTy).Contents (Elt F) → (⟨S_, .f32⟩ : BufTy).Contents (Elt F) → (⟨S_, .f32⟩ : BufTy).Contents (Elt F)),
    unary main_v45 main_v78 ((extractStridedSlice S64x50x1 ![0, 0, 3] · slices_S64x50x85_S64x50x1_0_0_3) : (⟨S64x50x85, .f32⟩ : BufTy).Contents (Elt F) → (⟨S64x50x1, .f32⟩ : BufTy).Contents (Elt F)),
    reshape main_v78 main_v79 rfl shapeCasts_S64x50x1_S64x50,
    binary main_v79 main_v14 main_v80 (subf : (⟨S64x50, .f32⟩ : BufTy).Contents (Elt F) → (⟨S64x50, .f32⟩ : BufTy).Contents (Elt F) → (⟨S64x50, .f32⟩ : BufTy).Contents (Elt F)),
    binary main_v80 main_v80 main_v81 (mulf : (⟨S64x50, .f32⟩ : BufTy).Contents (Elt F) → (⟨S64x50, .f32⟩ : BufTy).Contents (Elt F) → (⟨S64x50, .f32⟩ : BufTy).Contents (Elt F)),
    nullary main_cst_19 (constant S_ .f32 0x00000000#32),
    binary main_v81 main_cst_19 main_v82 ((fun x v => Host.reduceAdd x v reducesTo_S64x50_S_d0_1 h_S_) : (⟨S64x50, .f32⟩ : BufTy).Contents (Elt F) → (⟨S_, .f32⟩ : BufTy).Contents (Elt F) → (⟨S_, .f32⟩ : BufTy).Contents (Elt F)),
    binary main_v77 main_v82 main_v83 (addf : (⟨S_, .f32⟩ : BufTy).Contents (Elt F) → (⟨S_, .f32⟩ : BufTy).Contents (Elt F) → (⟨S_, .f32⟩ : BufTy).Contents (Elt F)),
    unary main_v45 main_v84 ((extractStridedSlice S64x50x1 ![0, 0, 4] · slices_S64x50x85_S64x50x1_0_0_4) : (⟨S64x50x85, .f32⟩ : BufTy).Contents (Elt F) → (⟨S64x50x1, .f32⟩ : BufTy).Contents (Elt F)),
    reshape main_v84 main_v85 rfl shapeCasts_S64x50x1_S64x50,
    binary main_v85 main_v18 main_v86 (subf : (⟨S64x50, .f32⟩ : BufTy).Contents (Elt F) → (⟨S64x50, .f32⟩ : BufTy).Contents (Elt F) → (⟨S64x50, .f32⟩ : BufTy).Contents (Elt F)),
    binary main_v86 main_v86 main_v87 (mulf : (⟨S64x50, .f32⟩ : BufTy).Contents (Elt F) → (⟨S64x50, .f32⟩ : BufTy).Contents (Elt F) → (⟨S64x50, .f32⟩ : BufTy).Contents (Elt F)),
    nullary main_cst_20 (constant S_ .f32 0x00000000#32),
    binary main_v87 main_cst_20 main_v88 ((fun x v => Host.reduceAdd x v reducesTo_S64x50_S_d0_1 h_S_) : (⟨S64x50, .f32⟩ : BufTy).Contents (Elt F) → (⟨S_, .f32⟩ : BufTy).Contents (Elt F) → (⟨S_, .f32⟩ : BufTy).Contents (Elt F)),
    binary main_v83 main_v88 main_v89 (addf : (⟨S_, .f32⟩ : BufTy).Contents (Elt F) → (⟨S_, .f32⟩ : BufTy).Contents (Elt F) → (⟨S_, .f32⟩ : BufTy).Contents (Elt F)),
    nullary main_cst_21 (constant S_ .f32 0x40A00000#32),
    binary main_cst_21 main_v89 main_v90 (mulf : (⟨S_, .f32⟩ : BufTy).Contents (Elt F) → (⟨S_, .f32⟩ : BufTy).Contents (Elt F) → (⟨S_, .f32⟩ : BufTy).Contents (Elt F)),
    unary main_v45 main_v91 ((extractStridedSlice S64x50x80 ![0, 0, 5] · slices_S64x50x85_S64x50x80_0_0_5) : (⟨S64x50x85, .f32⟩ : BufTy).Contents (Elt F) → (⟨S64x50x80, .f32⟩ : BufTy).Contents (Elt F)),
    TRef.unary (TRef.of (T := ⟨S64x50, .i32⟩) main_v2) (TRef.of (T := ⟨S64x50x1, .i32⟩) main_call3_v0) (broadcastInDim S64x50x1 ![0, 1] bcast_S64x50_S64x50x1_0_1),
    TRef.nullary (TRef.of (T := ⟨S1x1x80, .i32⟩) main_call3_v1) (iotaInDim S1x1x80 32 2),
    TRef.unary (TRef.of (T := ⟨S64x50x1, .i32⟩) main_call3_v0) (TRef.of (T := ⟨S64x50x80, .i32⟩) main_call3_v2) (broadcastInDim S64x50x80 ![0, 1, 2] bcast_S64x50x1_S64x50x80_0_1_2),
    TRef.unary (TRef.of (T := ⟨S1x1x80, .i32⟩) main_call3_v1) (TRef.of (T := ⟨S64x50x80, .i32⟩) main_call3_v3) (broadcastInDim S64x50x80 ![0, 1, 2] bcast_S1x1x80_S64x50x80_0_1_2),
    TRef.binary (TRef.of (T := ⟨S64x50x80, .i32⟩) main_call3_v2) (TRef.of (T := ⟨S64x50x80, .i32⟩) main_call3_v3) (TRef.of (T := ⟨S64x50x80, .i1⟩) main_call3_v4) (cmpi .eq),
    TRef.unary (TRef.of (T := ⟨S64x50x80, .i1⟩) main_call3_v4) (TRef.of (T := ⟨S64x50x80, .f32⟩) main_v92) (uitofp .f32),
    TRef.nullary (TRef.of (T := ⟨S_, .f32⟩) main_call4_cst) (constant S_ .f32 0x00000000#32),
    TRef.unary (TRef.of (T := ⟨S_, .f32⟩) main_call4_cst) (TRef.of (T := ⟨S64x50x80, .f32⟩) main_call4_v0) (broadcastInDim S64x50x80 ![] bcast_S_S64x50x80),
    TRef.binary (TRef.of (T := ⟨S64x50x80, .f32⟩) main_v91) (TRef.of (T := ⟨S64x50x80, .f32⟩) main_call4_v0) (TRef.of (T := ⟨S64x50x80, .f32⟩) main_call4_v1) maximumf,
    TRef.unary (TRef.of (T := ⟨S_, .f32⟩) main_call4_cst) (TRef.of (T := ⟨S64x50x80, .f32⟩) main_call4_v2) (broadcastInDim S64x50x80 ![] bcast_S_S64x50x80),
    TRef.binary (TRef.of (T := ⟨S64x50x80, .f32⟩) main_v91) (TRef.of (T := ⟨S64x50x80, .f32⟩) main_call4_v2) (TRef.of (T := ⟨S64x50x80, .f32⟩) main_call4_v3) subf,
    TRef.binary (TRef.of (T := ⟨S64x50x80, .f32⟩) main_call4_v3) (TRef.of (T := ⟨S64x50x80, .f32⟩) main_call4_v3) (TRef.of (T := ⟨S64x50x80, .i1⟩) main_call4_v4) (cmpf .une),
    TRef.unary (TRef.of (T := ⟨S_, .f32⟩) main_call4_cst) (TRef.of (T := ⟨S64x50x80, .f32⟩) main_call4_v5) (broadcastInDim S64x50x80 ![] bcast_S_S64x50x80),
    TRef.binary (TRef.of (T := ⟨S64x50x80, .f32⟩) main_v91) (TRef.of (T := ⟨S64x50x80, .f32⟩) main_call4_v5) (TRef.of (T := ⟨S64x50x80, .f32⟩) main_call4_v6) addf,
    TRef.unary (TRef.of (T := ⟨S64x50x80, .f32⟩) main_call4_v3) (TRef.of (T := ⟨S64x50x80, .f32⟩) main_call4_v7) Host.absf,
    TRef.unary (TRef.of (T := ⟨S64x50x80, .f32⟩) main_call4_v7) (TRef.of (T := ⟨S64x50x80, .f32⟩) main_call4_v8) Host.negf,
    TRef.unary (TRef.of (T := ⟨S64x50x80, .f32⟩) main_call4_v8) (TRef.of (T := ⟨S64x50x80, .f32⟩) main_call4_v9) Host.exp,
    TRef.unary (TRef.of (T := ⟨S64x50x80, .f32⟩) main_call4_v9) (TRef.of (T := ⟨S64x50x80, .f32⟩) main_call4_v10) Host.log1p,
    TRef.binary (TRef.of (T := ⟨S64x50x80, .f32⟩) main_call4_v1) (TRef.of (T := ⟨S64x50x80, .f32⟩) main_call4_v10) (TRef.of (T := ⟨S64x50x80, .f32⟩) main_call4_v11) addf,
    TRef.ternary (TRef.of (T := ⟨S64x50x80, .i1⟩) main_call4_v4) (TRef.of (T := ⟨S64x50x80, .f32⟩) main_call4_v6) (TRef.of (T := ⟨S64x50x80, .f32⟩) main_call4_v11) (TRef.of (T := ⟨S64x50x80, .f32⟩) main_v93) select,
    binary main_v91 main_v92 main_v94 (mulf : (⟨S64x50x80, .f32⟩ : BufTy).Contents (Elt F) → (⟨S64x50x80, .f32⟩ : BufTy).Contents (Elt F) → (⟨S64x50x80, .f32⟩ : BufTy).Contents (Elt F)),
    binary main_v93 main_v94 main_v95 (subf : (⟨S64x50x80, .f32⟩ : BufTy).Contents (Elt F) → (⟨S64x50x80, .f32⟩ : BufTy).Contents (Elt F) → (⟨S64x50x80, .f32⟩ : BufTy).Contents (Elt F)),
    nullary main_cst_22 (constant S_ .f32 0x00000000#32),
    binary main_v95 main_cst_22 main_v96 ((fun x v => Host.reduceAdd x v reducesTo_S64x50x80_S_d0_1_2 h_S_) : (⟨S64x50x80, .f32⟩ : BufTy).Contents (Elt F) → (⟨S_, .f32⟩ : BufTy).Contents (Elt F) → (⟨S_, .f32⟩ : BufTy).Contents (Elt F)),
    unary main_v6 main_v97 (fptosi 32 : (⟨S64x50, .f32⟩ : BufTy).Contents (Elt F) → (⟨S64x50, .i32⟩ : BufTy).Contents (Elt F)),
    unary main_v10 main_v98 (fptosi 32 : (⟨S64x50, .f32⟩ : BufTy).Contents (Elt F) → (⟨S64x50, .i32⟩ : BufTy).Contents (Elt F)),
    nullary main_c_23 (constantI S_ 1 0#1),
    unary main_c_23 main_v99 (broadcastInDim S64x80x80 ![] bcast_S_S64x80x80 : (⟨S_, .i1⟩ : BufTy).Contents (Elt F) → (⟨S64x80x80, .i1⟩ : BufTy).Contents (Elt F)),
    nullary main_c_24 (constantI S_ 32 0#32),
    unary main_c_24 main_v100 (broadcastInDim S64x50 ![] bcast_S_S64x50 : (⟨S_, .i32⟩ : BufTy).Contents (Elt F) → (⟨S64x50, .i32⟩ : BufTy).Contents (Elt F)),
    binary main_v25 main_v100 main_v101 (cmpi .slt : (⟨S64x50, .i32⟩ : BufTy).Contents (Elt F) → (⟨S64x50, .i32⟩ : BufTy).Contents (Elt F) → (⟨S64x50, .i1⟩ : BufTy).Contents (Elt F)),
    nullary main_c_25 (constantI S_ 32 64#32),
    unary main_c_25 main_v102 (broadcastInDim S64x50 ![] bcast_S_S64x50 : (⟨S_, .i32⟩ : BufTy).Contents (Elt F) → (⟨S64x50, .i32⟩ : BufTy).Contents (Elt F)),
    binary main_v25 main_v102 main_v103 (addi : (⟨S64x50, .i32⟩ : BufTy).Contents (Elt F) → (⟨S64x50, .i32⟩ : BufTy).Contents (Elt F) → (⟨S64x50, .i32⟩ : BufTy).Contents (Elt F)),
    ternary main_v101 main_v103 main_v25 main_v104 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    nullary main_c_26 (constantI S_ 32 0#32),
    unary main_c_26 main_v105 (broadcastInDim S64x50 ![] bcast_S_S64x50 : (⟨S_, .i32⟩ : BufTy).Contents (Elt F) → (⟨S64x50, .i32⟩ : BufTy).Contents (Elt F)),
    binary main_v98 main_v105 main_v106 (cmpi .slt : (⟨S64x50, .i32⟩ : BufTy).Contents (Elt F) → (⟨S64x50, .i32⟩ : BufTy).Contents (Elt F) → (⟨S64x50, .i1⟩ : BufTy).Contents (Elt F)),
    nullary main_c_27 (constantI S_ 32 80#32),
    unary main_c_27 main_v107 (broadcastInDim S64x50 ![] bcast_S_S64x50 : (⟨S_, .i32⟩ : BufTy).Contents (Elt F) → (⟨S64x50, .i32⟩ : BufTy).Contents (Elt F)),
    binary main_v98 main_v107 main_v108 (addi : (⟨S64x50, .i32⟩ : BufTy).Contents (Elt F) → (⟨S64x50, .i32⟩ : BufTy).Contents (Elt F) → (⟨S64x50, .i32⟩ : BufTy).Contents (Elt F)),
    ternary main_v106 main_v108 main_v98 main_v109 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    nullary main_c_28 (constantI S_ 32 0#32),
    unary main_c_28 main_v110 (broadcastInDim S64x50 ![] bcast_S_S64x50 : (⟨S_, .i32⟩ : BufTy).Contents (Elt F) → (⟨S64x50, .i32⟩ : BufTy).Contents (Elt F)),
    binary main_v97 main_v110 main_v111 (cmpi .slt : (⟨S64x50, .i32⟩ : BufTy).Contents (Elt F) → (⟨S64x50, .i32⟩ : BufTy).Contents (Elt F) → (⟨S64x50, .i1⟩ : BufTy).Contents (Elt F)),
    nullary main_c_29 (constantI S_ 32 80#32),
    unary main_c_29 main_v112 (broadcastInDim S64x50 ![] bcast_S_S64x50 : (⟨S_, .i32⟩ : BufTy).Contents (Elt F) → (⟨S64x50, .i32⟩ : BufTy).Contents (Elt F)),
    binary main_v97 main_v112 main_v113 (addi : (⟨S64x50, .i32⟩ : BufTy).Contents (Elt F) → (⟨S64x50, .i32⟩ : BufTy).Contents (Elt F) → (⟨S64x50, .i32⟩ : BufTy).Contents (Elt F)),
    ternary main_v111 main_v113 main_v97 main_v114 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    unary main_v104 main_v115 (broadcastInDim S64x50x1 ![0, 1] bcast_S64x50_S64x50x1_0_1 : (⟨S64x50, .i32⟩ : BufTy).Contents (Elt F) → (⟨S64x50x1, .i32⟩ : BufTy).Contents (Elt F)),
    unary main_v109 main_v116 (broadcastInDim S64x50x1 ![0, 1] bcast_S64x50_S64x50x1_0_1 : (⟨S64x50, .i32⟩ : BufTy).Contents (Elt F) → (⟨S64x50x1, .i32⟩ : BufTy).Contents (Elt F)),
    unary main_v114 main_v117 (broadcastInDim S64x50x1 ![0, 1] bcast_S64x50_S64x50x1_0_1 : (⟨S64x50, .i32⟩ : BufTy).Contents (Elt F) → (⟨S64x50x1, .i32⟩ : BufTy).Contents (Elt F)),
    nary ![main_v115, main_v116, main_v117] main_v118 (fun u => concatenate S64x50x3 2 [⟨S64x50x1, u 0⟩, ⟨S64x50x1, u 1⟩, ⟨S64x50x1, u 2⟩] concatenates_S64x50x1_S64x50x1_S64x50x1_S64x50x3_d2),
    nullary main_c_30 (constantI S_ 1 1#1),
    unary main_c_30 main_v119 (broadcastInDim S64x50 ![] bcast_S_S64x50 : (⟨S_, .i1⟩ : BufTy).Contents (Elt F) → (⟨S64x50, .i1⟩ : BufTy).Contents (Elt F)),
    ternary main_v99 main_v118 main_v119 main_v120 ((fun x i u => Host.scatter scatter_S64x80x80_S64x50x3_S64x50_n_012_012_2 (fun _ b => b) x i u) : (⟨S64x80x80, .i1⟩ : BufTy).Contents (Elt F) → (⟨S64x50x3, .i32⟩ : BufTy).Contents (Elt F) → (⟨S64x50, .i1⟩ : BufTy).Contents (Elt F) → (⟨S64x80x80, .i1⟩ : BufTy).Contents (Elt F)) ]

/-- Its last 34 operations: the no-object term and the four terms' scaling and sum. -/
abbrev opsQ : List (HloOp τ sig (Elt F)) :=
  [ unary main_arg0 main_v121 ((extractStridedSlice S64x80x80x1 ![0, 0, 0, 0] · slices_S64x80x80x85_S64x80x80x1_0_0_0_0) : (⟨S64x80x80x85, .f32⟩ : BufTy).Contents (Elt F) → (⟨S64x80x80x1, .f32⟩ : BufTy).Contents (Elt F)),
    reshape main_v121 main_v122 rfl shapeCasts_S64x80x80x1_S64x80x80,
    TRef.nullary (TRef.of (T := ⟨S_, .f32⟩) main_call5_cst) (constant S_ .f32 0x00000000#32),
    TRef.unary (TRef.of (T := ⟨S_, .f32⟩) main_call5_cst) (TRef.of (T := ⟨S64x80x80, .f32⟩) main_call5_v0) (broadcastInDim S64x80x80 ![] bcast_S_S64x80x80),
    TRef.binary (TRef.of (T := ⟨S64x80x80, .f32⟩) main_v122) (TRef.of (T := ⟨S64x80x80, .f32⟩) main_call5_v0) (TRef.of (T := ⟨S64x80x80, .f32⟩) main_call5_v1) maximumf,
    TRef.unary (TRef.of (T := ⟨S_, .f32⟩) main_call5_cst) (TRef.of (T := ⟨S64x80x80, .f32⟩) main_call5_v2) (broadcastInDim S64x80x80 ![] bcast_S_S64x80x80),
    TRef.binary (TRef.of (T := ⟨S64x80x80, .f32⟩) main_v122) (TRef.of (T := ⟨S64x80x80, .f32⟩) main_call5_v2) (TRef.of (T := ⟨S64x80x80, .f32⟩) main_call5_v3) subf,
    TRef.binary (TRef.of (T := ⟨S64x80x80, .f32⟩) main_call5_v3) (TRef.of (T := ⟨S64x80x80, .f32⟩) main_call5_v3) (TRef.of (T := ⟨S64x80x80, .i1⟩) main_call5_v4) (cmpf .une),
    TRef.unary (TRef.of (T := ⟨S_, .f32⟩) main_call5_cst) (TRef.of (T := ⟨S64x80x80, .f32⟩) main_call5_v5) (broadcastInDim S64x80x80 ![] bcast_S_S64x80x80),
    TRef.binary (TRef.of (T := ⟨S64x80x80, .f32⟩) main_v122) (TRef.of (T := ⟨S64x80x80, .f32⟩) main_call5_v5) (TRef.of (T := ⟨S64x80x80, .f32⟩) main_call5_v6) addf,
    TRef.unary (TRef.of (T := ⟨S64x80x80, .f32⟩) main_call5_v3) (TRef.of (T := ⟨S64x80x80, .f32⟩) main_call5_v7) Host.absf,
    TRef.unary (TRef.of (T := ⟨S64x80x80, .f32⟩) main_call5_v7) (TRef.of (T := ⟨S64x80x80, .f32⟩) main_call5_v8) Host.negf,
    TRef.unary (TRef.of (T := ⟨S64x80x80, .f32⟩) main_call5_v8) (TRef.of (T := ⟨S64x80x80, .f32⟩) main_call5_v9) Host.exp,
    TRef.unary (TRef.of (T := ⟨S64x80x80, .f32⟩) main_call5_v9) (TRef.of (T := ⟨S64x80x80, .f32⟩) main_call5_v10) Host.log1p,
    TRef.binary (TRef.of (T := ⟨S64x80x80, .f32⟩) main_call5_v1) (TRef.of (T := ⟨S64x80x80, .f32⟩) main_call5_v10) (TRef.of (T := ⟨S64x80x80, .f32⟩) main_call5_v11) addf,
    TRef.ternary (TRef.of (T := ⟨S64x80x80, .i1⟩) main_call5_v4) (TRef.of (T := ⟨S64x80x80, .f32⟩) main_call5_v6) (TRef.of (T := ⟨S64x80x80, .f32⟩) main_call5_v11) (TRef.of (T := ⟨S64x80x80, .f32⟩) main_v123) select,
    nullary main_cst_31 (constant S_ .f32 0x00000000#32),
    TRef.unary (TRef.of (T := ⟨S_, .f32⟩) main_cst_31) (TRef.of (T := ⟨S64x80x80, .f32⟩) main_call6_v0) (broadcastInDim S64x80x80 ![] bcast_S_S64x80x80),
    TRef.ternary (TRef.of (T := ⟨S64x80x80, .i1⟩) main_v120) (TRef.of (T := ⟨S64x80x80, .f32⟩) main_call6_v0) (TRef.of (T := ⟨S64x80x80, .f32⟩) main_v123) (TRef.of (T := ⟨S64x80x80, .f32⟩) main_v124) select,
    nullary main_cst_32 (constant S_ .f32 0x00000000#32),
    binary main_v124 main_cst_32 main_v125 ((fun x v => Host.reduceAdd x v reducesTo_S64x80x80_S_d0_1_2 h_S_) : (⟨S64x80x80, .f32⟩ : BufTy).Contents (Elt F) → (⟨S_, .f32⟩ : BufTy).Contents (Elt F) → (⟨S_, .f32⟩ : BufTy).Contents (Elt F)),
    nullary main_cst_33 (constant S_ .f32 0x3F000000#32),
    binary main_cst_33 main_v125 main_v126 (mulf : (⟨S_, .f32⟩ : BufTy).Contents (Elt F) → (⟨S_, .f32⟩ : BufTy).Contents (Elt F) → (⟨S_, .f32⟩ : BufTy).Contents (Elt F)),
    nullary main_cst_34 (constant S_ .f32 0x42800000#32),
    binary main_v50 main_cst_34 main_v127 (Host.divf : (⟨S_, .f32⟩ : BufTy).Contents (Elt F) → (⟨S_, .f32⟩ : BufTy).Contents (Elt F) → (⟨S_, .f32⟩ : BufTy).Contents (Elt F)),
    nullary main_cst_35 (constant S_ .f32 0x42800000#32),
    binary main_v126 main_cst_35 main_v128 (Host.divf : (⟨S_, .f32⟩ : BufTy).Contents (Elt F) → (⟨S_, .f32⟩ : BufTy).Contents (Elt F) → (⟨S_, .f32⟩ : BufTy).Contents (Elt F)),
    nullary main_cst_36 (constant S_ .f32 0x42800000#32),
    binary main_v90 main_cst_36 main_v129 (Host.divf : (⟨S_, .f32⟩ : BufTy).Contents (Elt F) → (⟨S_, .f32⟩ : BufTy).Contents (Elt F) → (⟨S_, .f32⟩ : BufTy).Contents (Elt F)),
    nullary main_cst_37 (constant S_ .f32 0x42800000#32),
    binary main_v96 main_cst_37 main_v130 (Host.divf : (⟨S_, .f32⟩ : BufTy).Contents (Elt F) → (⟨S_, .f32⟩ : BufTy).Contents (Elt F) → (⟨S_, .f32⟩ : BufTy).Contents (Elt F)),
    binary main_v127 main_v128 main_v131 (addf : (⟨S_, .f32⟩ : BufTy).Contents (Elt F) → (⟨S_, .f32⟩ : BufTy).Contents (Elt F) → (⟨S_, .f32⟩ : BufTy).Contents (Elt F)),
    binary main_v131 main_v129 main_v132 (addf : (⟨S_, .f32⟩ : BufTy).Contents (Elt F) → (⟨S_, .f32⟩ : BufTy).Contents (Elt F) → (⟨S_, .f32⟩ : BufTy).Contents (Elt F)),
    binary main_v132 main_v130 main_v133 (addf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = opsP ++ opsQ := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub .., unary_bufs_sub .., binary_bufs_sub .., unary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., binary_bufs_sub .., binary_bufs_sub .., unary_bufs_sub .., reshape_bufs_sub .., binary_bufs_sub .., binary_bufs_sub .., nullary_bufs_sub .., binary_bufs_sub .., binary_bufs_sub .., unary_bufs_sub .., reshape_bufs_sub .., binary_bufs_sub .., binary_bufs_sub .., nullary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., nullary_bufs_sub .., unary_bufs_sub .., ternary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., ternary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

/-- Operations applied one stretch after another are the two stretches' concatenation applied. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 8192 in
/-- Every weakly fair execution of the reference terminates, each buffer at what the last 34 operations leave of what the
    first 195 leave of the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsQ (after opsP (launchContents m c)) (Proc.devRef .tc b) :=
  (θ_run defs _ _).mono (fun _ h c b => (h c b).trans (by rw [ops_eq, after_append]))
    (run_seq scopedRefs_eq scopedSems_eq defs main (fun _ => ops) main_eq (fun _ => ops_sub) m ρ)

end Cert.ReferenceIdeal.Line

end
-- ==== Proof.NoobjCell.lean ====
/-
  The one quantity each grid cell contributes to the no-object term, as both programs compute it on the extended reals:
  nothing where the cell is occupied, and otherwise softplus of the cell's objectness logit p, written
  max(p, 0) + log(1 + exp(-|p|)) with |p| = max(p, -p). The kernel tests occupancy as "the mask, 0 or 1 as a float,
  exceeds one half"; the reference selects on the occupancy bit itself. Both guard the softplus with a test "z ≠ z" that
  no extended real passes, so the guarded branch is never taken.
-/
import Idealize.ShloMosaic.PureOps.Ideal
import Idealize.ShloMosaic.PureOps.Ideal.Laws

noncomputable section

namespace Cert.NoobjCell

open Idealize.ShloMosaic

/-- The threshold the kernel compares the mask with is one half. -/
theorem ofBits_half : Ideal.ofBits .f32 0x3F000000#32 = ((1 / 2 : ℝ) : EReal) := by
  simp [Ideal.ofBits, Ideal.ieee, -EReal.coe_mul]; norm_num

/-- The softplus of a logit, on the extended reals. -/
def softplus (p : EReal) : EReal := max p 0 + Ideal.log1p (Ideal.exp (-(max (p - 0) (-(p - 0)))))

/-- What a cell contributes: nothing if occupied, the softplus of its logit otherwise. -/
def cell (occ : BitVec 1) (p : EReal) : EReal := if occ = 1 then 0 else softplus p

/-- No extended real differs from itself: the guard both programs put around the softplus never fires. -/
theorem guard_dead (pr : CmpFPredicate) (hp : pr = .one ∨ pr = .une) (z : EReal) : Ideal.cmp pr z z = 0#1 := by
  rcases hp with rfl | rfl <;> simp [Ideal.cmp]

/-- An occupancy bit read as a float exceeds one half exactly when the bit is set. -/
theorem mask_test (occ : BitVec 1) :
    Ideal.cmp .ogt (((occ.toNat : ℝ) : EReal)) (Ideal.ofBits .f32 0x3F000000#32) = occ := by
  rw [ofBits_half]
  have h : occ = 0#1 ∨ occ = 1#1 := by
    have := occ.isLt
    rcases Nat.lt_or_ge occ.toNat 1 with h | h
    · left; apply BitVec.eq_of_toNat_eq; simp; omega
    · right; apply BitVec.eq_of_toNat_eq; simp; omega
  rcases h with rfl | rfl
  · have hlt : ¬ (((1 / 2 : ℝ) : EReal) < (((0#1 : BitVec 1).toNat : ℝ) : EReal)) := by
      rw [EReal.coe_lt_coe_iff]; norm_num
    show BitVec.ofBool (decide _) = _
    rw [decide_eq_false hlt]; rfl
  · have hlt : ((1 / 2 : ℝ) : EReal) < (((1#1 : BitVec 1).toNat : ℝ) : EReal) := by
      rw [EReal.coe_lt_coe_iff]; norm_num
    show BitVec.ofBool (decide _) = _
    rw [decide_eq_true hlt]; rfl

/-! ## The cell term as each program spells it -/

/-- One cell's term as the kernel's body spells it, from the cell's mask value and logit. -/
def cellK (mk p : EReal) : EReal :=
  Scalar.select (Ideal.cmp .ogt mk (Ideal.ofBits .f32 0x3F000000#32)) (Ideal.ofBits .f32 0x00000000#32)
    (Scalar.select (Ideal.cmp .one (p - Ideal.ofBits .f32 0x00000000#32) (p - Ideal.ofBits .f32 0x00000000#32))
      (p + Ideal.ofBits .f32 0x00000000#32)
      (max p (Ideal.ofBits .f32 0x00000000#32)
        + Ideal.log1p (Ideal.exp (Ideal.ofBits .f32 0x00000000#32 - max (p - Ideal.ofBits .f32 0x00000000#32) (-(p - Ideal.ofBits .f32 0x00000000#32))))))

/-- One cell's term as the reference spells it, from the cell's occupancy bit and logit. -/
def cellR (occ : BitVec 1) (p : EReal) : EReal :=
  Scalar.select occ (Ideal.ofBits .f32 0x00000000#32)
    (Scalar.select (Ideal.cmp .une (p - Ideal.ofBits .f32 0x00000000#32) (p - Ideal.ofBits .f32 0x00000000#32))
      (p + Ideal.ofBits .f32 0x00000000#32)
      (max p (Ideal.ofBits .f32 0x00000000#32)
        + Ideal.log1p (Ideal.exp (-(max (p - Ideal.ofBits .f32 0x00000000#32) (-(p - Ideal.ofBits .f32 0x00000000#32)))))))

/-- The kernel's spelling, on the mask made from the occupancy bit, is the cell's contribution. -/
theorem cellK_eq (occ : BitVec 1) (p : EReal) : cellK (((occ.toNat : ℝ) : EReal)) p = cell occ p := by
  unfold cellK cell softplus
  rw [mask_test, guard_dead .one (.inl rfl), Ideal.ofBits_zero_f32]
  unfold Scalar.select
  rw [if_neg (by decide : ¬ (0#1 : BitVec 1) = 1), zero_sub]

/-- So is the reference's spelling. -/
theorem cellR_eq (occ : BitVec 1) (p : EReal) : cellR occ p = cell occ p := by
  unfold cellR cell softplus
  rw [guard_dead .une (.inr rfl), Ideal.ofBits_zero_f32]
  unfold Scalar.select
  rw [if_neg (by decide : ¬ (0#1 : BitVec 1) = 1)]

end Cert.NoobjCell

end
-- ==== Proof.RefTail.lean ====
/-
  The reference's last 34 operations, read over whatever its first 195 leave. They take channel 0 of the predictions,
  apply softplus (under a guard that never fires on the extended reals), replace it by zero where the occupancy array is
  set, add everything up from zero, halve, and divide the four sums by 64 and add them. Here: the summand array as those
  operations spell it, read at a cell as the reference's spelling of the cell term; the reduction as the sum of the cells'
  contributions; and what each result buffer holds in terms of the buffers the first 195 operations wrote.
-/
import proofs.«106109_j89283780149525_2_alg».proof.Proof.RefLine
import proofs.«106109_j89283780149525_2_alg».proof.Proof.NoobjCell
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Tail

open Idealize.ShloMosaic Idealize.ShloMosaic.TcCoe Idealize.ShloMosaic.ValueIdx Idealize.ShloMosaic.StableHlo Idealize.SL.Sem
open Cert.ReferenceIdeal Cert.ReferenceIdeal.Line Cert.NoobjCell
open Cert.ReferenceIdeal.Facts₀

/-- Zero at every cell, as the tail spells it. -/
def zeroArr : FVec Ideal S64x80x80 .f32 :=
  broadcastInDim S64x80x80 ![] Facts₀.bcast_S_S64x80x80 (constant (F := Ideal) S_ .f32 0x00000000#32)

/-- The objectness logit at every cell: channel 0 of the predictions. -/
def logits (x0 : FVec Ideal S64x80x80x85 .f32) : FVec Ideal S64x80x80 .f32 :=
  fun i => shapeCast S64x80x80 (extractStridedSlice S64x80x80x1 ![0, 0, 0, 0] x0 Facts₀.slices_S64x80x80x85_S64x80x80x1_0_0_0_0)
    Facts₀.shapeCasts_S64x80x80x1_S64x80x80 i

/-- The array the reference adds up: zero where occupied, softplus of the logit elsewhere. -/
def summand (occ : IVec S64x80x80 1) (x0 : FVec Ideal S64x80x80x85 .f32) : FVec Ideal S64x80x80 .f32 :=
  select occ zeroArr
    (select (cmpf .une (subf (logits x0) zeroArr) (subf (logits x0) zeroArr)) (addf (logits x0) zeroArr)
      (addf (maximumf (logits x0) zeroArr) (Host.log1p (Host.exp (Host.negf (Host.absf (subf (logits x0) zeroArr)))))))

theorem zeroArr_apply (j : S64x80x80.Idx) : zeroArr j = Ideal.ofBits .f32 0x00000000#32 :=
  broadcastInDim_apply _ Facts₀.bcast_S_S64x80x80 (constant (F := Ideal) S_ .f32 0x00000000#32) j (fun a => a.elim0) (fun a => a.elim0)

theorem logits_apply (x0 : FVec Ideal S64x80x80x85 .f32) (j : S64x80x80.Idx) :
    logits x0 j = x0 (ix4 (j 0) (j 1) (j 2) (0 : Fin 85)) := by
  have h0 : (j 0).val < 64 := (j 0).isLt
  have h1 : (j 1).val < 80 := (j 1).isLt
  have h2 : (j 2).val < 80 := (j 2).isLt
  unfold logits
  refine (shapeCast_apply _ Facts₀.shapeCasts_S64x80x80x1_S64x80x80 j (ix4 (j 0) (j 1) (j 2) (0 : Fin 1)) ?_).trans ?_
  · rw [Shape.rowMajor_val_four, Shape.rowMajor_val_three]
    show (((j 0).val * 80 + (j 1).val) * 80 + (j 2).val) * 1 + 0 = ((j 0).val * 80 + (j 1).val) * 80 + (j 2).val
    omega
  · exact extractStridedSlice_apply ![0, 0, 0, 0] x0 Facts₀.slices_S64x80x80x85_S64x80x80x1_0_0_0_0 (ix4 (j 0) (j 1) (j 2) (0 : Fin 1))
      (ix4 (j 0) (j 1) (j 2) (0 : Fin 85)) (fun a => match a with
        | ⟨0, _⟩ => by show (j 0).val = 0 + (j 0).val; omega
        | ⟨1, _⟩ => by show (j 1).val = 0 + (j 1).val; omega
        | ⟨2, _⟩ => by show (j 2).val = 0 + (j 2).val; omega
        | ⟨3, _⟩ => by show (0 : ℕ) = 0 + 0; omega)

/-- The summand at a cell is the reference's spelling of the cell term. -/
theorem summand_apply (occ : IVec S64x80x80 1) (x0 : FVec Ideal S64x80x80x85 .f32) (j : S64x80x80.Idx) :
    summand occ x0 j = cellR (occ j) (x0 (ix4 (j 0) (j 1) (j 2) (0 : Fin 85))) := by
  show Scalar.select (occ j) (zeroArr j)
      (Scalar.select (Ideal.cmp .une (logits x0 j - zeroArr j) (logits x0 j - zeroArr j)) (logits x0 j + zeroArr j)
        (max (logits x0 j) (zeroArr j)
          + Ideal.log1p (Ideal.exp (-(max (logits x0 j - zeroArr j) (-(logits x0 j - zeroArr j))))))) = _
  rw [zeroArr_apply, logits_apply]
  rfl

/-- The reference's reduction of the summand, from zero, is the sum of the cells' contributions. -/
theorem reduce_apply (occ : IVec S64x80x80 1) (x0 : FVec Ideal S64x80x80x85 .f32) (i : S_.Idx) :
    Host.reduceAdd (F := Ideal) (summand occ x0) (constant (F := Ideal) S_ .f32 0x00000000#32) Facts₀.reducesTo_S64x80x80_S_d0_1_2 Facts₀.h_S_ i
      = ∑ j : S64x80x80.Idx, cell (occ j) (x0 (ix4 (j 0) (j 1) (j 2) (0 : Fin 85))) := by
  simp only [Host.reduceAdd, Ideal.hostReduceAdd_def]
  refine (Ideal.hostReduceAdd_total Facts₀.reducesTo_S64x80x80_S_d0_1_2 (fun b => b.elim0) (summand occ x0) _ i).trans ?_
  show Ideal.ofBits .f32 0x00000000#32 + _ = _
  rw [Ideal.ofBits_zero_f32, zero_add]
  refine Finset.sum_congr rfl fun j _ => ?_
  rw [summand_apply, cellR_eq]

/-! ## What the last 34 operations leave, over any valuation -/

variable (M : Valuation τ sig (Elt Ideal))

abbrev c64 : FVec Ideal S_ .f32 := constant (F := Ideal) S_ .f32 0x42800000#32
abbrev half : FVec Ideal S_ .f32 := constant (F := Ideal) S_ .f32 0x3F000000#32

/-- The no-object sum the tail computes. -/
def noobjSum : FVec Ideal S_ .f32 :=
  Host.reduceAdd (F := Ideal) (summand (M (Proc.devRef .tc main_v120)) (M (Proc.devRef .tc main_arg0)))
    (constant (F := Ideal) S_ .f32 0x00000000#32) Facts₀.reducesTo_S64x80x80_S_d0_1_2 Facts₀.h_S_

def objOut : FVec Ideal S_ .f32 := Host.divf (F := Ideal) (M (Proc.devRef .tc main_v50)) c64
def noobjOut : FVec Ideal S_ .f32 := Host.divf (F := Ideal) (mulf (F := Ideal) half (noobjSum M)) c64
def coordOut : FVec Ideal S_ .f32 := Host.divf (F := Ideal) (M (Proc.devRef .tc main_v90)) c64
def classOut : FVec Ideal S_ .f32 := Host.divf (F := Ideal) (M (Proc.devRef .tc main_v96)) c64

theorem tail_obj : after (opsQ (F := Ideal)) M (Proc.devRef .tc main_v127) = objOut M := by
  unfold objOut; after_results
theorem tail_coord : after (opsQ (F := Ideal)) M (Proc.devRef .tc main_v129) = coordOut M := by
  unfold coordOut; after_results
theorem tail_class : after (opsQ (F := Ideal)) M (Proc.devRef .tc main_v130) = classOut M := by
  unfold classOut; after_results
set_option maxHeartbeats 8000000 in
theorem tail_noobj : after (opsQ (F := Ideal)) M (Proc.devRef .tc main_v128) = noobjOut M := by
  unfold noobjOut noobjSum
  simp only [opsQ]
  after_results_simp
  simp only [cast_eq]
  rfl
set_option maxHeartbeats 8000000 in
theorem tail_total : after (opsQ (F := Ideal)) M (Proc.devRef .tc main_v133)
    = addf (F := Ideal) (addf (F := Ideal) (addf (F := Ideal) (objOut M) (noobjOut M)) (coordOut M)) (classOut M) := by
  unfold objOut noobjOut coordOut classOut noobjSum
  simp only [opsQ]
  after_results_simp
  simp only [cast_eq]
  rfl

/-- Neither stretch writes an argument. -/
theorem tail_keeps (b : Ref sig .tc) (hb : b = main_arg0 ∨ b = main_arg1) :
    after (opsQ (F := Ideal)) M (Proc.devRef .tc b) = M (Proc.devRef .tc b) := by
  rcases hb with rfl | rfl <;>
  exact StableHlo.after_of_forall_not_mem _ _ (List.forall_iff_forall_mem.mp (by
    simp only [opsQ, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem head_keeps (b : Ref sig .tc) (hb : b = main_arg0 ∨ b = main_arg1) :
    after (opsP (F := Ideal)) M (Proc.devRef .tc b) = M (Proc.devRef .tc b) := by
  rcases hb with rfl | rfl <;>
  exact StableHlo.after_of_forall_not_mem _ _ (List.forall_iff_forall_mem.mp (by
    simp only [opsP, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.ReferenceIdeal.Tail

end
-- ==== Proof.KernelAround.lean ====
/-
  The program around its one region. The loss has four terms; three of them (object, coordinate, class) and the
  occupancy mask are computed by host operations BEFORE the region, the region adds up the masked softplus of channel 0
  over all 64·80·80 cells, sixteen grid points of four images each, and the host operations AFTER it scale the four sums
  and add them. Here: what the device's buffers hold when the region starts, that neither stretch of host operations
  writes an argument, each input window's block at a grid point, the two conditions the body branches on (first point,
  last point) decided over the grid, where the one-cell output window is idle, and what the region owns besides its
  windows (the one-cell accumulator and the generator register).
-/
import proofs.«106109_j89283780149525_2_alg».proof.Proof.Gen.Kernel.Launch
import proofs.«106109_j89283780149525_2_alg».proof.Proof.Gen.Kernel.Skeleton
import proofs.«106109_j89283780149525_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Noobj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before and after the region -/

/-- The host operations before the region, stretch by stretch. -/
abbrev before : List (List (HloOp τ sig (Elt F))) := [hostOps0, hostOps0_1, hostOps0_2, hostOps0_3, hostOps0_4, hostOps0_5, hostOps0_6, hostOps0_7, hostOps0_8, hostOps0_9]

/-- What core `c`'s buffers hold when the region starts: the launch contents after the host operations before it. -/
abbrev V0 (c : Dev nD) : Valuation τ sig (Elt F) := StableHlo.after (List.flatten before) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The whole program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1]
    ⟨hostOps0_sub, hostOps0_1_sub, hostOps0_2_sub, hostOps0_3_sub, hostOps0_4_sub, hostOps0_5_sub, hostOps0_6_sub, hostOps0_7_sub, hostOps0_8_sub, hostOps0_9_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh⟩ main_chain

/-- The operations after the region touch only buffers the region does not keep for itself. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array a window of the region reads or writes. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the predictions: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the targets. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes the targets, and no window holds them: they end as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The input windows' blocks -/

/-- Window `w`'s block at grid point `t`, read off its array as the region finds it: for the predictions the four
    images `4t … 4t+3`, all cells and channels; for the mask the same four images' cells. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The predictions' staging buffer holds the point's block when the body starts, for any proof data whose array is the
    region-entry contents and whose body leaves the block in place. -/
theorem beforePred_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the mask. -/
theorem beforeMask_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose final state has every window's array at what the proof data computes and every other buffer as the
    operations after the region leave it: the predictions (an input window's array, never written back) and the targets
    (no window's array, written by no host operation) end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c)⟩) h

/-! ## The two conditions the body branches on -/

/-- "This is the first grid point": the accumulator is reset there. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "This is the last grid point": the accumulator is copied to the output there. -/
abbrev isLast (i : grid0.Coords) : Prop := k0_cond2 i = 1#1
theorem isLast_iff : ∀ t : Fin cfg0.N, isLast (grid0.coords t) ↔ t.val = 15 :=
  (by decide +kernel : ∀ t : Fin grid0.N, isLast (grid0.coords t) ↔ t.val = 15)

/-! ## Where the windows are idle -/

theorem livePred : ∀ t : Fin cfg0.N, cfg0.idle 0 (grid0.coords t) = false := by decide +kernel
theorem liveMask : ∀ t : Fin cfg0.N, cfg0.idle 1 (grid0.coords t) = false := by decide +kernel
/-- Before the last point the body stores nothing into the output cell, -/
theorem idleOut : ∀ t : Fin cfg0.N, ¬isLast (grid0.coords t) → cfg0.idle 2 (grid0.coords t) = true := by decide +kernel
/-- and the cell is not written back there; -/
theorem noFlushOut : ∀ t : Fin cfg0.N, ¬isLast (grid0.coords t) → (cfg0.win 2).flush t = false := by decide +kernel
/-- at the last point it is stored. -/
theorem liveOut : ∀ t : Fin cfg0.N, isLast (grid0.coords t) → cfg0.idle 2 (grid0.coords t) = false := by decide +kernel

/-! ## The memrefs the body is called with -/

/-- One staging buffer of the output cell, through which its contents are stated. -/
abbrev outV : View sig .tc .vmem S1x1 .f32 := (Memref.whole cc0_stg2_0 : Memref sig .tc .vmem S1x1 .f32).view
abbrev predM (t : Fin cfg0.N) : Memref sig .tc .vmem S4x80x80x85 .f32 := win0_0.stage (cfg0.slots t 0)
abbrev predW (t : Fin cfg0.N) : (predM t).IsWhole := hstage0_0 ((cfg0.slots t 0).cast nbuf0_0)
abbrev maskM (t : Fin cfg0.N) : Memref sig .tc .vmem S4x80x80 .f32 := win0_1.stage (cfg0.slots t 1)
abbrev maskW (t : Fin cfg0.N) : (maskM t).IsWhole := hstage0_1 ((cfg0.slots t 1).cast nbuf0_1)
abbrev outM (t : Fin cfg0.N) : Memref sig .tc .vmem S1x1 .f32 := win0_2.stage (cfg0.slots t 2)
abbrev outW (t : Fin cfg0.N) : (outM t).IsWhole := hstage0_2 ((cfg0.slots t 2).cast nbuf0_2)
/-- The accumulator: one cell the kernel keeps between grid points. -/
abbrev accM : Memref sig .tc .vmem S1x1 .f32 := Memref.whole cc0_scratch0
abbrev accV : View sig .tc .vmem S1x1 .f32 := accM.view

/-- What the region owns besides its windows: the accumulator at some contents, and the generator register. -/
theorem rest_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Noobj

end
-- ==== Proof.KernelPointFirst.lean ====
/-
  The body at the FIRST grid point. It resets the one-cell accumulator to zero, then adds to it the sum, over the four
  images of the point's block and all their cells, of the masked softplus of channel 0; it stores nothing into the
  output cell. Stated as: from the two input blocks at any contents, the output cell at any contents (handed back
  untouched) and the accumulator at any contents, the body runs to the end without a fault and leaves the accumulator
  with a list of stored pieces that the run itself determines.
-/
import proofs.«106109_j89283780149525_2_alg».proof.Proof.KernelAround

set_option maxRecDepth 16384

noncomputable section

namespace Cert.Kernel.Noobj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator at the first point, with the proof that it runs. -/
noncomputable def runFirst (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : isFirst i) (hc1 : ¬isLast i)
    (x0 : Vec F S4x80x80x85 .f32) (x1 : Vec F S4x80x80 .f32) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__noobj_kernel i arg1 harg1 arg2 harg2 arg3 harg3 arg4 harg4) K } := by
  refine ⟨[], ?_, fun xi2 E K => ?run⟩
  case run =>
    simp only [cc0__noobj_kernel_eq_skeleton]; unfold cc0__noobj_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

end Cert.Kernel.Noobj

end
-- ==== Proof.KernelPointMiddle.lean ====
/-
  The body at a grid point that is neither first nor last. It adds to the accumulator, found at the contents the point
  before left, the sum over the point's four images and all their cells of the masked softplus of channel 0, and stores
  nothing into the output cell.
-/
import proofs.«106109_j89283780149525_2_alg».proof.Proof.KernelPointFirst

set_option maxRecDepth 16384

noncomputable section

namespace Cert.Kernel.Noobj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator at a middle point, with the proof that it runs. -/
noncomputable def runMiddle (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : ¬isLast i)
    (x0 : Vec F S4x80x80x85 .f32) (x1 : Vec F S4x80x80 .f32) (xs : Vec F S1x1 .f32) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__noobj_kernel i arg1 harg1 arg2 harg2 arg3 harg3 arg4 harg4) K } := by
  refine ⟨[], ?_, fun xi2 E K => ?run⟩
  case run =>
    simp only [cc0__noobj_kernel_eq_skeleton]; unfold cc0__noobj_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

end Cert.Kernel.Noobj

end
-- ==== Proof.KernelPointLast.lean ====
/-
  The body at the LAST grid point. It adds the point's masked softplus sum to the accumulator as at a middle point, and
  then copies the accumulator's cell into the output cell, which the region writes back to the result array.
-/
import proofs.«106109_j89283780149525_2_alg».proof.Proof.KernelPointMiddle

set_option maxRecDepth 16384

noncomputable section

namespace Cert.Kernel.Noobj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output cell and in the accumulator at the last point, with the proof that
    it runs. -/
noncomputable def runLast (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i)
    (x0 : Vec F S4x80x80x85 .f32) (x1 : Vec F S4x80x80 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc0__noobj_kernel i arg1 harg1 arg2 harg2 arg3 harg3 arg4 harg4) K } := by
  refine ⟨?_, ?_, fun E K => ?run⟩
  case run =>
    simp only [cc0__noobj_kernel_eq_skeleton]; unfold cc0__noobj_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.Kernel.Noobj

end
-- ==== Proof.KernelAccum.lean ====
/-
  The accumulation. After grid point t the one-cell accumulator holds zero plus the masked softplus sums of points
  0 … t, each added in turn; the output cell is stored only at the last point, with the accumulator's contents there.
  Here: what each of the three kinds of point (first, middle, last) leaves in the accumulator and in the output cell,
  read back from the pieces its stores left; the contents after every point, by recursion on the point; the region's
  invariant (the accumulator at what the point before left); that the body at every point keeps it; and from that the
  run of the whole program, with the result array at what the last point stored and every other buffer as the host
  operations leave it. In particular both arguments end unchanged.
-/
import proofs.«106109_j89283780149525_2_alg».proof.Proof.KernelPointLast

set_option maxRecDepth 16384

noncomputable section

namespace Cert.Kernel.Noobj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

theorem first_of {t : Fin cfg0.N} (h : t.val = 0) : isFirst (grid0.coords t) := (isFirst_iff t).mpr h
theorem notFirst_of {t : Fin cfg0.N} (h : t.val ≠ 0) : ¬isFirst (grid0.coords t) := fun h' => h ((isFirst_iff t).mp h')
theorem last_of {t : Fin cfg0.N} (h : t.val = 15) : isLast (grid0.coords t) := (isLast_iff t).mpr h
theorem notLast_of {t : Fin cfg0.N} (h : t.val ≠ 15) : ¬isLast (grid0.coords t) := fun h' => h ((isLast_iff t).mp h')

/-- At the first point nothing is stored into the output cell: a placeholder nothing consults. -/
def outFirst (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : isFirst i) (hc1 : ¬isLast i) (x0 : Vec F S4x80x80x85 .f32) (x1 : Vec F S4x80x80 .f32) : Vec F S1x1 .f32 :=
  outV.read (Elt F) (outV.writes (Elt F) outV.junk (runFirst c i arg1 harg1 arg2 harg2 arg3 harg3 arg4 harg4 hc0 hc1 x0 x1).1)
/-- The first point's stores cover the accumulator's one cell. -/
theorem accCoverFirst (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : isFirst i) (hc1 : ¬isLast i) (x0 : Vec F S4x80x80x85 .f32) (x1 : Vec F S4x80x80 .f32) (y : S1x1.Idx) :
    ∃ pc ∈ (runFirst c i arg1 harg1 arg2 harg2 arg3 harg3 arg4 harg4 hc0 hc1 x0 x1).2.1, y ∈ pc.1.set :=
  View.cover_of_tiledL (runFirst c i arg1 harg1 arg2 harg2 arg3 harg3 arg4 harg4 hc0 hc1 x0 x1).2.1 S1x1.size (by sl_kernel_rfl) y
/-- What the first point leaves in the accumulator. -/
def accFirst (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : isFirst i) (hc1 : ¬isLast i) (x0 : Vec F S4x80x80x85 .f32) (x1 : Vec F S4x80x80 .f32) : Vec F S1x1 .f32 :=
  accV.read (Elt F) (accV.writes (Elt F) accV.junk (runFirst c i arg1 harg1 arg2 harg2 arg3 harg3 arg4 harg4 hc0 hc1 x0 x1).2.1)

/-- At a middle point nothing is stored into the output cell either. -/
def outMiddle (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : ¬isLast i) (x0 : Vec F S4x80x80x85 .f32) (x1 : Vec F S4x80x80 .f32) (xs : Vec F S1x1 .f32) : Vec F S1x1 .f32 :=
  outV.read (Elt F) (outV.writes (Elt F) outV.junk (runMiddle c i arg1 harg1 arg2 harg2 arg3 harg3 arg4 harg4 hc0 hc1 x0 x1 xs).1)
theorem accCoverMiddle (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : ¬isLast i) (x0 : Vec F S4x80x80x85 .f32) (x1 : Vec F S4x80x80 .f32) (xs : Vec F S1x1 .f32) (y : S1x1.Idx) :
    ∃ pc ∈ (runMiddle c i arg1 harg1 arg2 harg2 arg3 harg3 arg4 harg4 hc0 hc1 x0 x1 xs).2.1, y ∈ pc.1.set :=
  View.cover_of_tiledL (runMiddle c i arg1 harg1 arg2 harg2 arg3 harg3 arg4 harg4 hc0 hc1 x0 x1 xs).2.1 S1x1.size (by sl_kernel_rfl) y
/-- What a middle point leaves in the accumulator, from what the point before left (`xs`). -/
def accMiddle (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : ¬isLast i) (x0 : Vec F S4x80x80x85 .f32) (x1 : Vec F S4x80x80 .f32) (xs : Vec F S1x1 .f32) : Vec F S1x1 .f32 :=
  accV.read (Elt F) (accV.writes (Elt F) accV.junk (runMiddle c i arg1 harg1 arg2 harg2 arg3 harg3 arg4 harg4 hc0 hc1 x0 x1 xs).2.1)

/-- The last point's one store covers the output cell. -/
theorem outCoverLast (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i) (x0 : Vec F S4x80x80x85 .f32) (x1 : Vec F S4x80x80 .f32) (xs : Vec F S1x1 .f32) (y : S1x1.Idx) :
    ∃ pc ∈ (runLast c i arg1 harg1 arg2 harg2 arg3 harg3 arg4 harg4 hc0 hc1 x0 x1 xs).1, y ∈ pc.1.set :=
  View.cover_of_tiledL (runLast c i arg1 harg1 arg2 harg2 arg3 harg3 arg4 harg4 hc0 hc1 x0 x1 xs).1 S1x1.size (by sl_kernel_rfl) y
/-- What the last point leaves in the output cell. -/
def outLast (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i) (x0 : Vec F S4x80x80x85 .f32) (x1 : Vec F S4x80x80 .f32) (xs : Vec F S1x1 .f32) : Vec F S1x1 .f32 :=
  outV.read (Elt F) (outV.writes (Elt F) outV.junk (runLast c i arg1 harg1 arg2 harg2 arg3 harg3 arg4 harg4 hc0 hc1 x0 x1 xs).1)
theorem accCoverLast (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i) (x0 : Vec F S4x80x80x85 .f32) (x1 : Vec F S4x80x80 .f32) (xs : Vec F S1x1 .f32) (y : S1x1.Idx) :
    ∃ pc ∈ (runLast c i arg1 harg1 arg2 harg2 arg3 harg3 arg4 harg4 hc0 hc1 x0 x1 xs).2.1, y ∈ pc.1.set :=
  View.cover_of_tiledL (runLast c i arg1 harg1 arg2 harg2 arg3 harg3 arg4 harg4 hc0 hc1 x0 x1 xs).2.1 S1x1.size (by sl_kernel_rfl) y
/-- What the last point leaves in the accumulator. -/
def accLast (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i) (x0 : Vec F S4x80x80x85 .f32) (x1 : Vec F S4x80x80 .f32) (xs : Vec F S1x1 .f32) : Vec F S1x1 .f32 :=
  accV.read (Elt F) (accV.writes (Elt F) accV.junk (runLast c i arg1 harg1 arg2 harg2 arg3 harg3 arg4 harg4 hc0 hc1 x0 x1 xs).2.1)

/-! ## The contents after each point -/

/-- What the output cell's staging buffer (first component) and the accumulator (second) hold after the body at
    position `n`: the kind of point `n` is, run on the point's blocks, the accumulator found at what position
    `n - 1` left. -/
def holdsAt (c : Dev nD) : (n : ℕ) → n < cfg0.N → Vec F S1x1 .f32 × Vec F S1x1 .f32
  | 0, hn => (outFirst c (grid0.coords ⟨0, hn⟩) (predM ⟨0, hn⟩) (predW ⟨0, hn⟩) (maskM ⟨0, hn⟩) (maskW ⟨0, hn⟩) (outM ⟨0, hn⟩) (outW ⟨0, hn⟩) accM (Memref.isWhole_whole _) (first_of rfl) (notLast_of (show (0 : ℕ) ≠ 15 by decide)) (iblk m c 0 ⟨0, hn⟩) (iblk m c 1 ⟨0, hn⟩),
              accFirst c (grid0.coords ⟨0, hn⟩) (predM ⟨0, hn⟩) (predW ⟨0, hn⟩) (maskM ⟨0, hn⟩) (maskW ⟨0, hn⟩) (outM ⟨0, hn⟩) (outW ⟨0, hn⟩) accM (Memref.isWhole_whole _) (first_of rfl) (notLast_of (show (0 : ℕ) ≠ 15 by decide)) (iblk m c 0 ⟨0, hn⟩) (iblk m c 1 ⟨0, hn⟩))
  | n + 1, hn =>
    if h1 : n + 1 = 15 then
      (outLast c (grid0.coords ⟨n + 1, hn⟩) (predM ⟨n + 1, hn⟩) (predW ⟨n + 1, hn⟩) (maskM ⟨n + 1, hn⟩) (maskW ⟨n + 1, hn⟩) (outM ⟨n + 1, hn⟩) (outW ⟨n + 1, hn⟩) accM (Memref.isWhole_whole _) (notFirst_of (Nat.succ_ne_zero n)) (last_of h1) (iblk m c 0 ⟨n + 1, hn⟩) (iblk m c 1 ⟨n + 1, hn⟩) (holdsAt c n (Nat.lt_of_succ_lt hn)).2,
       accLast c (grid0.coords ⟨n + 1, hn⟩) (predM ⟨n + 1, hn⟩) (predW ⟨n + 1, hn⟩) (maskM ⟨n + 1, hn⟩) (maskW ⟨n + 1, hn⟩) (outM ⟨n + 1, hn⟩) (outW ⟨n + 1, hn⟩) accM (Memref.isWhole_whole _) (notFirst_of (Nat.succ_ne_zero n)) (last_of h1) (iblk m c 0 ⟨n + 1, hn⟩) (iblk m c 1 ⟨n + 1, hn⟩) (holdsAt c n (Nat.lt_of_succ_lt hn)).2)
    else
      (outMiddle c (grid0.coords ⟨n + 1, hn⟩) (predM ⟨n + 1, hn⟩) (predW ⟨n + 1, hn⟩) (maskM ⟨n + 1, hn⟩) (maskW ⟨n + 1, hn⟩) (outM ⟨n + 1, hn⟩) (outW ⟨n + 1, hn⟩) accM (Memref.isWhole_whole _) (notFirst_of (Nat.succ_ne_zero n)) (notLast_of h1) (iblk m c 0 ⟨n + 1, hn⟩) (iblk m c 1 ⟨n + 1, hn⟩) (holdsAt c n (Nat.lt_of_succ_lt hn)).2,
       accMiddle c (grid0.coords ⟨n + 1, hn⟩) (predM ⟨n + 1, hn⟩) (predW ⟨n + 1, hn⟩) (maskM ⟨n + 1, hn⟩) (maskW ⟨n + 1, hn⟩) (outM ⟨n + 1, hn⟩) (outW ⟨n + 1, hn⟩) accM (Memref.isWhole_whole _) (notFirst_of (Nat.succ_ne_zero n)) (notLast_of h1) (iblk m c 0 ⟨n + 1, hn⟩) (iblk m c 1 ⟨n + 1, hn⟩) (holdsAt c n (Nat.lt_of_succ_lt hn)).2)

theorem holdsAt_first (c : Dev nD) (t : Fin cfg0.N) (h0 : t.val = 0) (h1 : t.val ≠ 15) :
    holdsAt m c t.val t.isLt = (outFirst c (grid0.coords t) (predM t) (predW t) (maskM t) (maskW t) (outM t) (outW t) accM (Memref.isWhole_whole _) (first_of h0) (notLast_of h1) (iblk m c 0 t) (iblk m c 1 t),
      accFirst c (grid0.coords t) (predM t) (predW t) (maskM t) (maskW t) (outM t) (outW t) accM (Memref.isWhole_whole _) (first_of h0) (notLast_of h1) (iblk m c 0 t) (iblk m c 1 t)) := by
  obtain ⟨n, hn⟩ := t
  cases n with
  | zero => exact rfl
  | succ n => exact absurd h0 (Nat.succ_ne_zero n)

theorem holdsAt_middle (c : Dev nD) (t : Fin cfg0.N) (h0 : t.val ≠ 0) (h1 : t.val ≠ 15) :
    holdsAt m c t.val t.isLt = (outMiddle c (grid0.coords t) (predM t) (predW t) (maskM t) (maskW t) (outM t) (outW t) accM (Memref.isWhole_whole _) (notFirst_of h0) (notLast_of h1) (iblk m c 0 t) (iblk m c 1 t) (holdsAt m c (t.val - 1) (Nat.lt_of_le_of_lt (Nat.sub_le _ _) t.isLt)).2,
      accMiddle c (grid0.coords t) (predM t) (predW t) (maskM t) (maskW t) (outM t) (outW t) accM (Memref.isWhole_whole _) (notFirst_of h0) (notLast_of h1) (iblk m c 0 t) (iblk m c 1 t) (holdsAt m c (t.val - 1) (Nat.lt_of_le_of_lt (Nat.sub_le _ _) t.isLt)).2) := by
  obtain ⟨n, hn⟩ := t
  cases n with
  | zero => exact absurd rfl h0
  | succ n => exact (dif_neg h1).trans rfl

theorem holdsAt_last (c : Dev nD) (t : Fin cfg0.N) (h0 : t.val ≠ 0) (h1 : t.val = 15) :
    holdsAt m c t.val t.isLt = (outLast c (grid0.coords t) (predM t) (predW t) (maskM t) (maskW t) (outM t) (outW t) accM (Memref.isWhole_whole _) (notFirst_of h0) (last_of h1) (iblk m c 0 t) (iblk m c 1 t) (holdsAt m c (t.val - 1) (Nat.lt_of_le_of_lt (Nat.sub_le _ _) t.isLt)).2,
      accLast c (grid0.coords t) (predM t) (predW t) (maskM t) (maskW t) (outM t) (outW t) accM (Memref.isWhole_whole _) (notFirst_of h0) (last_of h1) (iblk m c 0 t) (iblk m c 1 t) (holdsAt m c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before position `n`: at the start whatever the region is handed (the accumulator at anything); afterwards the
    accumulator at what position `n - 1` left, and the generator register at some state. -/
def inv (c : Dev nD) : (n : ℕ) → n ≤ cfg0.N → sProp 𝕄
  | 0, _ => Pipeline.ΦA spec0 c
  | n + 1, hn => iprop(iprop(owns (c : Thread nD τ) accM fullShare ((holdsAt m c n hn).2)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) accM fullShare ((holdsAt m c n hn).2)) ∗ (∃ r, prngReg c r)) := rfl
theorem inv_pos (c : Dev nD) (n : ℕ) (h : n ≤ cfg0.N) (hz : n ≠ 0) :
    inv m c n h = iprop(iprop(owns (c : Thread nD τ) accM fullShare ((holdsAt m c (n - 1) (by omega)).2)) ∗ (∃ r, prngReg c r)) := by
  cases n with
  | zero => exact absurd rfl hz
  | succ n => rfl

/-! ## The proof data -/

/-- The arrays as the region finds them; after the body at point `t` each input's buffer at its block and the output
    cell's at `holdsAt`; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (holdsAt m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; simp only [Fin.coe_castSucc]
theorem afterPred (c : Dev nD) (t : Fin cfg0.N) : (dats m 0 c).after 0 t = iblk m c 0 t := by dsimp only [dats]
theorem afterMask (c : Dev nD) (t : Fin cfg0.N) : (dats m 0 c).after 1 t = iblk m c 1 t := by dsimp only [dats]
theorem afterOut (c : Dev nD) (t : Fin cfg0.N) : (dats m 0 c).after 2 t = (holdsAt m c t.val t.isLt).1 := by dsimp only [dats]
theorem beforePred (c : Dev nD) (t : Fin cfg0.N) (d) : (dats m 0 c).before 0 t d = iblk m c 0 t :=
  beforePred_of m (dats m 0 c) (A_eq m c 0) (afterPred m c) t d
theorem beforeMask (c : Dev nD) (t : Fin cfg0.N) (d) : (dats m 0 c).before 1 t d = iblk m c 1 t :=
  beforeMask_of m (dats m 0 c) (A_eq m c 1) (afterMask m c) t d

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (predM t) fullShare ((dats m 0 c).before 0 t d))
    ∗ (∃ d, owns (c : Thread nD τ) (maskM t) fullShare ((dats m 0 c).before 1 t d))
    ∗ (∃ d, owns (c : Thread nD τ) (outM t) fullShare ((dats m 0 c).before 2 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input buffers hold their blocks; the point is first, middle or last; the invariant
    hands the body the accumulator at what the point before left (at anything at the first point) and takes it back at
    this point's contents, which the point's stores cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforePred, beforeMask]
  rw [show (dats m 0 c).owesAt () t.succ = (dats m 0 c).owesAt () t.castSucc from rfl]
  rw [show (dats m 0 c).Φ t.succ = inv m c (t.val + 1) t.isLt from rfl, inv_succ]
  have hN : t.val < 16 := lt_of_lt_of_eq t.isLt (show cfg0.N = 16 from N_0)
  rw [show (dats m 0 c).leavesExact 0 t = owns (c : Thread nD τ) (predM t) fullShare ((dats m 0 c).after 0 t) from by
    unfold Dat.leavesExact; rw [livePred t], afterPred]
  rw [show (dats m 0 c).leavesExact 1 t = owns (c : Thread nD τ) (maskM t) fullShare ((dats m 0 c).after 1 t) from by
    unfold Dat.leavesExact; rw [liveMask t], afterMask]
  by_cases h0 : t.val = 0
  · have h1 : t.val ≠ 15 := by omega
    rw [Dat.leavesExact_idle (dats m 0 c) 2 t (idleOut t (notLast_of h1)) (noFlushOut t (notLast_of h1))]
    rw [holdsAt_first m c t h0 h1]
    unfold accFirst; (try dsimp only)
    rw [inv_castSucc m c t, inv_zero m c _ _ h0, rest_eq]
    iintro ⟨⟨HS, Hg⟩, Ho, ⟨%d0, H0⟩, ⟨%d1, H1⟩, ⟨%d2, H2⟩⟩
    iapply ((runFirst c (grid0.coords t) _ _ _ _ _ _ _ _ (first_of h0) (notLast_of h1) (iblk m c 0 t) (iblk m c 1 t)).2.2 _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact View.read_writes_of_cover _ _ _ _ _ (accCoverFirst c _ _ _ _ _ _ _ _ _ _ _ _ _)
      iexact Hg
    isplitl [Ho]; · iexact Ho
    isplitl [H0]; · iexact H0
    isplitl [H1]; · iexact H1
    iexists _; iexact H2
  · by_cases h1 : t.val = 15
    · rw [show (dats m 0 c).leavesExact 2 t = owns (c : Thread nD τ) (outM t) fullShare ((dats m 0 c).after 2 t) from by
        unfold Dat.leavesExact; rw [liveOut t (last_of h1)], afterOut]
      rw [holdsAt_last m c t h0 h1]
      unfold outLast accLast; (try dsimp only)
      rw [inv_castSucc m c t, inv_pos m c _ _ h0]
      iintro ⟨⟨HS, Hg⟩, Ho, ⟨%d0, H0⟩, ⟨%d1, H1⟩, ⟨%d2, H2⟩⟩
      iapply ((runLast c (grid0.coords t) _ _ _ _ _ _ _ _ (notFirst_of h0) (last_of h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (accCoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast c _ _ _ _ _ _ _ _ _ _ _ _ _ _)
    · rw [Dat.leavesExact_idle (dats m 0 c) 2 t (idleOut t (notLast_of h1)) (noFlushOut t (notLast_of h1))]
      rw [holdsAt_middle m c t h0 h1]
      unfold accMiddle; (try dsimp only)
      rw [inv_castSucc m c t, inv_pos m c _ _ h0]
      iintro ⟨⟨HS, Hg⟩, Ho, ⟨%d0, H0⟩, ⟨%d1, H1⟩, ⟨%d2, H2⟩⟩
      iapply ((runMiddle c (grid0.coords t) _ _ _ _ _ _ _ _ (notFirst_of h0) (notLast_of h1) (iblk m c 0 t) (iblk m c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (accCoverMiddle c _ _ _ _ _ _ _ _ _ _ _ _ _ _)
        iexact Hg
      isplitl [Ho]; · iexact Ho
      isplitl [H0]; · iexact H0
      isplitl [H1]; · iexact H1
      iexists _; iexact H2

/-- The body keeps the invariant at every point. -/
theorem body_obligation (c : Dev nD) : BodyObligation (dats (F := F) m 0 c) (defs₀ (F := F)) Variants.none () Set.univ := fun t => by
  rw [bigSep_W0, bigSep_W0]
  exact sound_body m c t

/-- What the region is handed is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After any point the invariant gives that back: the accumulator's contents are forgotten. -/
theorem inv_out (c : Dev nD) (t : Fin (cfg0.N + 1)) (ht : t.val ≠ 0) : (dats m 0 c).Φ t ⊢ Pipeline.ΦA spec0 c := by
  rw [show (dats m 0 c).Φ t = inv m c t.val (Nat.le_of_lt_succ t.isLt) from rfl, inv_pos m c _ _ ht, rest_eq]
  iintro ⟨HS, Hg⟩
  isplitl [HS]
  · iexists _; iexact HS
  iexact Hg
theorem hout (c : Dev nD) : (dats m 0 c).Φ (Fin.last cfg0.N) ⊢ Pipeline.ΦA spec0 c :=
  inv_out m c _ (by rw [Fin.val_last]; have : cfg0.N = 16 := N_0; omega)

/-! ## The run -/

set_option backward.isDefEq.respectTransparency.types false in
/-- From any launch contents with zero counters every weakly fair execution of the program ends, without a fault, in a
    state where each window's array is what the proof data computes (the inputs as the region found them, the result
    cell what the last point stored) and every other buffer is as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- Both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Noobj

end
-- ==== Proof.KernelIdealAround.lean ====
/-
  The program around its one region. The loss has four terms; three of them (object, coordinate, class) and the
  occupancy mask are computed by host operations BEFORE the region, the region adds up the masked softplus of channel 0
  over all 64·80·80 cells, sixteen grid points of four images each, and the host operations AFTER it scale the four sums
  and add them. Here: what the device's buffers hold when the region starts, that neither stretch of host operations
  writes an argument, each input window's block at a grid point, the two conditions the body branches on (first point,
  last point) decided over the grid, where the one-cell output window is idle, and what the region owns besides its
  windows (the one-cell accumulator and the generator register).
-/
import proofs.«106109_j89283780149525_2_alg».proof.Proof.Gen.KernelIdeal.Launch
import proofs.«106109_j89283780149525_2_alg».proof.Proof.Gen.KernelIdeal.Skeleton
import proofs.«106109_j89283780149525_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Noobj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before and after the region -/

/-- The host operations before the region, stretch by stretch. -/
abbrev before : List (List (HloOp τ sig (Elt F))) := [hostOps0, hostOps0_1, hostOps0_2, hostOps0_3, hostOps0_4, hostOps0_5, hostOps0_6, hostOps0_7, hostOps0_8, hostOps0_9]

/-- What core `c`'s buffers hold when the region starts: the launch contents after the host operations before it. -/
abbrev V0 (c : Dev nD) : Valuation τ sig (Elt F) := StableHlo.after (List.flatten before) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The whole program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1]
    ⟨hostOps0_sub, hostOps0_1_sub, hostOps0_2_sub, hostOps0_3_sub, hostOps0_4_sub, hostOps0_5_sub, hostOps0_6_sub, hostOps0_7_sub, hostOps0_8_sub, hostOps0_9_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh⟩ main_chain

/-- The operations after the region touch only buffers the region does not keep for itself. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array a window of the region reads or writes. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the predictions: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the targets. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes the targets, and no window holds them: they end as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The input windows' blocks -/

/-- Window `w`'s block at grid point `t`, read off its array as the region finds it: for the predictions the four
    images `4t … 4t+3`, all cells and channels; for the mask the same four images' cells. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The predictions' staging buffer holds the point's block when the body starts, for any proof data whose array is the
    region-entry contents and whose body leaves the block in place. -/
theorem beforePred_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the mask. -/
theorem beforeMask_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose final state has every window's array at what the proof data computes and every other buffer as the
    operations after the region leave it: the predictions (an input window's array, never written back) and the targets
    (no window's array, written by no host operation) end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c)⟩) h

/-! ## The two conditions the body branches on -/

/-- "This is the first grid point": the accumulator is reset there. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "This is the last grid point": the accumulator is copied to the output there. -/
abbrev isLast (i : grid0.Coords) : Prop := k0_cond2 i = 1#1
theorem isLast_iff : ∀ t : Fin cfg0.N, isLast (grid0.coords t) ↔ t.val = 15 :=
  (by decide +kernel : ∀ t : Fin grid0.N, isLast (grid0.coords t) ↔ t.val = 15)

/-! ## Where the windows are idle -/

theorem livePred : ∀ t : Fin cfg0.N, cfg0.idle 0 (grid0.coords t) = false := by decide +kernel
theorem liveMask : ∀ t : Fin cfg0.N, cfg0.idle 1 (grid0.coords t) = false := by decide +kernel
/-- Before the last point the body stores nothing into the output cell, -/
theorem idleOut : ∀ t : Fin cfg0.N, ¬isLast (grid0.coords t) → cfg0.idle 2 (grid0.coords t) = true := by decide +kernel
/-- and the cell is not written back there; -/
theorem noFlushOut : ∀ t : Fin cfg0.N, ¬isLast (grid0.coords t) → (cfg0.win 2).flush t = false := by decide +kernel
/-- at the last point it is stored. -/
theorem liveOut : ∀ t : Fin cfg0.N, isLast (grid0.coords t) → cfg0.idle 2 (grid0.coords t) = false := by decide +kernel

/-! ## The memrefs the body is called with -/

/-- One staging buffer of the output cell, through which its contents are stated. -/
abbrev outV : View sig .tc .vmem S1x1 .f32 := (Memref.whole cc0_stg2_0 : Memref sig .tc .vmem S1x1 .f32).view
abbrev predM (t : Fin cfg0.N) : Memref sig .tc .vmem S4x80x80x85 .f32 := win0_0.stage (cfg0.slots t 0)
abbrev predW (t : Fin cfg0.N) : (predM t).IsWhole := hstage0_0 ((cfg0.slots t 0).cast nbuf0_0)
abbrev maskM (t : Fin cfg0.N) : Memref sig .tc .vmem S4x80x80 .f32 := win0_1.stage (cfg0.slots t 1)
abbrev maskW (t : Fin cfg0.N) : (maskM t).IsWhole := hstage0_1 ((cfg0.slots t 1).cast nbuf0_1)
abbrev outM (t : Fin cfg0.N) : Memref sig .tc .vmem S1x1 .f32 := win0_2.stage (cfg0.slots t 2)
abbrev outW (t : Fin cfg0.N) : (outM t).IsWhole := hstage0_2 ((cfg0.slots t 2).cast nbuf0_2)
/-- The accumulator: one cell the kernel keeps between grid points. -/
abbrev accM : Memref sig .tc .vmem S1x1 .f32 := Memref.whole cc0_scratch0
abbrev accV : View sig .tc .vmem S1x1 .f32 := accM.view

/-- What the region owns besides its windows: the accumulator at some contents, and the generator register. -/
theorem rest_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Noobj

end
-- ==== Proof.KernelIdealPointFirst.lean ====
/-
  The body at the FIRST grid point. It resets the one-cell accumulator to zero, then adds to it the sum, over the four
  images of the point's block and all their cells, of the masked softplus of channel 0; it stores nothing into the
  output cell. Stated as: from the two input blocks at any contents, the output cell at any contents (handed back
  untouched) and the accumulator at any contents, the body runs to the end without a fault and leaves the accumulator
  with a list of stored pieces that the run itself determines.
-/
import proofs.«106109_j89283780149525_2_alg».proof.Proof.KernelIdealAround

set_option maxRecDepth 16384

noncomputable section

namespace Cert.KernelIdeal.Noobj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator at the first point, with the proof that it runs. -/
noncomputable def runFirst (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : isFirst i) (hc1 : ¬isLast i)
    (x0 : Vec F S4x80x80x85 .f32) (x1 : Vec F S4x80x80 .f32) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__noobj_kernel i arg1 harg1 arg2 harg2 arg3 harg3 arg4 harg4) K } := by
  refine ⟨[], ?_, fun xi2 E K => ?run⟩
  case run =>
    simp only [cc0__noobj_kernel_eq_skeleton]; unfold cc0__noobj_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

end Cert.KernelIdeal.Noobj

end
-- ==== Proof.KernelIdealPointMiddle.lean ====
/-
  The body at a grid point that is neither first nor last. It adds to the accumulator, found at the contents the point
  before left, the sum over the point's four images and all their cells of the masked softplus of channel 0, and stores
  nothing into the output cell.
-/
import proofs.«106109_j89283780149525_2_alg».proof.Proof.KernelIdealPointFirst

set_option maxRecDepth 16384

noncomputable section

namespace Cert.KernelIdeal.Noobj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the accumulator at a middle point, with the proof that it runs. -/
noncomputable def runMiddle (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : ¬isLast i)
    (x0 : Vec F S4x80x80x85 .f32) (x1 : Vec F S4x80x80 .f32) (xs : Vec F S1x1 .f32) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc0__noobj_kernel i arg1 harg1 arg2 harg2 arg3 harg3 arg4 harg4) K } := by
  refine ⟨[], ?_, fun xi2 E K => ?run⟩
  case run =>
    simp only [cc0__noobj_kernel_eq_skeleton]; unfold cc0__noobj_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

end Cert.KernelIdeal.Noobj

end
-- ==== Proof.KernelIdealPointLast.lean ====
/-
  The body at the LAST grid point. It adds the point's masked softplus sum to the accumulator as at a middle point, and
  then copies the accumulator's cell into the output cell, which the region writes back to the result array.
-/
import proofs.«106109_j89283780149525_2_alg».proof.Proof.KernelIdealPointMiddle

set_option maxRecDepth 16384

noncomputable section

namespace Cert.KernelIdeal.Noobj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output cell and in the accumulator at the last point, with the proof that
    it runs. -/
noncomputable def runLast (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i)
    (x0 : Vec F S4x80x80x85 .f32) (x1 : Vec F S4x80x80 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc0__noobj_kernel i arg1 harg1 arg2 harg2 arg3 harg3 arg4 harg4) K } := by
  refine ⟨?_, ?_, fun E K => ?run⟩
  case run =>
    simp only [cc0__noobj_kernel_eq_skeleton]; unfold cc0__noobj_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.KernelIdeal.Noobj

end
-- ==== Proof.KernelIdealAccum.lean ====
/-
  The accumulation. After grid point t the one-cell accumulator holds zero plus the masked softplus sums of points
  0 … t, each added in turn; the output cell is stored only at the last point, with the accumulator's contents there.
  Here: what each of the three kinds of point (first, middle, last) leaves in the accumulator and in the output cell,
  read back from the pieces its stores left; the contents after every point, by recursion on the point; the region's
  invariant (the accumulator at what the point before left); that the body at every point keeps it; and from that the
  run of the whole program, with the result array at what the last point stored and every other buffer as the host
  operations leave it. In particular both arguments end unchanged.
-/
import proofs.«106109_j89283780149525_2_alg».proof.Proof.KernelIdealPointLast

set_option maxRecDepth 16384

noncomputable section

namespace Cert.KernelIdeal.Noobj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

theorem first_of {t : Fin cfg0.N} (h : t.val = 0) : isFirst (grid0.coords t) := (isFirst_iff t).mpr h
theorem notFirst_of {t : Fin cfg0.N} (h : t.val ≠ 0) : ¬isFirst (grid0.coords t) := fun h' => h ((isFirst_iff t).mp h')
theorem last_of {t : Fin cfg0.N} (h : t.val = 15) : isLast (grid0.coords t) := (isLast_iff t).mpr h
theorem notLast_of {t : Fin cfg0.N} (h : t.val ≠ 15) : ¬isLast (grid0.coords t) := fun h' => h ((isLast_iff t).mp h')

/-- At the first point nothing is stored into the output cell: a placeholder nothing consults. -/
def outFirst (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : isFirst i) (hc1 : ¬isLast i) (x0 : Vec F S4x80x80x85 .f32) (x1 : Vec F S4x80x80 .f32) : Vec F S1x1 .f32 :=
  outV.read (Elt F) (outV.writes (Elt F) outV.junk (runFirst c i arg1 harg1 arg2 harg2 arg3 harg3 arg4 harg4 hc0 hc1 x0 x1).1)
/-- The first point's stores cover the accumulator's one cell. -/
theorem accCoverFirst (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : isFirst i) (hc1 : ¬isLast i) (x0 : Vec F S4x80x80x85 .f32) (x1 : Vec F S4x80x80 .f32) (y : S1x1.Idx) :
    ∃ pc ∈ (runFirst c i arg1 harg1 arg2 harg2 arg3 harg3 arg4 harg4 hc0 hc1 x0 x1).2.1, y ∈ pc.1.set :=
  View.cover_of_tiledL (runFirst c i arg1 harg1 arg2 harg2 arg3 harg3 arg4 harg4 hc0 hc1 x0 x1).2.1 S1x1.size (by sl_kernel_rfl) y
/-- What the first point leaves in the accumulator. -/
def accFirst (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : isFirst i) (hc1 : ¬isLast i) (x0 : Vec F S4x80x80x85 .f32) (x1 : Vec F S4x80x80 .f32) : Vec F S1x1 .f32 :=
  accV.read (Elt F) (accV.writes (Elt F) accV.junk (runFirst c i arg1 harg1 arg2 harg2 arg3 harg3 arg4 harg4 hc0 hc1 x0 x1).2.1)

/-- At a middle point nothing is stored into the output cell either. -/
def outMiddle (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : ¬isLast i) (x0 : Vec F S4x80x80x85 .f32) (x1 : Vec F S4x80x80 .f32) (xs : Vec F S1x1 .f32) : Vec F S1x1 .f32 :=
  outV.read (Elt F) (outV.writes (Elt F) outV.junk (runMiddle c i arg1 harg1 arg2 harg2 arg3 harg3 arg4 harg4 hc0 hc1 x0 x1 xs).1)
theorem accCoverMiddle (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : ¬isLast i) (x0 : Vec F S4x80x80x85 .f32) (x1 : Vec F S4x80x80 .f32) (xs : Vec F S1x1 .f32) (y : S1x1.Idx) :
    ∃ pc ∈ (runMiddle c i arg1 harg1 arg2 harg2 arg3 harg3 arg4 harg4 hc0 hc1 x0 x1 xs).2.1, y ∈ pc.1.set :=
  View.cover_of_tiledL (runMiddle c i arg1 harg1 arg2 harg2 arg3 harg3 arg4 harg4 hc0 hc1 x0 x1 xs).2.1 S1x1.size (by sl_kernel_rfl) y
/-- What a middle point leaves in the accumulator, from what the point before left (`xs`). -/
def accMiddle (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : ¬isLast i) (x0 : Vec F S4x80x80x85 .f32) (x1 : Vec F S4x80x80 .f32) (xs : Vec F S1x1 .f32) : Vec F S1x1 .f32 :=
  accV.read (Elt F) (accV.writes (Elt F) accV.junk (runMiddle c i arg1 harg1 arg2 harg2 arg3 harg3 arg4 harg4 hc0 hc1 x0 x1 xs).2.1)

/-- The last point's one store covers the output cell. -/
theorem outCoverLast (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i) (x0 : Vec F S4x80x80x85 .f32) (x1 : Vec F S4x80x80 .f32) (xs : Vec F S1x1 .f32) (y : S1x1.Idx) :
    ∃ pc ∈ (runLast c i arg1 harg1 arg2 harg2 arg3 harg3 arg4 harg4 hc0 hc1 x0 x1 xs).1, y ∈ pc.1.set :=
  View.cover_of_tiledL (runLast c i arg1 harg1 arg2 harg2 arg3 harg3 arg4 harg4 hc0 hc1 x0 x1 xs).1 S1x1.size (by sl_kernel_rfl) y
/-- What the last point leaves in the output cell. -/
def outLast (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i) (x0 : Vec F S4x80x80x85 .f32) (x1 : Vec F S4x80x80 .f32) (xs : Vec F S1x1 .f32) : Vec F S1x1 .f32 :=
  outV.read (Elt F) (outV.writes (Elt F) outV.junk (runLast c i arg1 harg1 arg2 harg2 arg3 harg3 arg4 harg4 hc0 hc1 x0 x1 xs).1)
theorem accCoverLast (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i) (x0 : Vec F S4x80x80x85 .f32) (x1 : Vec F S4x80x80 .f32) (xs : Vec F S1x1 .f32) (y : S1x1.Idx) :
    ∃ pc ∈ (runLast c i arg1 harg1 arg2 harg2 arg3 harg3 arg4 harg4 hc0 hc1 x0 x1 xs).2.1, y ∈ pc.1.set :=
  View.cover_of_tiledL (runLast c i arg1 harg1 arg2 harg2 arg3 harg3 arg4 harg4 hc0 hc1 x0 x1 xs).2.1 S1x1.size (by sl_kernel_rfl) y
/-- What the last point leaves in the accumulator. -/
def accLast (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i) (x0 : Vec F S4x80x80x85 .f32) (x1 : Vec F S4x80x80 .f32) (xs : Vec F S1x1 .f32) : Vec F S1x1 .f32 :=
  accV.read (Elt F) (accV.writes (Elt F) accV.junk (runLast c i arg1 harg1 arg2 harg2 arg3 harg3 arg4 harg4 hc0 hc1 x0 x1 xs).2.1)

/-! ## The contents after each point -/

/-- What the output cell's staging buffer (first component) and the accumulator (second) hold after the body at
    position `n`: the kind of point `n` is, run on the point's blocks, the accumulator found at what position
    `n - 1` left. -/
def holdsAt (c : Dev nD) : (n : ℕ) → n < cfg0.N → Vec F S1x1 .f32 × Vec F S1x1 .f32
  | 0, hn => (outFirst c (grid0.coords ⟨0, hn⟩) (predM ⟨0, hn⟩) (predW ⟨0, hn⟩) (maskM ⟨0, hn⟩) (maskW ⟨0, hn⟩) (outM ⟨0, hn⟩) (outW ⟨0, hn⟩) accM (Memref.isWhole_whole _) (first_of rfl) (notLast_of (show (0 : ℕ) ≠ 15 by decide)) (iblk m c 0 ⟨0, hn⟩) (iblk m c 1 ⟨0, hn⟩),
              accFirst c (grid0.coords ⟨0, hn⟩) (predM ⟨0, hn⟩) (predW ⟨0, hn⟩) (maskM ⟨0, hn⟩) (maskW ⟨0, hn⟩) (outM ⟨0, hn⟩) (outW ⟨0, hn⟩) accM (Memref.isWhole_whole _) (first_of rfl) (notLast_of (show (0 : ℕ) ≠ 15 by decide)) (iblk m c 0 ⟨0, hn⟩) (iblk m c 1 ⟨0, hn⟩))
  | n + 1, hn =>
    if h1 : n + 1 = 15 then
      (outLast c (grid0.coords ⟨n + 1, hn⟩) (predM ⟨n + 1, hn⟩) (predW ⟨n + 1, hn⟩) (maskM ⟨n + 1, hn⟩) (maskW ⟨n + 1, hn⟩) (outM ⟨n + 1, hn⟩) (outW ⟨n + 1, hn⟩) accM (Memref.isWhole_whole _) (notFirst_of (Nat.succ_ne_zero n)) (last_of h1) (iblk m c 0 ⟨n + 1, hn⟩) (iblk m c 1 ⟨n + 1, hn⟩) (holdsAt c n (Nat.lt_of_succ_lt hn)).2,
       accLast c (grid0.coords ⟨n + 1, hn⟩) (predM ⟨n + 1, hn⟩) (predW ⟨n + 1, hn⟩) (maskM ⟨n + 1, hn⟩) (maskW ⟨n + 1, hn⟩) (outM ⟨n + 1, hn⟩) (outW ⟨n + 1, hn⟩) accM (Memref.isWhole_whole _) (notFirst_of (Nat.succ_ne_zero n)) (last_of h1) (iblk m c 0 ⟨n + 1, hn⟩) (iblk m c 1 ⟨n + 1, hn⟩) (holdsAt c n (Nat.lt_of_succ_lt hn)).2)
    else
      (outMiddle c (grid0.coords ⟨n + 1, hn⟩) (predM ⟨n + 1, hn⟩) (predW ⟨n + 1, hn⟩) (maskM ⟨n + 1, hn⟩) (maskW ⟨n + 1, hn⟩) (outM ⟨n + 1, hn⟩) (outW ⟨n + 1, hn⟩) accM (Memref.isWhole_whole _) (notFirst_of (Nat.succ_ne_zero n)) (notLast_of h1) (iblk m c 0 ⟨n + 1, hn⟩) (iblk m c 1 ⟨n + 1, hn⟩) (holdsAt c n (Nat.lt_of_succ_lt hn)).2,
       accMiddle c (grid0.coords ⟨n + 1, hn⟩) (predM ⟨n + 1, hn⟩) (predW ⟨n + 1, hn⟩) (maskM ⟨n + 1, hn⟩) (maskW ⟨n + 1, hn⟩) (outM ⟨n + 1, hn⟩) (outW ⟨n + 1, hn⟩) accM (Memref.isWhole_whole _) (notFirst_of (Nat.succ_ne_zero n)) (notLast_of h1) (iblk m c 0 ⟨n + 1, hn⟩) (iblk m c 1 ⟨n + 1, hn⟩) (holdsAt c n (Nat.lt_of_succ_lt hn)).2)

theorem holdsAt_first (c : Dev nD) (t : Fin cfg0.N) (h0 : t.val = 0) (h1 : t.val ≠ 15) :
    holdsAt m c t.val t.isLt = (outFirst c (grid0.coords t) (predM t) (predW t) (maskM t) (maskW t) (outM t) (outW t) accM (Memref.isWhole_whole _) (first_of h0) (notLast_of h1) (iblk m c 0 t) (iblk m c 1 t),
      accFirst c (grid0.coords t) (predM t) (predW t) (maskM t) (maskW t) (outM t) (outW t) accM (Memref.isWhole_whole _) (first_of h0) (notLast_of h1) (iblk m c 0 t) (iblk m c 1 t)) := by
  obtain ⟨n, hn⟩ := t
  cases n with
  | zero => exact rfl
  | succ n => exact absurd h0 (Nat.succ_ne_zero n)

theorem holdsAt_middle (c : Dev nD) (t : Fin cfg0.N) (h0 : t.val ≠ 0) (h1 : t.val ≠ 15) :
    holdsAt m c t.val t.isLt = (outMiddle c (grid0.coords t) (predM t) (predW t) (maskM t) (maskW t) (outM t) (outW t) accM (Memref.isWhole_whole _) (notFirst_of h0) (notLast_of h1) (iblk m c 0 t) (iblk m c 1 t) (holdsAt m c (t.val - 1) (Nat.lt_of_le_of_lt (Nat.sub_le _ _) t.isLt)).2,
      accMiddle c (grid0.coords t) (predM t) (predW t) (maskM t) (maskW t) (outM t) (outW t) accM (Memref.isWhole_whole _) (notFirst_of h0) (notLast_of h1) (iblk m c 0 t) (iblk m c 1 t) (holdsAt m c (t.val - 1) (Nat.lt_of_le_of_lt (Nat.sub_le _ _) t.isLt)).2) := by
  obtain ⟨n, hn⟩ := t
  cases n with
  | zero => exact absurd rfl h0
  | succ n => exact (dif_neg h1).trans rfl

theorem holdsAt_last (c : Dev nD) (t : Fin cfg0.N) (h0 : t.val ≠ 0) (h1 : t.val = 15) :
    holdsAt m c t.val t.isLt = (outLast c (grid0.coords t) (predM t) (predW t) (maskM t) (maskW t) (outM t) (outW t) accM (Memref.isWhole_whole _) (notFirst_of h0) (last_of h1) (iblk m c 0 t) (iblk m c 1 t) (holdsAt m c (t.val - 1) (Nat.lt_of_le_of_lt (Nat.sub_le _ _) t.isLt)).2,
      accLast c (grid0.coords t) (predM t) (predW t) (maskM t) (maskW t) (outM t) (outW t) accM (Memref.isWhole_whole _) (notFirst_of h0) (last_of h1) (iblk m c 0 t) (iblk m c 1 t) (holdsAt m c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before position `n`: at the start whatever the region is handed (the accumulator at anything); afterwards the
    accumulator at what position `n - 1` left, and the generator register at some state. -/
def inv (c : Dev nD) : (n : ℕ) → n ≤ cfg0.N → sProp 𝕄
  | 0, _ => Pipeline.ΦA spec0 c
  | n + 1, hn => iprop(iprop(owns (c : Thread nD τ) accM fullShare ((holdsAt m c n hn).2)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) accM fullShare ((holdsAt m c n hn).2)) ∗ (∃ r, prngReg c r)) := rfl
theorem inv_pos (c : Dev nD) (n : ℕ) (h : n ≤ cfg0.N) (hz : n ≠ 0) :
    inv m c n h = iprop(iprop(owns (c : Thread nD τ) accM fullShare ((holdsAt m c (n - 1) (by omega)).2)) ∗ (∃ r, prngReg c r)) := by
  cases n with
  | zero => exact absurd rfl hz
  | succ n => rfl

/-! ## The proof data -/

/-- The arrays as the region finds them; after the body at point `t` each input's buffer at its block and the output
    cell's at `holdsAt`; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (holdsAt m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; simp only [Fin.coe_castSucc]
theorem afterPred (c : Dev nD) (t : Fin cfg0.N) : (dats m 0 c).after 0 t = iblk m c 0 t := by dsimp only [dats]
theorem afterMask (c : Dev nD) (t : Fin cfg0.N) : (dats m 0 c).after 1 t = iblk m c 1 t := by dsimp only [dats]
theorem afterOut (c : Dev nD) (t : Fin cfg0.N) : (dats m 0 c).after 2 t = (holdsAt m c t.val t.isLt).1 := by dsimp only [dats]
theorem beforePred (c : Dev nD) (t : Fin cfg0.N) (d) : (dats m 0 c).before 0 t d = iblk m c 0 t :=
  beforePred_of m (dats m 0 c) (A_eq m c 0) (afterPred m c) t d
theorem beforeMask (c : Dev nD) (t : Fin cfg0.N) (d) : (dats m 0 c).before 1 t d = iblk m c 1 t :=
  beforeMask_of m (dats m 0 c) (A_eq m c 1) (afterMask m c) t d

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (predM t) fullShare ((dats m 0 c).before 0 t d))
    ∗ (∃ d, owns (c : Thread nD τ) (maskM t) fullShare ((dats m 0 c).before 1 t d))
    ∗ (∃ d, owns (c : Thread nD τ) (outM t) fullShare ((dats m 0 c).before 2 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input buffers hold their blocks; the point is first, middle or last; the invariant
    hands the body the accumulator at what the point before left (at anything at the first point) and takes it back at
    this point's contents, which the point's stores cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforePred, beforeMask]
  rw [show (dats m 0 c).owesAt () t.succ = (dats m 0 c).owesAt () t.castSucc from rfl]
  rw [show (dats m 0 c).Φ t.succ = inv m c (t.val + 1) t.isLt from rfl, inv_succ]
  have hN : t.val < 16 := lt_of_lt_of_eq t.isLt (show cfg0.N = 16 from N_0)
  rw [show (dats m 0 c).leavesExact 0 t = owns (c : Thread nD τ) (predM t) fullShare ((dats m 0 c).after 0 t) from by
    unfold Dat.leavesExact; rw [livePred t], afterPred]
  rw [show (dats m 0 c).leavesExact 1 t = owns (c : Thread nD τ) (maskM t) fullShare ((dats m 0 c).after 1 t) from by
    unfold Dat.leavesExact; rw [liveMask t], afterMask]
  by_cases h0 : t.val = 0
  · have h1 : t.val ≠ 15 := by omega
    rw [Dat.leavesExact_idle (dats m 0 c) 2 t (idleOut t (notLast_of h1)) (noFlushOut t (notLast_of h1))]
    rw [holdsAt_first m c t h0 h1]
    unfold accFirst; (try dsimp only)
    rw [inv_castSucc m c t, inv_zero m c _ _ h0, rest_eq]
    iintro ⟨⟨HS, Hg⟩, Ho, ⟨%d0, H0⟩, ⟨%d1, H1⟩, ⟨%d2, H2⟩⟩
    iapply ((runFirst c (grid0.coords t) _ _ _ _ _ _ _ _ (first_of h0) (notLast_of h1) (iblk m c 0 t) (iblk m c 1 t)).2.2 _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact View.read_writes_of_cover _ _ _ _ _ (accCoverFirst c _ _ _ _ _ _ _ _ _ _ _ _ _)
      iexact Hg
    isplitl [Ho]; · iexact Ho
    isplitl [H0]; · iexact H0
    isplitl [H1]; · iexact H1
    iexists _; iexact H2
  · by_cases h1 : t.val = 15
    · rw [show (dats m 0 c).leavesExact 2 t = owns (c : Thread nD τ) (outM t) fullShare ((dats m 0 c).after 2 t) from by
        unfold Dat.leavesExact; rw [liveOut t (last_of h1)], afterOut]
      rw [holdsAt_last m c t h0 h1]
      unfold outLast accLast; (try dsimp only)
      rw [inv_castSucc m c t, inv_pos m c _ _ h0]
      iintro ⟨⟨HS, Hg⟩, Ho, ⟨%d0, H0⟩, ⟨%d1, H1⟩, ⟨%d2, H2⟩⟩
      iapply ((runLast c (grid0.coords t) _ _ _ _ _ _ _ _ (notFirst_of h0) (last_of h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (accCoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast c _ _ _ _ _ _ _ _ _ _ _ _ _ _)
    · rw [Dat.leavesExact_idle (dats m 0 c) 2 t (idleOut t (notLast_of h1)) (noFlushOut t (notLast_of h1))]
      rw [holdsAt_middle m c t h0 h1]
      unfold accMiddle; (try dsimp only)
      rw [inv_castSucc m c t, inv_pos m c _ _ h0]
      iintro ⟨⟨HS, Hg⟩, Ho, ⟨%d0, H0⟩, ⟨%d1, H1⟩, ⟨%d2, H2⟩⟩
      iapply ((runMiddle c (grid0.coords t) _ _ _ _ _ _ _ _ (notFirst_of h0) (notLast_of h1) (iblk m c 0 t) (iblk m c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (accCoverMiddle c _ _ _ _ _ _ _ _ _ _ _ _ _ _)
        iexact Hg
      isplitl [Ho]; · iexact Ho
      isplitl [H0]; · iexact H0
      isplitl [H1]; · iexact H1
      iexists _; iexact H2

/-- The body keeps the invariant at every point. -/
theorem body_obligation (c : Dev nD) : BodyObligation (dats (F := F) m 0 c) (defs₀ (F := F)) Variants.none () Set.univ := fun t => by
  rw [bigSep_W0, bigSep_W0]
  exact sound_body m c t

/-- What the region is handed is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After any point the invariant gives that back: the accumulator's contents are forgotten. -/
theorem inv_out (c : Dev nD) (t : Fin (cfg0.N + 1)) (ht : t.val ≠ 0) : (dats m 0 c).Φ t ⊢ Pipeline.ΦA spec0 c := by
  rw [show (dats m 0 c).Φ t = inv m c t.val (Nat.le_of_lt_succ t.isLt) from rfl, inv_pos m c _ _ ht, rest_eq]
  iintro ⟨HS, Hg⟩
  isplitl [HS]
  · iexists _; iexact HS
  iexact Hg
theorem hout (c : Dev nD) : (dats m 0 c).Φ (Fin.last cfg0.N) ⊢ Pipeline.ΦA spec0 c :=
  inv_out m c _ (by rw [Fin.val_last]; have : cfg0.N = 16 := N_0; omega)

/-! ## The run -/

set_option backward.isDefEq.respectTransparency.types false in
/-- From any launch contents with zero counters every weakly fair execution of the program ends, without a fault, in a
    state where each window's array is what the proof data computes (the inputs as the region found them, the result
    cell what the last point stored) and every other buffer is as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- Both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Noobj

end
-- ==== Proof.KernelIdealCases.lean ====
/-
  What each kind of grid point leaves in the accumulator, and the last point in the output cell, as the body's update
  of the accumulator applied to the point's channel-0 slab, its mask block and what the accumulator held: zero, freshly
  stored, at the first point; what the point before left at the others. The last point's copy into the output cell is
  the accumulator's new contents.
-/
import proofs.«106109_j89283780149525_2_alg».proof.Proof.KernelIdealAccum
import Idealize.ShloMosaic.Lib.Pipeline.Value
import Idealize.ShloMosaic.Lib.ValueIdx

set_option maxRecDepth 16384

noncomputable section

open scoped BigOperators

namespace Cert.KernelIdeal.NoobjCases

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Noobj

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The rectangle the body loads of the predictions' block: channel 0 of every cell of the four images. -/
abbrev slab : Rect S4x80x80x85 :=
  Rect.unit (s := S4x80x80x85) ![0, 0, 0, 0] S4x80x80x1.size Facts₀.inb_S4x80x80x85_S4x80x80x1_0_0_0_0

/-! ## What each kind of point leaves, as the body's update -/

theorem accMiddle_eq (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : ¬isLast i)
    (x0 : Vec Ideal S4x80x80x85 .f32) (x1 : Vec Ideal S4x80x80 .f32) (xs : Vec Ideal S1x1 .f32) :
    accMiddle (F := Ideal) c i arg1 harg1 arg2 harg2 arg3 harg3 arg4 harg4 hc0 hc1 x0 x1 xs = k0_pay2 (F := Ideal) (View.ld x0 slab) x1 xs := by
  unfold accMiddle
  rw [View.read_writes_eq_canon _ _ _ (accCoverMiddle c i arg1 harg1 arg2 harg2 arg3 harg3 arg4 harg4 hc0 hc1 x0 x1 xs)]
  unfold runMiddle
  dsimp only
  rw [View.canon_unit_zero hz2]
  simp only [View.readAt_eq_ld, harg1.read_unread, harg2.read_unread, harg4.read_unread,
    View.ld_unit_zero (S := S4x80x80) hz3, View.ld_unit_zero (S := S1x1) hz2]

theorem accFirst_eq (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : isFirst i) (hc1 : ¬isLast i)
    (x0 : Vec Ideal S4x80x80x85 .f32) (x1 : Vec Ideal S4x80x80 .f32) :
    accFirst (F := Ideal) c i arg1 harg1 arg2 harg2 arg3 harg3 arg4 harg4 hc0 hc1 x0 x1 = k0_pay2 (F := Ideal) (View.ld x0 slab) x1 (k0_pay1 (F := Ideal)) := by
  unfold accFirst
  rw [View.read_writes_eq_canon _ _ _ (accCoverFirst c i arg1 harg1 arg2 harg2 arg3 harg3 arg4 harg4 hc0 hc1 x0 x1)]
  unfold runFirst
  dsimp only
  sl_unfold_words
  rw [View.canon_cons_unit_zero (S := S1x1) hz2, View.readCov_unit_zero (S := S1x1) _ hz2]
  simp only [View.readAt_eq_ld, harg1.read_unread, harg2.read_unread,
    View.ld_unit_zero (S := S4x80x80) hz3, View.ld_unit_zero (S := S1x1) hz2]

theorem accLast_eq (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i)
    (x0 : Vec Ideal S4x80x80x85 .f32) (x1 : Vec Ideal S4x80x80 .f32) (xs : Vec Ideal S1x1 .f32) :
    accLast (F := Ideal) c i arg1 harg1 arg2 harg2 arg3 harg3 arg4 harg4 hc0 hc1 x0 x1 xs = k0_pay2 (F := Ideal) (View.ld x0 slab) x1 xs := by
  unfold accLast
  rw [View.read_writes_eq_canon _ _ _ (accCoverLast c i arg1 harg1 arg2 harg2 arg3 harg3 arg4 harg4 hc0 hc1 x0 x1 xs)]
  unfold runLast
  dsimp only
  sl_unfold_words
  rw [View.canon_unit_zero hz2]
  simp only [View.readAt_eq_ld, harg1.read_unread, harg2.read_unread, harg4.read_unread,
    View.ld_unit_zero (S := S4x80x80) hz3, View.ld_unit_zero (S := S1x1) hz2]

/-- The last point's copy into the output cell is the accumulator's new contents. -/
theorem outLast_eq (c : Dev nD) (i : grid0.Coords) (arg1 : Memref sig .tc .vmem S4x80x80x85 .f32) (harg1 : arg1.IsWhole) (arg2 : Memref sig .tc .vmem S4x80x80 .f32) (harg2 : arg2.IsWhole) (arg3 : Memref sig .tc .vmem S1x1 .f32) (harg3 : arg3.IsWhole) (arg4 : Memref sig .tc .vmem S1x1 .f32) (harg4 : arg4.IsWhole) (hc0 : ¬isFirst i) (hc1 : isLast i)
    (x0 : Vec Ideal S4x80x80x85 .f32) (x1 : Vec Ideal S4x80x80 .f32) (xs : Vec Ideal S1x1 .f32) :
    outLast (F := Ideal) c i arg1 harg1 arg2 harg2 arg3 harg3 arg4 harg4 hc0 hc1 x0 x1 xs = k0_pay2 (F := Ideal) (View.ld x0 slab) x1 xs := by
  unfold outLast
  rw [View.read_writes_eq_canon _ _ _ (outCoverLast c i arg1 harg1 arg2 harg2 arg3 harg3 arg4 harg4 hc0 hc1 x0 x1 xs)]
  unfold runLast
  dsimp only
  sl_unfold_words
  rw [View.canon_unit_zero hz2, View.readCov_unit_zero (S := S1x1) _ hz2]
  simp only [View.readAt_eq_ld, harg1.read_unread, harg2.read_unread, harg4.read_unread,
    View.ld_unit_zero (S := S4x80x80) hz3, View.ld_unit_zero (S := S1x1) hz2]

end Cert.KernelIdeal.NoobjCases

end
-- ==== Proof.NoobjPoint.lean ====
/-
  What one grid point adds to the accumulator. The body's update of the accumulator is: the accumulator as found, plus
  the total over the point's four images b, eighty rows y and eighty columns x of the cell term
  (nothing where the mask exceeds one half, softplus of the channel-0 logit elsewhere) — the body takes that total as
  three successive sums, over x, then y, then b, each into a zero start. Here the update is split into "the masked block"
  and "the block's total", each exactly as the body spells it, and each is read at an index on the extended reals.
-/
import proofs.«106109_j89283780149525_2_alg».proof.Proof.Gen.KernelIdeal.Skeleton
import proofs.«106109_j89283780149525_2_alg».proof.Proof.NoobjCell
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.NoobjPoint

open Idealize.ShloMosaic Idealize.ShloMosaic.ValueIdx Idealize.SL.Sem
open Cert.KernelIdeal Cert.KernelIdeal.Gen Cert.NoobjCell

/-- The masked softplus of every cell of the point's block, as the body computes it from the loaded channel-0 slab
    (`v3`) and the loaded mask block (`v19`). -/
def maskedBlock (v3 : FVec Ideal S4x80x80x1 .f32) (v19 : FVec Ideal S4x80x80 .f32) : FVec Ideal S4x80x80 .f32 :=
  have v4 : FVec Ideal S4x80x80 .f32 := shapeCast S4x80x80 v3 Facts₀.shapeCasts_S4x80x80x1_S4x80x80
  have cst : Ideal .f32 := Scalar.ofBits .f32 0x00000000#32
  have v5 : FVec Ideal S4x80x80 .f32 := broadcast S4x80x80 cst
  have v6 : FVec Ideal S4x80x80 .f32 := maximumf v4 v5
  have v7 : FVec Ideal S4x80x80 .f32 := broadcast S4x80x80 cst
  have v8 : FVec Ideal S4x80x80 .f32 := subf v4 v7
  have v9 : IVec S4x80x80 1 := cmpf .one v8 v8
  have v10 : FVec Ideal S4x80x80 .f32 := broadcast S4x80x80 cst
  have v11 : FVec Ideal S4x80x80 .f32 := addf v4 v10
  have v12 : FVec Ideal S4x80x80 .f32 := absf v8
  have cst_4 : Ideal .f32 := Scalar.ofBits .f32 0x00000000#32
  have v13 : FVec Ideal S4x80x80 .f32 := broadcast S4x80x80 cst_4
  have v14 : FVec Ideal S4x80x80 .f32 := subf v13 v12
  have v15 : FVec Ideal S4x80x80 .f32 := exp v14
  have v16 : FVec Ideal S4x80x80 .f32 := log1p v15
  have v17 : FVec Ideal S4x80x80 .f32 := addf v6 v16
  have v18 : FVec Ideal S4x80x80 .f32 := select v9 v11 v17
  have v20 : FVec Ideal S4x80x80 .f32 := shapeCast S4x80x80 v19 Facts₀.shapeCasts_S4x80x80_S4x80x80
  have cst_8 : Ideal .f32 := Scalar.ofBits .f32 0x3F000000#32
  have v21 : FVec Ideal S4x80x80 .f32 := broadcast S4x80x80 cst_8
  have v22 : IVec S4x80x80 1 := cmpf .ogt v20 v21
  have cst_9 : Ideal .f32 := Scalar.ofBits .f32 0x00000000#32
  have v23 : FVec Ideal S4x80x80 .f32 := broadcast S4x80x80 cst_9
  have v24 : FVec Ideal S4x80x80 .f32 := select v22 v23 v18
  v24

/-- The total of a block of cell terms, as the body takes it: over the columns, then the rows, then the images. -/
def blockTotal (w : FVec Ideal S4x80x80 .f32) : FVec Ideal S1x1 .f32 :=
  have v25 : FVec Ideal S4x80 .f32 := multiReduction .add [2] S4x80 w 0x00000000#32 Facts₀.reduces_S4x80x80_S4x80 (.inl rfl) rfl
  have v26 : FVec Ideal S4x80x1 .f32 := shapeCast S4x80x1 v25 Facts₀.shapeCasts_S4x80_S4x80x1
  have v27 : FVec Ideal S4x1 .f32 := multiReduction .add [1] S4x1 v26 0x00000000#32 Facts₀.reduces_S4x80x1_S4x1 (.inl rfl) rfl
  have v28 : FVec Ideal S4x1x1 .f32 := shapeCast S4x1x1 v27 Facts₀.shapeCasts_S4x1_S4x1x1
  have v29 : FVec Ideal S1x1 .f32 := multiReduction .add [0] S1x1 v28 0x00000000#32 Facts₀.reduces_S4x1x1_S1x1 (.inl rfl) rfl
  have v30 : FVec Ideal S1x1x1 .f32 := shapeCast S1x1x1 v29 Facts₀.shapeCasts_S1x1_S1x1x1
  have v32 : FVec Ideal S1x1 .f32 := shapeCast S1x1 v30 Facts₀.shapeCasts_S1x1x1_S1x1
  v32

/-- The accumulator's update is: what it held, plus the total of the masked block. -/
theorem update_split (v3 : FVec Ideal S4x80x80x1 .f32) (v19 : FVec Ideal S4x80x80 .f32) (v31 : FVec Ideal S1x1 .f32) :
    k0_pay2 (F := Ideal) v3 v19 v31
      = shapeCast S1x1 (addf (F := Ideal) v31 (blockTotal (maskedBlock v3 v19))) Facts₀.shapeCasts_S1x1_S1x1 := rfl

/-- The block's total at the accumulator's one cell is the triple sum of the block. -/
theorem blockTotal_apply (w : FVec Ideal S4x80x80 .f32) :
    blockTotal w (ix2 (0 : Fin 1) (0 : Fin 1)) = ∑ b : Fin 4, ∑ y : Fin 80, ∑ x : Fin 80, w (ix3 b y x) := by
  unfold blockTotal
  refine (congrFun (shapeCast_shapeCast _ Facts₀.shapeCasts_S1x1_S1x1x1 Facts₀.shapeCasts_S1x1x1_S1x1) _).trans ?_
  refine (Ideal.multiReduction_add_single _ 0x00000000#32 Facts₀.reduces_S4x1x1_S1x1 (.inl rfl) rfl (ix2 (0 : Fin 1) (0 : Fin 1))).trans ?_
  refine Finset.sum_congr rfl fun b _ => ?_
  refine (shapeCast_apply _ Facts₀.shapeCasts_S4x1_S4x1x1 _ (ix2 b (0 : Fin 1)) ?_).trans ?_
  · rw [Shape.rowMajor_val_two, Shape.rowMajor_val_three]
    show b.val * 1 + 0 = (b.val * 1 + 0) * 1 + 0
    omega
  refine (Ideal.multiReduction_add_single _ 0x00000000#32 Facts₀.reduces_S4x80x1_S4x1 (.inl rfl) rfl (ix2 b (0 : Fin 1))).trans ?_
  refine Finset.sum_congr rfl fun y _ => ?_
  refine (shapeCast_apply _ Facts₀.shapeCasts_S4x80_S4x80x1 _ (ix2 b y) ?_).trans ?_
  · rw [Shape.rowMajor_val_two, Shape.rowMajor_val_three]
    show b.val * 80 + y.val = (b.val * 80 + y.val) * 1 + 0
    omega
  refine (Ideal.multiReduction_add_single _ 0x00000000#32 Facts₀.reduces_S4x80x80_S4x80 (.inl rfl) rfl (ix2 b y)).trans ?_
  refine Finset.sum_congr rfl fun x _ => congrArg w ?_
  funext a; apply Fin.ext
  match a with
  | ⟨0, _⟩ => rfl
  | ⟨1, _⟩ => rfl
  | ⟨2, _⟩ => rfl

/-- The masked block at a cell is the cell's term of the mask value and the logit there. -/
theorem maskedBlock_apply (v3 : FVec Ideal S4x80x80x1 .f32) (v19 : FVec Ideal S4x80x80 .f32) (b : Fin 4) (y : Fin 80) (x : Fin 80) :
    maskedBlock v3 v19 (ix3 b y x) = cellK (v19 (ix3 b y x)) (v3 (ix4 b y x (0 : Fin 1))) := by
  have e4 : shapeCast S4x80x80 v3 Facts₀.shapeCasts_S4x80x80x1_S4x80x80 (ix3 b y x) = v3 (ix4 b y x (0 : Fin 1)) :=
    shapeCast_apply v3 Facts₀.shapeCasts_S4x80x80x1_S4x80x80 (ix3 b y x) (ix4 b y x (0 : Fin 1))
      (by rw [Shape.rowMajor_val_four, Shape.rowMajor_val_three]
          show ((b.val * 80 + y.val) * 80 + x.val) * 1 + 0 = (b.val * 80 + y.val) * 80 + x.val
          omega)
  have e20 : shapeCast S4x80x80 v19 Facts₀.shapeCasts_S4x80x80_S4x80x80 = v19 := shapeCast_self v19 _
  show Scalar.select (FloatOps.cmpf .ogt (shapeCast S4x80x80 v19 Facts₀.shapeCasts_S4x80x80_S4x80x80 (ix3 b y x)) _) _ _ = _
  rw [e20]
  unfold cellK
  rw [← e4]
  rfl

/-- So the accumulator's update, at its one cell: what it held there plus the point's total of cell terms. -/
theorem update_apply (v3 : FVec Ideal S4x80x80x1 .f32) (v19 : FVec Ideal S4x80x80 .f32) (v31 : FVec Ideal S1x1 .f32) :
    k0_pay2 (F := Ideal) v3 v19 v31 (ix2 (0 : Fin 1) (0 : Fin 1))
      = v31 (ix2 (0 : Fin 1) (0 : Fin 1))
        + ∑ b : Fin 4, ∑ y : Fin 80, ∑ x : Fin 80, cellK (v19 (ix3 b y x)) (v3 (ix4 b y x (0 : Fin 1))) := by
  rw [update_split, shapeCast_self]
  show v31 (ix2 (0 : Fin 1) (0 : Fin 1)) + blockTotal (maskedBlock v3 v19) (ix2 (0 : Fin 1) (0 : Fin 1)) = _
  rw [blockTotal_apply]
  refine congrArg _ (Finset.sum_congr rfl fun b _ => Finset.sum_congr rfl fun y _ => Finset.sum_congr rfl fun x _ => ?_)
  exact maskedBlock_apply v3 v19 b y x

end Cert.KernelIdeal.NoobjPoint

end
-- ==== Proof.LibSumSplit.lean ====
/-
  Three facts about finite sums in a commutative monoid, none of which needs more than commutativity and
  associativity of the addition (so they hold for the extended reals, infinities included).
-/
import Idealize.ShloMosaic.Lib.ValueIdx
import Mathlib.Algebra.BigOperators.Fin

noncomputable section

open scoped BigOperators

namespace Cert.Lib.SumSplit

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Position `b` of block `t`, among `N` consecutive blocks of `B` positions each: `B·t + b`. -/
def blockPos {N B : Nat} (t : Fin N) (b : Fin B) : Fin (N * B) := finProdFinEquiv (t, b)

theorem blockPos_val {N B : Nat} (t : Fin N) (b : Fin B) : (blockPos t b).val = b.val + B * t.val := rfl

/-- A sum over `N·B` consecutive positions is the sum, over the `N` blocks, of each block's `B` terms. -/
theorem sum_blocks {M : Type*} [AddCommMonoid M] (N B : Nat) (g : Fin (N * B) → M) :
    ∑ a, g a = ∑ t : Fin N, ∑ b : Fin B, g (blockPos t b) := by
  rw [← Equiv.sum_comp finProdFinEquiv g, Fintype.sum_prod_type]
  rfl

/-- A running total that starts at the first term and adds the next term at every step, for the first `K` steps, is at
    step `n` the sum of the terms `0 … n`. -/
theorem running_sum {M : Type*} [AddCommMonoid M] (K : Nat) (acc term : Nat → M) (h0 : acc 0 = term 0)
    (hs : ∀ n, n + 1 < K → acc (n + 1) = acc n + term (n + 1)) (n : Nat) (hn : n < K) :
    acc n = ∑ t ∈ Finset.range (n + 1), term t := by
  induction n with
  | zero => simp [h0]
  | succ n ih => rw [hs n hn, ih (Nat.lt_of_succ_lt hn), Finset.sum_range_succ _ (n + 1)]

end Cert.Lib.SumSplit

end
-- ==== Proof.KernelIdealTotal.lean ====
/-
  The accumulator after every grid point, as a running total. By the case analysis of the points, after position n the
  accumulator holds the body's update applied, point after point, to the zero the first point stores; at the last point
  the output cell receives the same. Read at the one cell, the update adds the point's total of cell terms, so after
  position n the cell holds the sum over the points 0 … n of their totals (the zero start contributes nothing).
-/
import proofs.«106109_j89283780149525_2_alg».proof.Proof.KernelIdealCases
import proofs.«106109_j89283780149525_2_alg».proof.Proof.NoobjPoint
import proofs.«106109_j89283780149525_2_alg».proof.Proof.LibSumSplit

set_option maxRecDepth 16384

noncomputable section

open scoped BigOperators

namespace Cert.KernelIdeal.NoobjTotal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Noobj Cert.KernelIdeal.NoobjCases Cert.KernelIdeal.NoobjPoint Cert.NoobjCell

variable (m : (ℓ : Loc nD τ sig) → Buf (Elt Ideal) ℓ) (ρ : Dev nD → PrngReg)

/-- The predictions' block at point `t` and the mask's, at their literal shapes. -/
abbrev predBlk (c : Dev nD) (t : Fin cfg0.N) : Vec Ideal S4x80x80x85 .f32 := iblk m c 0 t
abbrev maskBlk (c : Dev nD) (t : Fin cfg0.N) : Vec Ideal S4x80x80 .f32 := iblk m c 1 t
/-- The channel-0 slab the body loads of the predictions' block. -/
abbrev slabBlk (c : Dev nD) (t : Fin cfg0.N) : Vec Ideal S4x80x80x1 .f32 := View.ld (Val := Elt Ideal) (predBlk m c t) slab

/-- The accumulator after position `n`: the body's update applied point after point, from the stored zero. -/
def accAfter (c : Dev nD) : (n : ℕ) → n < cfg0.N → FVec Ideal S1x1 .f32
  | 0, h => k0_pay2 (F := Ideal) (slabBlk m c ⟨0, h⟩) (maskBlk m c ⟨0, h⟩) (k0_pay1 (F := Ideal))
  | n + 1, h => k0_pay2 (F := Ideal) (slabBlk m c ⟨n + 1, h⟩) (maskBlk m c ⟨n + 1, h⟩) (accAfter c n (Nat.lt_of_succ_lt h))

/-- What the accumulator holds after each point is that chain: by induction on the point. -/
theorem holdsAt_acc (c : Dev nD) : ∀ (n : ℕ) (h : n < cfg0.N), (holdsAt m c n h).2 = accAfter m c n h
  | 0, h => by
    rw [holdsAt_first m c ⟨0, h⟩ rfl (show (0 : ℕ) ≠ 15 by decide)]
    dsimp only
    rw [accFirst_eq]
    rfl
  | n + 1, h => by
    by_cases h1 : n + 1 = 15
    · rw [holdsAt_last m c ⟨n + 1, h⟩ (Nat.succ_ne_zero n) h1]
      dsimp only
      rw [accLast_eq]
      show k0_pay2 (F := Ideal) _ _ (holdsAt m c n _).2 = k0_pay2 (F := Ideal) _ _ (accAfter m c n _)
      rw [holdsAt_acc c n]
    · rw [holdsAt_middle m c ⟨n + 1, h⟩ (Nat.succ_ne_zero n) h1]
      dsimp only
      rw [accMiddle_eq]
      show k0_pay2 (F := Ideal) _ _ (holdsAt m c n _).2 = k0_pay2 (F := Ideal) _ _ (accAfter m c n _)
      rw [holdsAt_acc c n]

/-- At the last point the output cell receives the accumulator's new contents. -/
theorem holdsAt_out (c : Dev nD) (t : Fin cfg0.N) (h1 : t.val = 15) :
    (holdsAt m c t.val t.isLt).1 = accAfter m c t.val t.isLt := by
  have h0 : t.val ≠ 0 := by omega
  obtain ⟨n, hn⟩ := t
  cases n with
  | zero => exact absurd rfl h0
  | succ n =>
    rw [holdsAt_last m c ⟨n + 1, hn⟩ h0 h1]
    dsimp only
    rw [outLast_eq]
    show k0_pay2 (F := Ideal) _ _ (holdsAt m c n _).2 = k0_pay2 (F := Ideal) _ _ (accAfter m c n _)
    rw [holdsAt_acc m c n]

/-- Point `t`'s total of cell terms, over its four images, eighty rows and eighty columns. -/
def pointTerm (c : Dev nD) (t : Fin cfg0.N) : EReal :=
  ∑ b : Fin 4, ∑ y : Fin 80, ∑ x : Fin 80,
    cellK (maskBlk m c t (ix3 b y x)) (slabBlk m c t (ix4 b y x (0 : Fin 1)))

/-- The same by position, zero past the grid. -/
def pointTermAt (c : Dev nD) (k : ℕ) : EReal := if h : k < cfg0.N then pointTerm m c ⟨k, h⟩ else 0

/-- The zero the first point stores is the extended real zero. -/
theorem stored_zero : k0_pay1 (F := Ideal) (ix2 (0 : Fin 1) (0 : Fin 1)) = 0 := by
  unfold k0_pay1
  rw [shapeCast_self]
  exact Ideal.ofBits_zero_f32

/-- After position `n` the accumulator's cell holds the sum of the totals of the points `0 … n`. -/
theorem accAfter_cell (c : Dev nD) : ∀ (n : ℕ) (h : n < cfg0.N),
    accAfter m c n h (ix2 (0 : Fin 1) (0 : Fin 1)) = ∑ k ∈ Finset.range (n + 1), pointTermAt m c k
  | 0, h => by
    show k0_pay2 (F := Ideal) _ _ _ (ix2 (0 : Fin 1) (0 : Fin 1)) = _
    rw [update_apply, stored_zero, zero_add, Finset.sum_range_one]
    unfold pointTermAt; rw [dif_pos h]; rfl
  | n + 1, h => by
    show k0_pay2 (F := Ideal) _ _ _ (ix2 (0 : Fin 1) (0 : Fin 1)) = _
    rw [update_apply, accAfter_cell c n, Finset.sum_range_succ _ (n + 1)]
    congr 1
    unfold pointTermAt; rw [dif_pos h]; rfl

end Cert.KernelIdeal.NoobjTotal

end
-- ==== Proof.KernelIdealArrays.lean ====
/-
  From blocks to whole arrays. Point t's blocks hold the four images 4t … 4t+3, so a block's element at (b, y, x) is the
  array's element at image 4t + b; summing the sixteen points' totals of cell terms is therefore summing the cell term
  over every image, row and column once. The result cell is written back once, at the last point, with the accumulator's
  contents there: the sum over all 64·80·80 cells.
-/
import proofs.«106109_j89283780149525_2_alg».proof.Proof.KernelIdealTotal

set_option maxRecDepth 16384

noncomputable section

open scoped BigOperators

namespace Cert.KernelIdeal.NoobjArrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Noobj Cert.KernelIdeal.NoobjCases Cert.KernelIdeal.NoobjPoint
open Cert.KernelIdeal.NoobjTotal Cert.Lib.SumSplit Cert.NoobjCell

variable (m : (ℓ : Loc nD τ sig) → Buf (Elt Ideal) ℓ) (ρ : Dev nD → PrngReg)

/-- The two input windows' block indices at point `t`: `t` along the images, zero along every other axis. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- Image `b` of point `t`'s block is image `4t + b` of the array. -/
def image (t : Fin cfg0.N) (b : Fin 4) : Fin 64 :=
  ⟨4 * t.val + b.val, by have := t.isLt; have : cfg0.N = 16 := N_0; have := b.isLt; omega⟩

/-- The mask block's element is the mask array's, at that image. -/
theorem maskBlk_apply (c : Dev nD) (t : Fin cfg0.N) (b : Fin 4) (y x : Fin 80) :
    maskBlk m c t (ix3 b y x) = V m c main_v121 (ix3 (image t b) y x) := by
  obtain ⟨e0, e1, e2, e3, f0, f1, f2⟩ := idx_facts t
  show V m c main_v121 (((cfg0.win 1).blk t).view.emb (ix3 b y x)) = _
  refine congrArg _ ?_
  funext a; apply Fin.ext
  match a with
  | ⟨0, _⟩ => show win0_1.index t (0 : Fin 3) * 4 + 1 * b.val = 4 * t.val + b.val; omega
  | ⟨1, _⟩ => show win0_1.index t (1 : Fin 3) * 80 + 1 * y.val = y.val; omega
  | ⟨2, _⟩ => show win0_1.index t (2 : Fin 3) * 80 + 1 * x.val = x.val; omega

/-- The loaded channel-0 slab's element is the predictions' channel 0, at that image. -/
theorem predSlab_apply (c : Dev nD) (t : Fin cfg0.N) (b : Fin 4) (y x : Fin 80) :
    slabBlk m c t (ix4 b y x (0 : Fin 1)) = V m c main_arg0 (ix4 (image t b) y x (0 : Fin 85)) := by
  obtain ⟨e0, e1, e2, e3, f0, f1, f2⟩ := idx_facts t
  show V m c main_arg0 (((cfg0.win 0).blk t).view.emb (slab.idx (ix4 b y x (0 : Fin 1)))) = _
  refine congrArg _ ?_
  funext a; apply Fin.ext
  match a with
  | ⟨0, _⟩ => show win0_0.index t (0 : Fin 4) * 4 + 1 * (0 + 1 * b.val) = 4 * t.val + b.val; omega
  | ⟨1, _⟩ => show win0_0.index t (1 : Fin 4) * 80 + 1 * (0 + 1 * y.val) = y.val; omega
  | ⟨2, _⟩ => show win0_0.index t (2 : Fin 4) * 80 + 1 * (0 + 1 * x.val) = x.val; omega
  | ⟨3, _⟩ => show win0_0.index t (3 : Fin 4) * 85 + 1 * (0 + 1 * 0) = 0; omega

/-- The cell term at a cell of the whole arrays: from the mask there and the channel-0 logit there. -/
def cellAt (c : Dev nD) (j : S64x80x80.Idx) : EReal :=
  cellK (V m c main_v121 j) (V m c main_arg0 (ix4 (j 0) (j 1) (j 2) (0 : Fin 85)))

theorem pointTerm_eq (c : Dev nD) (t : Fin cfg0.N) :
    pointTerm m c t = ∑ b : Fin 4, ∑ y : Fin 80, ∑ x : Fin 80, cellAt m c (ix3 (image t b) y x) := by
  unfold pointTerm
  refine Finset.sum_congr rfl fun b _ => Finset.sum_congr rfl fun y _ => Finset.sum_congr rfl fun x _ => ?_
  rw [maskBlk_apply, predSlab_apply]
  rfl

/-- The sixteen points' totals together are the sum of the cell term over every cell. -/
theorem total_eq (c : Dev nD) :
    ∑ k ∈ Finset.range 16, pointTermAt m c k = ∑ j : S64x80x80.Idx, cellAt m c j := by
  have hN : cfg0.N = 16 := N_0
  rw [sum_idx3, sum_blocks 16 4 (fun a : Fin 64 => ∑ y : Fin 80, ∑ x : Fin 80, cellAt m c (ix3 a y x)), Finset.sum_range]
  refine Finset.sum_congr rfl fun t _ => ?_
  have ht : t.val < cfg0.N := by have := t.isLt; omega
  unfold pointTermAt
  rw [dif_pos ht, pointTerm_eq]
  refine Finset.sum_congr rfl fun b _ => ?_
  have e : image ⟨t.val, ht⟩ b = blockPos t b := Fin.ext (by rw [blockPos_val]; show 4 * t.val + b.val = b.val + 4 * t.val; omega)
  rw [e]

/-- The sum of the cell term over every cell. -/
def grandTotal (c : Dev nD) : EReal := ∑ j : S64x80x80.Idx, cellAt m c j

/-- The result cell's final contents: that sum. -/
def result (c : Dev nD) : Buf (Elt Ideal) ((c : Thread nD τ).loc main_v122) := fun _ => grandTotal m c

/-- The one write-back, at the last point, writes it. -/
theorem flushed_eq (c : Dev nD) (t : Fin cfg0.N) (hf : (cfg0.win 2).flush t = true) :
    (dats m 0 c).flushed 2 t = ((cfg0.win 2).blk t).view.read (Elt Ideal) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [afterOut, holdsAt_out m c t0_15 rfl]
  have s0 : ((cfg0.win 2).xblock (grid0.coords t0_15)).size 0 = 1 := by decide +kernel
  have s1 : ((cfg0.win 2).xblock (grid0.coords t0_15)).size 1 = 1 := by decide +kernel
  funext j
  have hj : j = ix2 (0 : Fin 1) (0 : Fin 1) := by
    funext a; apply Fin.ext
    match a with
    | ⟨0, _⟩ => have := (j 0).isLt; show (j 0).val = 0; omega
    | ⟨1, _⟩ => have := (j 1).isLt; show (j 1).val = 0; omega
  rw [hj]
  refine (accAfter_cell m c _ _).trans ?_
  show ∑ k ∈ Finset.range 16, pointTermAt m c k = grandTotal m c
  unfold grandTotal
  exact total_eq m c

/-- So the result cell ends holding that sum. -/
theorem final (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_v122).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

end Cert.KernelIdeal.NoobjArrays

end
-- ==== Proof.KernelIdealHostObj.lean ====
/-
  The object term's sum over the targets: the reference's first 195 operations and the kernel program's host operations
  before the region compute it by the same operations of the same two arguments.
-/
import proofs.«106109_j89283780149525_2_alg».proof.Proof.KernelIdealAround
import proofs.«106109_j89283780149525_2_alg».proof.Proof.RefLine
import Idealize.ShloMosaic.Lib.StableHlo.Run
import Idealize.ShloMosaic.PureOps.Ideal

set_option maxRecDepth 16384

noncomputable section

namespace Cert.KernelIdeal.NoobjHost

open Idealize.ShloMosaic Idealize.ShloMosaic.TcCoe Idealize.ShloMosaic.StableHlo
open Idealize.SL Idealize.SL.Sem
open Cert.KernelIdeal Cert.KernelIdeal.Gen Cert.KernelIdeal.Noobj

set_option maxHeartbeats 200000000 in
/-- From valuations that agree on the two arguments, the two programs' host prefixes leave the same object sum. -/
theorem objSum_eq (MK : Valuation τ sig (Elt Ideal)) (MR : Valuation Cert.ReferenceIdeal.τ Cert.ReferenceIdeal.sig (Elt Ideal))
    (h0 : MR (Proc.devRef .tc Cert.ReferenceIdeal.main_arg0) = MK (Proc.devRef .tc main_arg0))
    (h1 : MR (Proc.devRef .tc Cert.ReferenceIdeal.main_arg1) = MK (Proc.devRef .tc main_arg1)) :
    StableHlo.after (Cert.ReferenceIdeal.Line.opsP (F := Ideal)) MR (Proc.devRef .tc Cert.ReferenceIdeal.main_v50) = StableHlo.after (List.flatten (before (F := Ideal))) MK (Proc.devRef .tc main_v50) := by
  have e : MR = Function.update (Function.update MR (Proc.devRef .tc Cert.ReferenceIdeal.main_arg0) (MK (Proc.devRef .tc main_arg0)))
      (Proc.devRef .tc Cert.ReferenceIdeal.main_arg1) (MK (Proc.devRef .tc main_arg1)) := by
    rw [← h0, Function.update_eq_self, ← h1, Function.update_eq_self]
  rw [e]
  simp only [before, hostOps0, hostOps0_1, hostOps0_2, hostOps0_3, hostOps0_4, hostOps0_5, hostOps0_6, hostOps0_7, hostOps0_8, hostOps0_9,
      List.flatten_cons, List.flatten_nil, List.append_nil, List.cons_append, List.nil_append, Cert.ReferenceIdeal.Line.opsP]
  after_results_simp
  rfl

end Cert.KernelIdeal.NoobjHost

end
-- ==== Proof.KernelIdealHostCoord.lean ====
/-
  The coordinate term (five times the four squared-error sums): the same operations of the same two arguments in both
  programs' host prefixes.
-/
import proofs.«106109_j89283780149525_2_alg».proof.Proof.KernelIdealAround
import proofs.«106109_j89283780149525_2_alg».proof.Proof.RefLine
import Idealize.ShloMosaic.Lib.StableHlo.Run
import Idealize.ShloMosaic.PureOps.Ideal

set_option maxRecDepth 16384

noncomputable section

namespace Cert.KernelIdeal.NoobjHost

open Idealize.ShloMosaic Idealize.ShloMosaic.TcCoe Idealize.ShloMosaic.StableHlo
open Idealize.SL Idealize.SL.Sem
open Cert.KernelIdeal Cert.KernelIdeal.Gen Cert.KernelIdeal.Noobj

set_option maxHeartbeats 200000000 in
/-- From valuations that agree on the two arguments, the two programs' host prefixes leave the same coordinate term. -/
theorem coordSum_eq (MK : Valuation τ sig (Elt Ideal)) (MR : Valuation Cert.ReferenceIdeal.τ Cert.ReferenceIdeal.sig (Elt Ideal))
    (h0 : MR (Proc.devRef .tc Cert.ReferenceIdeal.main_arg0) = MK (Proc.devRef .tc main_arg0))
    (h1 : MR (Proc.devRef .tc Cert.ReferenceIdeal.main_arg1) = MK (Proc.devRef .tc main_arg1)) :
    StableHlo.after (Cert.ReferenceIdeal.Line.opsP (F := Ideal)) MR (Proc.devRef .tc Cert.ReferenceIdeal.main_v90) = StableHlo.after (List.flatten (before (F := Ideal))) MK (Proc.devRef .tc main_v90) := by
  have e : MR = Function.update (Function.update MR (Proc.devRef .tc Cert.ReferenceIdeal.main_arg0) (MK (Proc.devRef .tc main_arg0)))
      (Proc.devRef .tc Cert.ReferenceIdeal.main_arg1) (MK (Proc.devRef .tc main_arg1)) := by
    rw [← h0, Function.update_eq_self, ← h1, Function.update_eq_self]
  rw [e]
  simp only [before, hostOps0, hostOps0_1, hostOps0_2, hostOps0_3, hostOps0_4, hostOps0_5, hostOps0_6, hostOps0_7, hostOps0_8, hostOps0_9,
      List.flatten_cons, List.flatten_nil, List.append_nil, List.cons_append, List.nil_append, Cert.ReferenceIdeal.Line.opsP]
  after_results_simp
  rfl

end Cert.KernelIdeal.NoobjHost

end
-- ==== Proof.KernelIdealHostClass.lean ====
/-
  The class term's sum: the same operations of the same two arguments in both programs' host prefixes.
-/
import proofs.«106109_j89283780149525_2_alg».proof.Proof.KernelIdealAround
import proofs.«106109_j89283780149525_2_alg».proof.Proof.RefLine
import Idealize.ShloMosaic.Lib.StableHlo.Run
import Idealize.ShloMosaic.PureOps.Ideal

set_option maxRecDepth 16384

noncomputable section

namespace Cert.KernelIdeal.NoobjHost

open Idealize.ShloMosaic Idealize.ShloMosaic.TcCoe Idealize.ShloMosaic.StableHlo
open Idealize.SL Idealize.SL.Sem
open Cert.KernelIdeal Cert.KernelIdeal.Gen Cert.KernelIdeal.Noobj

set_option maxHeartbeats 200000000 in
/-- From valuations that agree on the two arguments, the two programs' host prefixes leave the same class sum. -/
theorem classSum_eq (MK : Valuation τ sig (Elt Ideal)) (MR : Valuation Cert.ReferenceIdeal.τ Cert.ReferenceIdeal.sig (Elt Ideal))
    (h0 : MR (Proc.devRef .tc Cert.ReferenceIdeal.main_arg0) = MK (Proc.devRef .tc main_arg0))
    (h1 : MR (Proc.devRef .tc Cert.ReferenceIdeal.main_arg1) = MK (Proc.devRef .tc main_arg1)) :
    StableHlo.after (Cert.ReferenceIdeal.Line.opsP (F := Ideal)) MR (Proc.devRef .tc Cert.ReferenceIdeal.main_v96) = StableHlo.after (List.flatten (before (F := Ideal))) MK (Proc.devRef .tc main_v96) := by
  have e : MR = Function.update (Function.update MR (Proc.devRef .tc Cert.ReferenceIdeal.main_arg0) (MK (Proc.devRef .tc main_arg0)))
      (Proc.devRef .tc Cert.ReferenceIdeal.main_arg1) (MK (Proc.devRef .tc main_arg1)) := by
    rw [← h0, Function.update_eq_self, ← h1, Function.update_eq_self]
  rw [e]
  simp only [before, hostOps0, hostOps0_1, hostOps0_2, hostOps0_3, hostOps0_4, hostOps0_5, hostOps0_6, hostOps0_7, hostOps0_8, hostOps0_9,
      List.flatten_cons, List.flatten_nil, List.append_nil, List.cons_append, List.nil_append, Cert.ReferenceIdeal.Line.opsP]
  after_results_simp
  rfl

end Cert.KernelIdeal.NoobjHost

end
-- ==== Proof.KernelIdealHostMask.lean ====
/-
  The mask the region reads is the reference's occupancy array (the scatter of "true" at every target's cell into an
  all-false array), each bit converted to a float: 0 or 1.
-/
import proofs.«106109_j89283780149525_2_alg».proof.Proof.KernelIdealAround
import proofs.«106109_j89283780149525_2_alg».proof.Proof.RefLine
import Idealize.ShloMosaic.Lib.StableHlo.Run
import Idealize.ShloMosaic.PureOps.Ideal

set_option maxRecDepth 16384

noncomputable section

namespace Cert.KernelIdeal.NoobjHost

open Idealize.ShloMosaic Idealize.ShloMosaic.TcCoe Idealize.ShloMosaic.StableHlo
open Idealize.SL Idealize.SL.Sem
open Cert.KernelIdeal Cert.KernelIdeal.Gen Cert.KernelIdeal.Noobj

set_option maxHeartbeats 200000000 in
/-- From valuations that agree on the two arguments: the kernel program's mask is the reference's occupancy array, bit by bit as a float. -/
theorem mask_eq (MK : Valuation τ sig (Elt Ideal)) (MR : Valuation Cert.ReferenceIdeal.τ Cert.ReferenceIdeal.sig (Elt Ideal))
    (h0 : MR (Proc.devRef .tc Cert.ReferenceIdeal.main_arg0) = MK (Proc.devRef .tc main_arg0))
    (h1 : MR (Proc.devRef .tc Cert.ReferenceIdeal.main_arg1) = MK (Proc.devRef .tc main_arg1)) :
    StableHlo.after (List.flatten (before (F := Ideal))) MK (Proc.devRef .tc main_v121)
      = uitofp (F := Ideal) .f32 (StableHlo.after (Cert.ReferenceIdeal.Line.opsP (F := Ideal)) MR (Proc.devRef .tc Cert.ReferenceIdeal.main_v120)) := by
  have e : MR = Function.update (Function.update MR (Proc.devRef .tc Cert.ReferenceIdeal.main_arg0) (MK (Proc.devRef .tc main_arg0)))
      (Proc.devRef .tc Cert.ReferenceIdeal.main_arg1) (MK (Proc.devRef .tc main_arg1)) := by
    rw [← h0, Function.update_eq_self, ← h1, Function.update_eq_self]
  rw [e]
  simp only [before, hostOps0, hostOps0_1, hostOps0_2, hostOps0_3, hostOps0_4, hostOps0_5, hostOps0_6, hostOps0_7, hostOps0_8, hostOps0_9,
      List.flatten_cons, List.flatten_nil, List.append_nil, List.cons_append, List.nil_append, Cert.ReferenceIdeal.Line.opsP]
  after_results_simp
  rfl

end Cert.KernelIdeal.NoobjHost

end
-- ==== Proof.KernelIdealResults.lean ====
/-
  The kernel program's five results after the run, against the reference's. The host operations after the region divide
  the three sums computed before the region (object, coordinate, class) by 64, halve the region's result cell and divide
  it by 64 (the no-object term), and add the four. From memories that agree on the two arguments each is what the
  reference's operations leave in the corresponding buffer: the three sums are the same host operations of the same
  arguments; the result cell holds the sum over all cells of the kernel's cell term on the mask, which is the cell's
  contribution, which is what the reference's reduction adds up; and sums of equal terms are equal.
-/
import proofs.«106109_j89283780149525_2_alg».proof.Proof.KernelIdealArrays
import proofs.«106109_j89283780149525_2_alg».proof.Proof.KernelIdealHostObj
import proofs.«106109_j89283780149525_2_alg».proof.Proof.KernelIdealHostCoord
import proofs.«106109_j89283780149525_2_alg».proof.Proof.KernelIdealHostClass
import proofs.«106109_j89283780149525_2_alg».proof.Proof.KernelIdealHostMask
import proofs.«106109_j89283780149525_2_alg».proof.Proof.RefTail

set_option maxRecDepth 16384

noncomputable section

open scoped BigOperators

namespace Cert.KernelIdeal.NoobjResults

open Idealize.ShloMosaic Idealize.ShloMosaic.TcCoe Idealize.ShloMosaic.StableHlo Idealize.ShloMosaic.ValueIdx
open Idealize.SL Idealize.SL.Sem
open Idealize.ShloMosaic.Pipeline (Dat Cfg Window)
open Cert.KernelIdeal Cert.KernelIdeal.Gen Cert.KernelIdeal.Noobj Cert.KernelIdeal.NoobjPoint
open Cert.KernelIdeal.NoobjTotal Cert.KernelIdeal.NoobjArrays Cert.KernelIdeal.NoobjHost Cert.NoobjCell
open Cert.ReferenceIdeal.Tail (objOut noobjOut coordOut classOut noobjSum)

variable (m : (ℓ : Loc nD τ sig) → Buf (Elt Ideal) ℓ) (ρ : Dev nD → PrngReg)

/-! ## What the host operations after the region start from -/

/-- The buffers when the region ends: its arrays as the region leaves them, every other buffer as it found it. -/
abbrev W (c : Dev nD) : Valuation τ sig (Elt Ideal) :=
  Pipeline.withArrays spec0 c (V0 m c) fun w => (dats m 0 c).arrAt w cfg0.N

theorem W_rest (c : Dev nD) (b : Ref sig .tc) (hb : ∀ w, Pipeline.arrRef spec0 w ≠ b) :
    W m c (Proc.devRef .tc b) = V m c b :=
  Pipeline.withArrays_of_ne _ c (V0 m c) _ b hb

theorem W_result (c : Dev nD) :
    W m c (Proc.devRef .tc main_v122) = result m c :=
  (Pipeline.withArrays_arr spec0 launch0.win.arr_inj c _ _ 2).trans (final m c)

/-- Sixty-four and one half, as the host operations spell them. -/
abbrev c64 : FVec Ideal S_ .f32 := constant (F := Ideal) S_ .f32 0x42800000#32
abbrev half : FVec Ideal S_ .f32 := constant (F := Ideal) S_ .f32 0x3F000000#32

/-- The four terms as the host operations after the region compute them. -/
def objTerm (c : Dev nD) : FVec Ideal S_ .f32 := Host.divf (F := Ideal) (V m c main_v50) c64
def noobjTerm (c : Dev nD) : FVec Ideal S_ .f32 :=
  Host.divf (F := Ideal) (mulf (F := Ideal) half (fun i => shapeCast S_ (result m c) Facts₀.shapeCasts_S1x1_S_ i)) c64
def coordTerm (c : Dev nD) : FVec Ideal S_ .f32 := Host.divf (F := Ideal) (V m c main_v90) c64
def classTerm (c : Dev nD) : FVec Ideal S_ .f32 := Host.divf (F := Ideal) (V m c main_v96) c64

theorem tail_obj (c : Dev nD) :
    Pipeline.afterTail₀ cfgs (dats m) 0 (V0 m) [hostOps1] c main_v125 = objTerm m c := by
  unfold Pipeline.afterTail₀
  show StableHlo.after hostOps1 (W m c) (Proc.devRef .tc main_v125) = _
  have e50 : W m c (Proc.devRef .tc main_v50) = V m c main_v50 := W_rest m c main_v50 (by decide)
  generalize W m c = Wc at e50 ⊢
  after_results
  rw [e50]
  rfl

theorem tail_noobj (c : Dev nD) :
    Pipeline.afterTail₀ cfgs (dats m) 0 (V0 m) [hostOps1] c main_v126 = noobjTerm m c := by
  unfold Pipeline.afterTail₀
  show StableHlo.after hostOps1 (W m c) (Proc.devRef .tc main_v126) = _
  have eR : W m c (Proc.devRef .tc main_v122) = result m c := W_result m c
  generalize W m c = Wc at eR ⊢
  after_results
  rw [eR]
  rfl

theorem tail_coord (c : Dev nD) :
    Pipeline.afterTail₀ cfgs (dats m) 0 (V0 m) [hostOps1] c main_v127 = coordTerm m c := by
  unfold Pipeline.afterTail₀
  show StableHlo.after hostOps1 (W m c) (Proc.devRef .tc main_v127) = _
  have e90 : W m c (Proc.devRef .tc main_v90) = V m c main_v90 := W_rest m c main_v90 (by decide)
  generalize W m c = Wc at e90 ⊢
  after_results
  rw [e90]
  rfl

theorem tail_class (c : Dev nD) :
    Pipeline.afterTail₀ cfgs (dats m) 0 (V0 m) [hostOps1] c main_v128 = classTerm m c := by
  unfold Pipeline.afterTail₀
  show StableHlo.after hostOps1 (W m c) (Proc.devRef .tc main_v128) = _
  have e96 : W m c (Proc.devRef .tc main_v96) = V m c main_v96 := W_rest m c main_v96 (by decide)
  generalize W m c = Wc at e96 ⊢
  after_results
  rw [e96]
  rfl

theorem tail_total (c : Dev nD) :
    Pipeline.afterTail₀ cfgs (dats m) 0 (V0 m) [hostOps1] c main_v131 = addf (F := Ideal) (addf (F := Ideal) (addf (F := Ideal) (objTerm m c) (noobjTerm m c)) (coordTerm m c)) (classTerm m c) := by
  unfold Pipeline.afterTail₀
  show StableHlo.after hostOps1 (W m c) (Proc.devRef .tc main_v131) = _
  have e50 : W m c (Proc.devRef .tc main_v50) = V m c main_v50 := W_rest m c main_v50 (by decide)
  have e90 : W m c (Proc.devRef .tc main_v90) = V m c main_v90 := W_rest m c main_v90 (by decide)
  have e96 : W m c (Proc.devRef .tc main_v96) = V m c main_v96 := W_rest m c main_v96 (by decide)
  have eR : W m c (Proc.devRef .tc main_v122) = result m c := W_result m c
  generalize W m c = Wc at e50 e90 e96 eR ⊢
  after_results
  rw [e50, e90, e96, eR]
  rfl

/-! ## Each term is what the reference's operations leave -/

variable (m' : (ℓ : Loc Cert.ReferenceIdeal.nD Cert.ReferenceIdeal.τ Cert.ReferenceIdeal.sig) → Buf (Elt Ideal) ℓ)
  (hagree : ∀ c : Dev nD, m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1))

include hagree

theorem obj_eq (c : Dev nD) : objTerm m c = objOut (StableHlo.after (Cert.ReferenceIdeal.Line.opsP (F := Ideal)) (StableHlo.launchContents m' c)) := by
  unfold objTerm objOut
  rw [objSum_eq (fun b => m (c, b)) (StableHlo.launchContents m' c) (hagree c).1 (hagree c).2]
theorem coord_eq (c : Dev nD) : coordTerm m c = coordOut (StableHlo.after (Cert.ReferenceIdeal.Line.opsP (F := Ideal)) (StableHlo.launchContents m' c)) := by
  unfold coordTerm coordOut
  rw [coordSum_eq (fun b => m (c, b)) (StableHlo.launchContents m' c) (hagree c).1 (hagree c).2]
theorem class_eq (c : Dev nD) : classTerm m c = classOut (StableHlo.after (Cert.ReferenceIdeal.Line.opsP (F := Ideal)) (StableHlo.launchContents m' c)) := by
  unfold classTerm classOut
  rw [classSum_eq (fun b => m (c, b)) (StableHlo.launchContents m' c) (hagree c).1 (hagree c).2]

/-- The result cell, reshaped to a scalar, is the reference's no-object sum: the same cells, the same contribution at
    each. -/
theorem noobjSum_eq (c : Dev nD) :
    (fun i => shapeCast S_ (result m c) Facts₀.shapeCasts_S1x1_S_ i) = noobjSum (StableHlo.after (Cert.ReferenceIdeal.Line.opsP (F := Ideal)) (StableHlo.launchContents m' c)) := by
  have e1 : V m c main_v121 = uitofp (F := Ideal) .f32 ((StableHlo.after (Cert.ReferenceIdeal.Line.opsP (F := Ideal)) (StableHlo.launchContents m' c)) (Proc.devRef .tc Cert.ReferenceIdeal.main_v120)) :=
    mask_eq (fun b => m (c, b)) (StableHlo.launchContents m' c) (hagree c).1 (hagree c).2
  have e0 : (StableHlo.after (Cert.ReferenceIdeal.Line.opsP (F := Ideal)) (StableHlo.launchContents m' c)) (Proc.devRef .tc Cert.ReferenceIdeal.main_arg0) = V m c main_arg0 :=
    (Cert.ReferenceIdeal.Tail.head_keeps _ _ (.inl rfl)).trans ((hagree c).1.trans (V_main_arg0 m c).symm)
  funext i
  unfold noobjSum
  rw [Cert.ReferenceIdeal.Tail.reduce_apply]
  show grandTotal m c = _
  unfold grandTotal
  refine Finset.sum_congr rfl fun j _ => ?_
  unfold cellAt
  rw [e1, ← e0]
  exact cellK_eq _ _

theorem noobj_eq (c : Dev nD) : noobjTerm m c = noobjOut (StableHlo.after (Cert.ReferenceIdeal.Line.opsP (F := Ideal)) (StableHlo.launchContents m' c)) := by
  unfold noobjTerm noobjOut
  rw [noobjSum_eq m m' hagree c]

/-! ## The run, read -/

/-- Every weakly fair execution of the idealized kernel program ends with its five results at what the reference's
    operations leave in the corresponding buffers from `m'`, and with the arguments unchanged. -/
theorem run : θ_run defs (onTc (τ := τ) (main (F := Ideal))) ⟨m, fun _ => 0, ρ⟩ fun r => ∀ c : Dev nD,
      r.2.mem ((c.tc : Thread nD τ).loc main_v131) = StableHlo.after (Cert.ReferenceIdeal.Line.opsQ (F := Ideal)) (StableHlo.after (Cert.ReferenceIdeal.Line.opsP (F := Ideal)) (StableHlo.launchContents m' c)) (Proc.devRef .tc Cert.ReferenceIdeal.main_v133)
      ∧ r.2.mem ((c.tc : Thread nD τ).loc main_v125) = StableHlo.after (Cert.ReferenceIdeal.Line.opsQ (F := Ideal)) (StableHlo.after (Cert.ReferenceIdeal.Line.opsP (F := Ideal)) (StableHlo.launchContents m' c)) (Proc.devRef .tc Cert.ReferenceIdeal.main_v127)
      ∧ r.2.mem ((c.tc : Thread nD τ).loc main_v126) = StableHlo.after (Cert.ReferenceIdeal.Line.opsQ (F := Ideal)) (StableHlo.after (Cert.ReferenceIdeal.Line.opsP (F := Ideal)) (StableHlo.launchContents m' c)) (Proc.devRef .tc Cert.ReferenceIdeal.main_v128)
      ∧ r.2.mem ((c.tc : Thread nD τ).loc main_v127) = StableHlo.after (Cert.ReferenceIdeal.Line.opsQ (F := Ideal)) (StableHlo.after (Cert.ReferenceIdeal.Line.opsP (F := Ideal)) (StableHlo.launchContents m' c)) (Proc.devRef .tc Cert.ReferenceIdeal.main_v129)
      ∧ r.2.mem ((c.tc : Thread nD τ).loc main_v128) = StableHlo.after (Cert.ReferenceIdeal.Line.opsQ (F := Ideal)) (StableHlo.after (Cert.ReferenceIdeal.Line.opsP (F := Ideal)) (StableHlo.launchContents m' c)) (Proc.devRef .tc Cert.ReferenceIdeal.main_v130)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v131 (Pipeline.mem_restRefs_of main_v131 (by decide) (by decide))).trans ((tail_total m c).trans (by
        rw [Cert.ReferenceIdeal.Tail.tail_total, obj_eq m m' hagree c, noobj_eq m m' hagree c, coord_eq m m' hagree c, class_eq m m' hagree c])),
      ((h c).2 main_v125 (Pipeline.mem_restRefs_of main_v125 (by decide) (by decide))).trans ((tail_obj m c).trans (by
        rw [Cert.ReferenceIdeal.Tail.tail_obj, obj_eq m m' hagree c])),
      ((h c).2 main_v126 (Pipeline.mem_restRefs_of main_v126 (by decide) (by decide))).trans ((tail_noobj m c).trans (by
        rw [Cert.ReferenceIdeal.Tail.tail_noobj, noobj_eq m m' hagree c])),
      ((h c).2 main_v127 (Pipeline.mem_restRefs_of main_v127 (by decide) (by decide))).trans ((tail_coord m c).trans (by
        rw [Cert.ReferenceIdeal.Tail.tail_coord, coord_eq m m' hagree c])),
      ((h c).2 main_v128 (Pipeline.mem_restRefs_of main_v128 (by decide) (by decide))).trans ((tail_class m c).trans (by
        rw [Cert.ReferenceIdeal.Tail.tail_class, class_eq m m' hagree c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.NoobjResults

end
-- ==== Proof.lean ====
/-
  The claim. The loss has four terms. In both programs the object, coordinate and class terms are the same host
  operations of the predictions and the targets. The no-object term is one half of the sum, over all 64·80·80 grid cells,
  of softplus of the cell's objectness logit where the cell is unoccupied and of nothing where it is occupied: the
  reference takes it as one reduction over the whole array; the kernel adds it up in a one-cell accumulator over sixteen
  grid points of four images each (the accumulator reset to zero at the first point, copied to the result at the last),
  testing occupancy as "the mask, 0 or 1 as a float, exceeds one half". On the extended reals the two are the same sum,
  by commutativity and associativity of the addition alone, so the precondition is never opened. Each program terminates
  without a fault and leaves its two arguments as it found them.
-/
import proofs.«106109_j89283780149525_2_alg».proof.Defs
import proofs.«106109_j89283780149525_2_alg».proof.Proof.Gen.Kernel
import proofs.«106109_j89283780149525_2_alg».proof.Proof.Gen.KernelIdeal
import proofs.«106109_j89283780149525_2_alg».proof.Proof.Gen.ReferenceIdeal
import proofs.«106109_j89283780149525_2_alg».proof.Proof.Gen.Pre_finite_inputs
import proofs.«106109_j89283780149525_2_alg».proof.Proof.RefLine
import proofs.«106109_j89283780149525_2_alg».proof.Proof.RefTail
import proofs.«106109_j89283780149525_2_alg».proof.Proof.KernelAccum
import proofs.«106109_j89283780149525_2_alg».proof.Proof.KernelIdealResults
import Idealize.ShloMosaic.Adequacy
import Idealize.ShloMosaic.Init

noncomputable section

namespace Cert.Proof

open Idealize.ShloMosaic Idealize.SL.Sem

/-- The kernel program, read at the word level, runs and keeps its arguments. -/
theorem frame_kernel : Cert.frame_Kernel (hKernel := Cert.Kernel.Gen.facts) (hPre_finite_inputs := Cert.Pre_finite_inputs.Gen.facts) :=
  fun m ρ _ => Cert.Kernel.Noobj.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Noobj.frame m ρ

/-- The reference is host operations only: it terminates, and neither its first 195 operations nor its last 34 write an
    argument. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
      ⟨(h c Cert.ReferenceIdeal.main_arg0).trans ((Cert.ReferenceIdeal.Tail.tail_keeps _ _ (.inl rfl)).trans (Cert.ReferenceIdeal.Tail.head_keeps _ _ (.inl rfl))),
       (h c Cert.ReferenceIdeal.main_arg1).trans ((Cert.ReferenceIdeal.Tail.tail_keeps _ _ (.inr rfl)).trans (Cert.ReferenceIdeal.Tail.head_keeps _ _ (.inr rfl)))⟩)
    (Cert.ReferenceIdeal.Line.run (F := Ideal) m ρ)

/-- From memories agreeing on the two arguments both idealized programs end with the same five results: what the
    reference's operations leave in its result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, _, Cert.KernelIdeal.NoobjResults.run m ρ m' hagree, ?_⟩
  refine (θ_run Cert.ReferenceIdeal.defs _ _).mono (fun _ h c =>
      ⟨h c Cert.ReferenceIdeal.main_v133, h c Cert.ReferenceIdeal.main_v127, h c Cert.ReferenceIdeal.main_v128,
       h c Cert.ReferenceIdeal.main_v129, h c Cert.ReferenceIdeal.main_v130,
       (h c Cert.ReferenceIdeal.main_arg0).trans ((Cert.ReferenceIdeal.Tail.tail_keeps _ _ (.inl rfl)).trans (Cert.ReferenceIdeal.Tail.head_keeps _ _ (.inl rfl))),
       (h c Cert.ReferenceIdeal.main_arg1).trans ((Cert.ReferenceIdeal.Tail.tail_keeps _ _ (.inr rfl)).trans (Cert.ReferenceIdeal.Tail.head_keeps _ _ (.inr rfl)))⟩)
    (Cert.ReferenceIdeal.Line.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
